-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg12 : FVec F S256 .f32) (main_arg13 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg8 : FVec F S256 .f32) (main_arg9 : FVec F S256 .f32) (main_arg10 : FVec F S256x256 .f32) (main_arg11 : FVec F S256x256 .f32) (main_arg12 : FVec F S256 .f32) (main_arg13 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256x256 .f32) (main_arg8 : FVec F S256 .f32) (main_arg9 : FVec F S256 .f32) (main_arg10 : FVec F S256x256 .f32) (main_arg11 : FVec F S256x256 .f32) (main_arg12 : FVec F S256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256 .f32) (main_arg6 : FVec F S256x256 .f32) (main_arg7 : FVec F S256x256 .f32) (main_arg8 : FVec F S256 .f32) (main_arg9 : FVec F S256 .f32) (main_arg10 : FVec F S256x256 .f32) (main_arg11 : FVec F S256x256 .f32) (main_arg12 : FVec F S256 .f32) (main_arg13 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S_ : Shape := ⟨0, ![]⟩
abbrev S800000x1 : Shape := ⟨2, ![800000, 1]⟩
abbrev S800000x256 : Shape := ⟨2, ![800000, 256]⟩

abbrev nBuf : Space → Nat
  | .hbm => 163
  | .vmem => 40
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S128x256, .f32⟩
  | 4 => ⟨S256, .f32⟩
  | 5 => ⟨S256, .f32⟩
  | 6 => ⟨S256x256, .f32⟩
  | 7 => ⟨S256x256, .f32⟩
  | 8 => ⟨S256, .f32⟩
  | 9 => ⟨S256, .f32⟩
  | 10 => ⟨S256x256, .f32⟩
  | 11 => ⟨S256x256, .f32⟩
  | 12 => ⟨S256, .f32⟩
  | 13 => ⟨S256, .f32⟩
  | 14 => ⟨S1x800000, .i32⟩
  | 15 => ⟨S800000, .i32⟩
  | 16 => ⟨S1x800000, .i32⟩
  | 17 => ⟨S800000, .i32⟩
  | 18 => ⟨S1x256, .f32⟩
  | 19 => ⟨S1x256, .f32⟩
  | 20 => ⟨S1x256, .f32⟩
  | 21 => ⟨S1x256, .f32⟩
  | 22 => ⟨S1x256, .f32⟩
  | 23 => ⟨S1x256, .f32⟩
  | 24 => ⟨S50000x256, .f32⟩
  | 25 => ⟨S50000x256, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x256, .f32⟩
  | 35 => ⟨S_, .f32⟩
  | 36 => ⟨S50000x256, .f32⟩
  | 37 => ⟨S800000x1, .i32⟩
  | 38 => ⟨S50000x256, .f32⟩
  | 39 => ⟨S50000x256, .f32⟩
  | 40 => ⟨S_, .f32⟩
  | 41 => ⟨S256, .f32⟩
  | 42 => ⟨S1x256, .f32⟩
  | 43 => ⟨S_, .f32⟩
  | 44 => ⟨S1x256, .f32⟩
  | 45 => ⟨S1x256, .f32⟩
  | 46 => ⟨S_, .i32⟩
  | 47 => ⟨S_, .f32⟩
  | 48 => ⟨S256, .f32⟩
  | 49 => ⟨S1x256, .f32⟩
  | 50 => ⟨S_, .f32⟩
  | 51 => ⟨S1x256, .f32⟩
  | 52 => ⟨S1x256, .f32⟩
  | 53 => ⟨S50000x256, .f32⟩
  | 54 => ⟨S50000x256, .f32⟩
  | 55 => ⟨S50000x256, .f32⟩
  | 56 => ⟨S_, .f32⟩
  | 57 => ⟨S_, .f32⟩
  | 58 => ⟨S_, .f32⟩
  | 59 => ⟨S_, .f32⟩
  | 60 => ⟨S256, .f32⟩
  | 61 => ⟨S1x256, .f32⟩
  | 62 => ⟨S1x256, .f32⟩
  | 63 => ⟨S1x256, .f32⟩
  | 64 => ⟨S_, .f32⟩
  | 65 => ⟨S_, .i1⟩
  | 66 => ⟨S_, .f32⟩
  | 67 => ⟨S_, .f32⟩
  | 68 => ⟨S1x256, .f32⟩
  | 69 => ⟨S1x256, .f32⟩
  | 70 => ⟨S50000x256, .f32⟩
  | 71 => ⟨S50000x256, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x256, .f32⟩
  | 81 => ⟨S_, .f32⟩
  | 82 => ⟨S50000x256, .f32⟩
  | 83 => ⟨S800000x1, .i32⟩
  | 84 => ⟨S50000x256, .f32⟩
  | 85 => ⟨S50000x256, .f32⟩
  | 86 => ⟨S_, .f32⟩
  | 87 => ⟨S256, .f32⟩
  | 88 => ⟨S1x256, .f32⟩
  | 89 => ⟨S_, .f32⟩
  | 90 => ⟨S1x256, .f32⟩
  | 91 => ⟨S1x256, .f32⟩
  | 92 => ⟨S_, .i32⟩
  | 93 => ⟨S_, .f32⟩
  | 94 => ⟨S256, .f32⟩
  | 95 => ⟨S1x256, .f32⟩
  | 96 => ⟨S_, .f32⟩
  | 97 => ⟨S1x256, .f32⟩
  | 98 => ⟨S1x256, .f32⟩
  | 99 => ⟨S50000x256, .f32⟩
  | 100 => ⟨S50000x256, .f32⟩
  | 101 => ⟨S50000x256, .f32⟩
  | 102 => ⟨S_, .f32⟩
  | 103 => ⟨S_, .f32⟩
  | 104 => ⟨S_, .f32⟩
  | 105 => ⟨S_, .f32⟩
  | 106 => ⟨S256, .f32⟩
  | 107 => ⟨S1x256, .f32⟩
  | 108 => ⟨S1x256, .f32⟩
  | 109 => ⟨S1x256, .f32⟩
  | 110 => ⟨S_, .f32⟩
  | 111 => ⟨S_, .i1⟩
  | 112 => ⟨S_, .f32⟩
  | 113 => ⟨S_, .f32⟩
  | 114 => ⟨S1x256, .f32⟩
  | 115 => ⟨S1x256, .f32⟩
  | 116 => ⟨S50000x256, .f32⟩
  | 117 => ⟨S50000x256, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x256, .f32⟩
  | 127 => ⟨S_, .f32⟩
  | _ => ⟨S50000x128, .f32⟩

abbrev hbmTy0_1 (i : Nat) : BufTy := match i % 128 with
  | 0 => ⟨S50000x256, .f32⟩
  | 1 => ⟨S800000x1, .i32⟩
  | 2 => ⟨S50000x256, .f32⟩
  | 3 => ⟨S50000x256, .f32⟩
  | 4 => ⟨S_, .f32⟩
  | 5 => ⟨S256, .f32⟩
  | 6 => ⟨S1x256, .f32⟩
  | 7 => ⟨S_, .f32⟩
  | 8 => ⟨S1x256, .f32⟩
  | 9 => ⟨S1x256, .f32⟩
  | 10 => ⟨S_, .i32⟩
  | 11 => ⟨S_, .f32⟩
  | 12 => ⟨S256, .f32⟩
  | 13 => ⟨S1x256, .f32⟩
  | 14 => ⟨S_, .f32⟩
  | 15 => ⟨S1x256, .f32⟩
  | 16 => ⟨S1x256, .f32⟩
  | 17 => ⟨S50000x256, .f32⟩
  | 18 => ⟨S50000x256, .f32⟩
  | 19 => ⟨S50000x256, .f32⟩
  | 20 => ⟨S_, .f32⟩
  | 21 => ⟨S_, .f32⟩
  | 22 => ⟨S_, .f32⟩
  | 23 => ⟨S_, .f32⟩
  | 24 => ⟨S256, .f32⟩
  | 25 => ⟨S1x256, .f32⟩
  | 26 => ⟨S1x256, .f32⟩
  | 27 => ⟨S1x256, .f32⟩
  | 28 => ⟨S_, .f32⟩
  | 29 => ⟨S_, .i1⟩
  | 30 => ⟨S_, .f32⟩
  | 31 => ⟨S_, .f32⟩
  | 32 => ⟨S1x256, .f32⟩
  | 33 => ⟨S1x256, .f32⟩
  | 34 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S128x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x256, .f32⟩
  | .local _ .vmem, ⟨15, _⟩ => ⟨S256x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S256x256, .f32⟩
  | .local _ .vmem, ⟨27, _⟩ => ⟨S256x256, .f32⟩
  | .local _ .vmem, ⟨28, _⟩ => ⟨S5000x256, .f32⟩
  | .local _ .vmem, ⟨29, _⟩ => ⟨S5000x256, .f32⟩
  | .local _ .vmem, ⟨30, _⟩ => ⟨S5000x256, .f32⟩
  | .local _ .vmem, ⟨31, _⟩ => ⟨S5000x256, .f32⟩
  | .local _ .vmem, ⟨32, _⟩ => ⟨S5000x256, .f32⟩
  | .local _ .vmem, ⟨33, _⟩ => ⟨S5000x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S5000x256, .f32⟩
  | .local _ .vmem, ⟨39, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v26 : Ref sig .tc := ⟨.hbm, 69, rfl⟩
abbrev main_v27_0 : Ref sig .tc := ⟨.hbm, 70, rfl⟩
abbrev main_v27_1 : Ref sig .tc := ⟨.hbm, 71, rfl⟩
abbrev main_c_4 : Ref sig .tc := ⟨.hbm, 72, rfl⟩
abbrev main_v28 : Ref sig .tc := ⟨.hbm, 73, rfl⟩
abbrev main_v29 : Ref sig .tc := ⟨.hbm, 74, rfl⟩
abbrev main_c_5 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_6 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_cst_7 : Ref sig .tc := ⟨.hbm, 86, rfl⟩
abbrev main_v39 : Ref sig .tc := ⟨.hbm, 87, rfl⟩
abbrev main_v40 : Ref sig .tc := ⟨.hbm, 88, rfl⟩
abbrev main_cst_8 : Ref sig .tc := ⟨.hbm, 89, rfl⟩
abbrev main_v41 : Ref sig .tc := ⟨.hbm, 90, rfl⟩
abbrev main_v42 : Ref sig .tc := ⟨.hbm, 91, rfl⟩
abbrev main_c_9 : Ref sig .tc := ⟨.hbm, 92, rfl⟩
abbrev main_call1_cst : Ref sig .tc := ⟨.hbm, 93, rfl⟩
abbrev main_call1_v0 : Ref sig .tc := ⟨.hbm, 94, rfl⟩
abbrev main_call1_v1 : Ref sig .tc := ⟨.hbm, 95, rfl⟩
abbrev main_call1_cst_0 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_cst_1 : Ref sig .tc := ⟨.hbm, 103, rfl⟩
abbrev main_call1_v8 : Ref sig .tc := ⟨.hbm, 104, rfl⟩
abbrev main_call1_cst_2 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_v12 : Ref sig .tc := ⟨.hbm, 109, rfl⟩
abbrev main_call1_cst_3 : Ref sig .tc := ⟨.hbm, 110, rfl⟩
abbrev main_call1_v13 : Ref sig .tc := ⟨.hbm, 111, rfl⟩
abbrev main_call1_cst_4 : Ref sig .tc := ⟨.hbm, 112, rfl⟩
abbrev main_call1_call0_v0 : Ref sig .tc := ⟨.hbm, 113, rfl⟩
abbrev main_call1_call0_v1 : Ref sig .tc := ⟨.hbm, 114, rfl⟩
abbrev main_v43 : Ref sig .tc := ⟨.hbm, 115, rfl⟩
abbrev main_v44_0 : Ref sig .tc := ⟨.hbm, 116, rfl⟩
abbrev main_v44_1 : Ref sig .tc := ⟨.hbm, 117, rfl⟩
abbrev main_c_10 : Ref sig .tc := ⟨.hbm, 118, rfl⟩
abbrev main_v45 : Ref sig .tc := ⟨.hbm, 119, rfl⟩
abbrev main_v46 : Ref sig .tc := ⟨.hbm, 120, rfl⟩
abbrev main_c_11 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_cst_12 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_cst_13 : Ref sig .tc := ⟨.hbm, 132, rfl⟩
abbrev main_v56 : Ref sig .tc := ⟨.hbm, 133, rfl⟩
abbrev main_v57 : Ref sig .tc := ⟨.hbm, 134, rfl⟩
abbrev main_cst_14 : Ref sig .tc := ⟨.hbm, 135, rfl⟩
abbrev main_v58 : Ref sig .tc := ⟨.hbm, 136, rfl⟩
abbrev main_v59 : Ref sig .tc := ⟨.hbm, 137, rfl⟩
abbrev main_c_15 : Ref sig .tc := ⟨.hbm, 138, rfl⟩
abbrev main_call2_cst : Ref sig .tc := ⟨.hbm, 139, rfl⟩
abbrev main_call2_v0 : Ref sig .tc := ⟨.hbm, 140, rfl⟩
abbrev main_call2_v1 : Ref sig .tc := ⟨.hbm, 141, rfl⟩
abbrev main_call2_cst_0 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_call2_v5 : Ref sig .tc := ⟨.hbm, 146, rfl⟩
abbrev main_call2_v6 : Ref sig .tc := ⟨.hbm, 147, rfl⟩
abbrev main_call2_v7 : Ref sig .tc := ⟨.hbm, 148, rfl⟩
abbrev main_call2_cst_1 : Ref sig .tc := ⟨.hbm, 149, rfl⟩
abbrev main_call2_v8 : Ref sig .tc := ⟨.hbm, 150, rfl⟩
abbrev main_call2_cst_2 : Ref sig .tc := ⟨.hbm, 151, rfl⟩
abbrev main_call2_v9 : Ref sig .tc := ⟨.hbm, 152, rfl⟩
abbrev main_call2_v10 : Ref sig .tc := ⟨.hbm, 153, rfl⟩
abbrev main_call2_v11 : Ref sig .tc := ⟨.hbm, 154, rfl⟩
abbrev main_call2_v12 : Ref sig .tc := ⟨.hbm, 155, rfl⟩
abbrev main_call2_cst_3 : Ref sig .tc := ⟨.hbm, 156, rfl⟩
abbrev main_call2_v13 : Ref sig .tc := ⟨.hbm, 157, rfl⟩
abbrev main_call2_cst_4 : Ref sig .tc := ⟨.hbm, 158, rfl⟩
abbrev main_call2_call0_v0 : Ref sig .tc := ⟨.hbm, 159, rfl⟩
abbrev main_call2_call0_v1 : Ref sig .tc := ⟨.hbm, 160, rfl⟩
abbrev main_v60 : Ref sig .tc := ⟨.hbm, 161, rfl⟩
abbrev main_v61 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc2_sem8_0 : DmaSem sig := 30
abbrev cc2_sem8_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  reducesTo_S50000x256_S256_d0 : S50000x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S50000x256.size a
  hwx0_4 : ∀ i : grid0.Coords, EltTy.bits .f32 = 32 ∨ (Rect.block (s := S50000x256) S5000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x256.size a ≤ S50000x256.size a
  hwx1_7 : ∀ i : grid1.Coords, EltTy.bits .f32 = 32 ∨ (Rect.block (s := S50000x256) S5000x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x256.size a ≤ S50000x256.size a
  hwx1_8 : ∀ i : grid1.Coords, EltTy.bits .f32 = 32 ∨ (Rect.block (s := S50000x256) S5000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x256.size a ≤ S50000x256.size a
  hwx2_7 : ∀ i : grid2.Coords, EltTy.bits .f32 = 32 ∨ (Rect.block (s := S50000x256) S5000x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x256.size a ≤ S50000x256.size a
  hwx2_8 : ∀ i : grid2.Coords, EltTy.bits .f32 = 32 ∨ (Rect.block (s := S50000x256) S5000x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x256.size a ≤ S50000x256.size a
  hwx3_5 : ∀ i : grid3.Coords, EltTy.bits .f32 = 32 ∨ (Rect.block (s := S50000x256) S5000x256.size (cc3_transform_5 i) (hinb3_5 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S5000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S5000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27_0) S5000x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v27_1) S5000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v38) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44_0) S5000x256.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v44_1) S5000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v55) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v9) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S5000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x256 : Shape := ⟨2, ![1, 256]⟩

abbrev nBuf : Space → Nat
  | .hbm => 207
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S128x256, .f32⟩
  | 4 => ⟨S256, .f32⟩
  | 5 => ⟨S256, .f32⟩
  | 6 => ⟨S256x256, .f32⟩
  | 7 => ⟨S256x256, .f32⟩
  | 8 => ⟨S256, .f32⟩
  | 9 => ⟨S256, .f32⟩
  | 10 => ⟨S256x256, .f32⟩
  | 11 => ⟨S256x256, .f32⟩
  | 12 => ⟨S256, .f32⟩
  | 13 => ⟨S256, .f32⟩
  | 14 => ⟨S1x800000, .i32⟩
  | 15 => ⟨S800000, .i32⟩
  | 16 => ⟨S1x800000, .i32⟩
  | 17 => ⟨S800000, .i32⟩
  | 18 => ⟨S50000x256, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S800000x256, .f32⟩
  | 29 => ⟨S_, .f32⟩
  | 30 => ⟨S50000x256, .f32⟩
  | 31 => ⟨S800000x1, .i32⟩
  | 32 => ⟨S50000x256, .f32⟩
  | 33 => ⟨S50000x256, .f32⟩
  | 34 => ⟨S_, .f32⟩
  | 35 => ⟨S256, .f32⟩
  | 36 => ⟨S_, .f32⟩
  | 37 => ⟨S256, .f32⟩
  | 38 => ⟨S256, .f32⟩
  | 39 => ⟨S_, .i32⟩
  | 40 => ⟨S_, .f32⟩
  | 41 => ⟨S256, .f32⟩
  | 42 => ⟨S1x256, .f32⟩
  | 43 => ⟨S_, .f32⟩
  | 44 => ⟨S1x256, .f32⟩
  | 45 => ⟨S1x256, .f32⟩
  | 46 => ⟨S50000x256, .f32⟩
  | 47 => ⟨S50000x256, .f32⟩
  | 48 => ⟨S50000x256, .f32⟩
  | 49 => ⟨S_, .f32⟩
  | 50 => ⟨S_, .f32⟩
  | 51 => ⟨S_, .f32⟩
  | 52 => ⟨S_, .f32⟩
  | 53 => ⟨S256, .f32⟩
  | 54 => ⟨S256, .f32⟩
  | 55 => ⟨S256, .f32⟩
  | 56 => ⟨S_, .f32⟩
  | 57 => ⟨S_, .i1⟩
  | 58 => ⟨S_, .f32⟩
  | 59 => ⟨S_, .f32⟩
  | 60 => ⟨S256, .f32⟩
  | 61 => ⟨S256, .f32⟩
  | 62 => ⟨S1x256, .f32⟩
  | 63 => ⟨S50000x256, .f32⟩
  | 64 => ⟨S50000x256, .f32⟩
  | 65 => ⟨S_, .f32⟩
  | 66 => ⟨S256, .f32⟩
  | 67 => ⟨S256, .f32⟩
  | 68 => ⟨S256, .f32⟩
  | 69 => ⟨S1x256, .f32⟩
  | 70 => ⟨S50000x256, .f32⟩
  | 71 => ⟨S50000x256, .f32⟩
  | 72 => ⟨S1x256, .f32⟩
  | 73 => ⟨S50000x256, .f32⟩
  | 74 => ⟨S50000x256, .f32⟩
  | 75 => ⟨S1x256, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S50000x256, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x256, .f32⟩
  | 91 => ⟨S800000x256, .f32⟩
  | 92 => ⟨S_, .f32⟩
  | 93 => ⟨S50000x256, .f32⟩
  | 94 => ⟨S800000x1, .i32⟩
  | 95 => ⟨S50000x256, .f32⟩
  | 96 => ⟨S50000x256, .f32⟩
  | 97 => ⟨S_, .f32⟩
  | 98 => ⟨S256, .f32⟩
  | 99 => ⟨S_, .f32⟩
  | 100 => ⟨S256, .f32⟩
  | 101 => ⟨S256, .f32⟩
  | 102 => ⟨S_, .i32⟩
  | 103 => ⟨S_, .f32⟩
  | 104 => ⟨S256, .f32⟩
  | 105 => ⟨S1x256, .f32⟩
  | 106 => ⟨S_, .f32⟩
  | 107 => ⟨S1x256, .f32⟩
  | 108 => ⟨S1x256, .f32⟩
  | 109 => ⟨S50000x256, .f32⟩
  | 110 => ⟨S50000x256, .f32⟩
  | 111 => ⟨S50000x256, .f32⟩
  | 112 => ⟨S_, .f32⟩
  | 113 => ⟨S_, .f32⟩
  | 114 => ⟨S_, .f32⟩
  | 115 => ⟨S_, .f32⟩
  | 116 => ⟨S256, .f32⟩
  | 117 => ⟨S256, .f32⟩
  | 118 => ⟨S256, .f32⟩
  | 119 => ⟨S_, .f32⟩
  | 120 => ⟨S_, .i1⟩
  | 121 => ⟨S_, .f32⟩
  | 122 => ⟨S_, .f32⟩
  | 123 => ⟨S256, .f32⟩
  | 124 => ⟨S256, .f32⟩
  | 125 => ⟨S1x256, .f32⟩
  | 126 => ⟨S50000x256, .f32⟩
  | 127 => ⟨S50000x256, .f32⟩
  | _ => ⟨S50000x128, .f32⟩

abbrev hbmTy0_1 (i : Nat) : BufTy := match i % 128 with
  | 0 => ⟨S_, .f32⟩
  | 1 => ⟨S256, .f32⟩
  | 2 => ⟨S256, .f32⟩
  | 3 => ⟨S256, .f32⟩
  | 4 => ⟨S1x256, .f32⟩
  | 5 => ⟨S50000x256, .f32⟩
  | 6 => ⟨S50000x256, .f32⟩
  | 7 => ⟨S1x256, .f32⟩
  | 8 => ⟨S50000x256, .f32⟩
  | 9 => ⟨S50000x256, .f32⟩
  | 10 => ⟨S1x256, .f32⟩
  | 11 => ⟨S50000x256, .f32⟩
  | 12 => ⟨S50000x256, .f32⟩
  | 13 => ⟨S_, .f32⟩
  | 14 => ⟨S50000x256, .f32⟩
  | 15 => ⟨S50000x256, .f32⟩
  | 16 => ⟨S50000x256, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x256, .f32⟩
  | 26 => ⟨S800000x256, .f32⟩
  | 27 => ⟨S_, .f32⟩
  | 28 => ⟨S50000x256, .f32⟩
  | 29 => ⟨S800000x1, .i32⟩
  | 30 => ⟨S50000x256, .f32⟩
  | 31 => ⟨S50000x256, .f32⟩
  | 32 => ⟨S_, .f32⟩
  | 33 => ⟨S256, .f32⟩
  | 34 => ⟨S_, .f32⟩
  | 35 => ⟨S256, .f32⟩
  | 36 => ⟨S256, .f32⟩
  | 37 => ⟨S_, .i32⟩
  | 38 => ⟨S_, .f32⟩
  | 39 => ⟨S256, .f32⟩
  | 40 => ⟨S1x256, .f32⟩
  | 41 => ⟨S_, .f32⟩
  | 42 => ⟨S1x256, .f32⟩
  | 43 => ⟨S1x256, .f32⟩
  | 44 => ⟨S50000x256, .f32⟩
  | 45 => ⟨S50000x256, .f32⟩
  | 46 => ⟨S50000x256, .f32⟩
  | 47 => ⟨S_, .f32⟩
  | 48 => ⟨S_, .f32⟩
  | 49 => ⟨S_, .f32⟩
  | 50 => ⟨S_, .f32⟩
  | 51 => ⟨S256, .f32⟩
  | 52 => ⟨S256, .f32⟩
  | 53 => ⟨S256, .f32⟩
  | 54 => ⟨S_, .f32⟩
  | 55 => ⟨S_, .i1⟩
  | 56 => ⟨S_, .f32⟩
  | 57 => ⟨S_, .f32⟩
  | 58 => ⟨S256, .f32⟩
  | 59 => ⟨S256, .f32⟩
  | 60 => ⟨S1x256, .f32⟩
  | 61 => ⟨S50000x256, .f32⟩
  | 62 => ⟨S50000x256, .f32⟩
  | 63 => ⟨S_, .f32⟩
  | 64 => ⟨S256, .f32⟩
  | 65 => ⟨S256, .f32⟩
  | 66 => ⟨S256, .f32⟩
  | 67 => ⟨S1x256, .f32⟩
  | 68 => ⟨S50000x256, .f32⟩
  | 69 => ⟨S50000x256, .f32⟩
  | 70 => ⟨S1x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S50000x256, .f32⟩
  | 78 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_4 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_call1_cst : Ref sig .tc := ⟨.hbm, 78, rfl⟩
abbrev main_call1_v0 : Ref sig .tc := ⟨.hbm, 79, rfl⟩
abbrev main_v36 : Ref sig .tc := ⟨.hbm, 80, rfl⟩
abbrev main_v37 : Ref sig .tc := ⟨.hbm, 81, rfl⟩
abbrev main_c_5 : Ref sig .tc := ⟨.hbm, 82, rfl⟩
abbrev main_v38 : Ref sig .tc := ⟨.hbm, 83, rfl⟩
abbrev main_v39 : Ref sig .tc := ⟨.hbm, 84, rfl⟩
abbrev main_c_6 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_7 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_8 : Ref sig .tc := ⟨.hbm, 97, rfl⟩
abbrev main_v50 : Ref sig .tc := ⟨.hbm, 98, rfl⟩
abbrev main_cst_9 : Ref sig .tc := ⟨.hbm, 99, rfl⟩
abbrev main_v51 : Ref sig .tc := ⟨.hbm, 100, rfl⟩
abbrev main_v52 : Ref sig .tc := ⟨.hbm, 101, rfl⟩
abbrev main_c_10 : Ref sig .tc := ⟨.hbm, 102, rfl⟩
abbrev main_call2_cst : Ref sig .tc := ⟨.hbm, 103, rfl⟩
abbrev main_call2_v0 : Ref sig .tc := ⟨.hbm, 104, rfl⟩
abbrev main_call2_v1 : Ref sig .tc := ⟨.hbm, 105, rfl⟩
abbrev main_call2_cst_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_v7 : Ref sig .tc := ⟨.hbm, 112, rfl⟩
abbrev main_call2_cst_1 : Ref sig .tc := ⟨.hbm, 113, rfl⟩
abbrev main_call2_v8 : Ref sig .tc := ⟨.hbm, 114, rfl⟩
abbrev main_call2_cst_2 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_cst_3 : Ref sig .tc := ⟨.hbm, 119, rfl⟩
abbrev main_call2_v12 : Ref sig .tc := ⟨.hbm, 120, rfl⟩
abbrev main_call2_cst_4 : Ref sig .tc := ⟨.hbm, 121, rfl⟩
abbrev main_call2_call0_v0 : Ref sig .tc := ⟨.hbm, 122, rfl⟩
abbrev main_call2_call0_v1 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_cst_11 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_call3_cst : Ref sig .tc := ⟨.hbm, 141, rfl⟩
abbrev main_call3_v0 : Ref sig .tc := ⟨.hbm, 142, rfl⟩
abbrev main_v69 : Ref sig .tc := ⟨.hbm, 143, rfl⟩
abbrev main_v70 : Ref sig .tc := ⟨.hbm, 144, rfl⟩
abbrev main_c_12 : Ref sig .tc := ⟨.hbm, 145, rfl⟩
abbrev main_v71 : Ref sig .tc := ⟨.hbm, 146, rfl⟩
abbrev main_v72 : Ref sig .tc := ⟨.hbm, 147, rfl⟩
abbrev main_c_13 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_cst_14 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_cst_15 : Ref sig .tc := ⟨.hbm, 160, rfl⟩
abbrev main_v83 : Ref sig .tc := ⟨.hbm, 161, rfl⟩
abbrev main_cst_16 : Ref sig .tc := ⟨.hbm, 162, rfl⟩
abbrev main_v84 : Ref sig .tc := ⟨.hbm, 163, rfl⟩
abbrev main_v85 : Ref sig .tc := ⟨.hbm, 164, rfl⟩
abbrev main_c_17 : Ref sig .tc := ⟨.hbm, 165, rfl⟩
abbrev main_call4_cst : Ref sig .tc := ⟨.hbm, 166, rfl⟩
abbrev main_call4_v0 : Ref sig .tc := ⟨.hbm, 167, rfl⟩
abbrev main_call4_v1 : Ref sig .tc := ⟨.hbm, 168, rfl⟩
abbrev main_call4_cst_0 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_v5 : Ref sig .tc := ⟨.hbm, 173, rfl⟩
abbrev main_call4_v6 : Ref sig .tc := ⟨.hbm, 174, rfl⟩
abbrev main_call4_v7 : Ref sig .tc := ⟨.hbm, 175, rfl⟩
abbrev main_call4_cst_1 : Ref sig .tc := ⟨.hbm, 176, rfl⟩
abbrev main_call4_v8 : Ref sig .tc := ⟨.hbm, 177, rfl⟩
abbrev main_call4_cst_2 : Ref sig .tc := ⟨.hbm, 178, rfl⟩
abbrev main_call4_v9 : Ref sig .tc := ⟨.hbm, 179, rfl⟩
abbrev main_call4_v10 : Ref sig .tc := ⟨.hbm, 180, rfl⟩
abbrev main_call4_v11 : Ref sig .tc := ⟨.hbm, 181, rfl⟩
abbrev main_call4_cst_3 : Ref sig .tc := ⟨.hbm, 182, rfl⟩
abbrev main_call4_v12 : Ref sig .tc := ⟨.hbm, 183, rfl⟩
abbrev main_call4_cst_4 : Ref sig .tc := ⟨.hbm, 184, rfl⟩
abbrev main_call4_call0_v0 : Ref sig .tc := ⟨.hbm, 185, rfl⟩
abbrev main_call4_call0_v1 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_cst_18 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_call5_cst : Ref sig .tc := ⟨.hbm, 204, rfl⟩
abbrev main_call5_v0 : Ref sig .tc := ⟨.hbm, 205, rfl⟩
abbrev main_v102 : Ref sig .tc := ⟨.hbm, 206, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  dot_S50000x128_S128x256_S50000x256_1_0_0_1_n_n_wf : DotDims.WF S50000x128 S128x256 S50000x256 [1] [0] [0] [1] [] []
  gather_S50000x128_S800000x1_S800000x128_1_0_n_n_0_1_1128_wf : GatherDims.WF S50000x128 S800000x1 S800000x128 [1] [0] [] [0] [] 1 ![1, 128]
  dot_S800000x128_S128x256_S800000x256_1_0_0_1_n_n_wf : DotDims.WF S800000x128 S128x256 S800000x256 [1] [0] [0] [1] [] []
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  dot_S800000x256_S256x256_S800000x256_1_0_0_1_n_n_wf : DotDims.WF S800000x256 S256x256 S800000x256 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf

class Facts : Prop extends Facts₀ where

variable [Facts]
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.KBlocks.lean ====
/-
  The bodies of the four tiled kernels, read at an entry over the extended reals.

  Every body works on a block of 5000 rows. The first computes the two products x·W₁ and x·W₂ of the block with the
  128×256 weights. The second and third first normalise the block column by column,
      u[p,k] = max(((pre[p,k] − mean[0,k]) · rsqrt(var[0,k] + ε)) · g[0,k] + b[0,k], 0),
  with the four [1,256] rows spread down the rows of the block, and then compute u·W₁ and u·W₂ with the 256×256 weights.
  The last only normalises. A product into a zero accumulator is, at (p,q), the sum over k of row p times column q.
-/
import proofs.«124758_j37177236914932_2_alg».proof.KernelIdeal
import proofs.«124758_j37177236914932_2_alg».proof.Proof.Gen.KernelIdeal.Skeleton
import proofs.«124758_j37177236914932_2_alg».proof.Proof.LibMatmulNN
import Idealize.ShloMosaic.Lib.ValueLayout
import Idealize.ShloMosaic.Lib.Pipeline.Value

noncomputable section

namespace Cert.KBlocks

open Idealize.ShloMosaic Idealize.ShloMosaic.ValueIdx Cert.KernelIdeal Cert.KernelIdeal.Gen

variable [Cert.KernelIdeal.Facts]

/-- the normalisation of one entry: x the entry, μ and v its column's mean and variance, g and b the scale and shift -/
def bnAt (x μ v g b : EReal) : EReal :=
  max (((x - μ) * Ideal.rsqrt (v + Ideal.ofBits .f32 0x3727C5AC#32)) * g + b) (Ideal.ofBits .f32 0x00000000#32)

/-! ## The first kernel: two products of the block with the 128×256 weights -/

theorem pay0_1_apply (v0 : Vec Ideal S5000x128 .f32) (v1 : Vec Ideal S128x256 .f32) (p : Fin 5000) (q : Fin 256) :
    k0_pay1 (F := Ideal) v0 v1 (ix2 p q) = ∑ k : Fin 128, v0 (ix2 p k) * v1 (ix2 k q) :=
  Cert.MatmulNN.matmul_zero_apply (M := 5000) (K := 128) (N := 256) _ rfl none v0 v1 p q

theorem pay0_2_apply (v0 : Vec Ideal S5000x128 .f32) (v2 : Vec Ideal S128x256 .f32) (p : Fin 5000) (q : Fin 256) :
    k0_pay2 (F := Ideal) v0 v2 (ix2 p q) = ∑ k : Fin 128, v0 (ix2 p k) * v2 (ix2 k q) :=
  Cert.MatmulNN.matmul_zero_apply (M := 5000) (K := 128) (N := 256) _ rfl none v0 v2 p q

/-! ## The normalisation of a block (the second, third and fourth kernels share it) -/

theorem norm1_apply (v0 : Vec Ideal S5000x256 .f32) (v2 v4 v6 v8 : Vec Ideal S1x256 .f32) (p : Fin 5000) (q : Fin 256) :
    k1_pay1 (F := Ideal) v0 v2 v4 v6 v8 (ix2 p q)
      = bnAt (v0 (ix2 p q)) (v2 (ix2 (0 : Fin 1) q)) (v4 (ix2 (0 : Fin 1) q)) (v6 (ix2 (0 : Fin 1) q)) (v8 (ix2 (0 : Fin 1) q)) := by
  unfold k1_pay1 bnAt
  simp only [shapeCast_self, maximumf_apply, addf_apply, mulf_apply, subf_apply, broadcast_apply, broadcastTo_1b_ab_apply]
  rfl

theorem norm2_apply (v0 : Vec Ideal S5000x256 .f32) (v2 v4 v6 v8 : Vec Ideal S1x256 .f32) (p : Fin 5000) (q : Fin 256) :
    k2_pay1 (F := Ideal) v0 v2 v4 v6 v8 (ix2 p q)
      = bnAt (v0 (ix2 p q)) (v2 (ix2 (0 : Fin 1) q)) (v4 (ix2 (0 : Fin 1) q)) (v6 (ix2 (0 : Fin 1) q)) (v8 (ix2 (0 : Fin 1) q)) := by
  unfold k2_pay1 bnAt
  simp only [shapeCast_self, maximumf_apply, addf_apply, mulf_apply, subf_apply, broadcast_apply, broadcastTo_1b_ab_apply]
  rfl

theorem norm3_apply (v0 : Vec Ideal S5000x256 .f32) (v2 v4 v6 v8 : Vec Ideal S1x256 .f32) (p : Fin 5000) (q : Fin 256) :
    k3_pay1 (F := Ideal) v0 v2 v4 v6 v8 (ix2 p q)
      = bnAt (v0 (ix2 p q)) (v2 (ix2 (0 : Fin 1) q)) (v4 (ix2 (0 : Fin 1) q)) (v6 (ix2 (0 : Fin 1) q)) (v8 (ix2 (0 : Fin 1) q)) := by
  unfold k3_pay1 bnAt
  simp only [shapeCast_self, maximumf_apply, addf_apply, mulf_apply, subf_apply, broadcast_apply, broadcastTo_1b_ab_apply]
  rfl

/-! ## The second and third kernels: the normalised block times the 256×256 weights -/

theorem pay1_2_apply (v0 : Vec Ideal S5000x256 .f32) (v2 v4 v6 v8 : Vec Ideal S1x256 .f32) (v23 : Vec Ideal S256x256 .f32)
    (p : Fin 5000) (q : Fin 256) :
    k1_pay2 (F := Ideal) v0 v2 v4 v6 v8 v23 (ix2 p q)
      = ∑ k : Fin 256, k1_pay1 (F := Ideal) v0 v2 v4 v6 v8 (ix2 p k) * v23 (ix2 k q) :=
  Cert.MatmulNN.matmul_zero_apply (M := 5000) (K := 256) (N := 256) _ rfl none (k1_pay1 (F := Ideal) v0 v2 v4 v6 v8) v23 p q

theorem pay1_3_apply (v0 : Vec Ideal S5000x256 .f32) (v2 v4 v6 v8 : Vec Ideal S1x256 .f32) (v24 : Vec Ideal S256x256 .f32)
    (p : Fin 5000) (q : Fin 256) :
    k1_pay3 (F := Ideal) v0 v2 v4 v6 v8 v24 (ix2 p q)
      = ∑ k : Fin 256, k1_pay1 (F := Ideal) v0 v2 v4 v6 v8 (ix2 p k) * v24 (ix2 k q) :=
  Cert.MatmulNN.matmul_zero_apply (M := 5000) (K := 256) (N := 256) _ rfl none (k1_pay1 (F := Ideal) v0 v2 v4 v6 v8) v24 p q

theorem pay2_2_apply (v0 : Vec Ideal S5000x256 .f32) (v2 v4 v6 v8 : Vec Ideal S1x256 .f32) (v23 : Vec Ideal S256x256 .f32)
    (p : Fin 5000) (q : Fin 256) :
    k2_pay2 (F := Ideal) v0 v2 v4 v6 v8 v23 (ix2 p q)
      = ∑ k : Fin 256, k2_pay1 (F := Ideal) v0 v2 v4 v6 v8 (ix2 p k) * v23 (ix2 k q) :=
  Cert.MatmulNN.matmul_zero_apply (M := 5000) (K := 256) (N := 256) _ rfl none (k2_pay1 (F := Ideal) v0 v2 v4 v6 v8) v23 p q

theorem pay2_3_apply (v0 : Vec Ideal S5000x256 .f32) (v2 v4 v6 v8 : Vec Ideal S1x256 .f32) (v24 : Vec Ideal S256x256 .f32)
    (p : Fin 5000) (q : Fin 256) :
    k2_pay3 (F := Ideal) v0 v2 v4 v6 v8 v24 (ix2 p q)
      = ∑ k : Fin 256, k2_pay1 (F := Ideal) v0 v2 v4 v6 v8 (ix2 p k) * v24 (ix2 k q) :=
  Cert.MatmulNN.matmul_zero_apply (M := 5000) (K := 256) (N := 256) _ rfl none (k2_pay1 (F := Ideal) v0 v2 v4 v6 v8) v24 p q

end Cert.KBlocks

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«124758_j37177236914932_2_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.KTiles.lean ====
/-
  One block of a tiled kernel against the whole arrays it is cut from.

  A block holds 5000 consecutive rows of a [50000, ·] array; the weights and the four [1,256] rows are whole. So the
  entry (p,q) of a block's result only reads row r = (block number)·5000 + p of the array, and is the entry (r,q) of the
  same computation done on the whole array: the product x·W for the first kernel, (normalised pre)·W for the second
  and third, the normalised pre for the last.
-/
import proofs.«124758_j37177236914932_2_alg».proof.Proof.KBlocks
import proofs.«124758_j37177236914932_2_alg».proof.Proof.LibDotNN

noncomputable section

namespace Cert.KBlocks

open Idealize.ShloMosaic Idealize.ShloMosaic.ValueIdx Cert.KernelIdeal Cert.KernelIdeal.Gen

variable [Cert.KernelIdeal.Facts]

/-- the column of an entry of a [50000, 256] array -/
def colOf (i : (⟨2, ![50000, 256]⟩ : Shape).Idx) : Fin 256 := i 1

theorem colOf_ix2 (r : Fin 50000) (q : Fin 256) : colOf (ix2 r q) = q := rfl

/-- the normalisation of a whole [50000, 256] array by four [1, 256] rows (mean, variance, scale, shift) -/
def bnWhole (pre : FVec Ideal ⟨2, ![50000, 256]⟩ .f32) (mu var g b : FVec Ideal ⟨2, ![1, 256]⟩ .f32) :
    FVec Ideal ⟨2, ![50000, 256]⟩ .f32 :=
  fun i => bnAt (pre i) (mu (ix2 (0 : Fin 1) (colOf i))) (var (ix2 (0 : Fin 1) (colOf i))) (g (ix2 (0 : Fin 1) (colOf i)))
    (b (ix2 (0 : Fin 1) (colOf i)))

theorem bnWhole_apply (pre : FVec Ideal ⟨2, ![50000, 256]⟩ .f32) (mu var g b : FVec Ideal ⟨2, ![1, 256]⟩ .f32)
    (r : Fin 50000) (q : Fin 256) :
    bnWhole pre mu var g b (ix2 r q)
      = bnAt (pre (ix2 r q)) (mu (ix2 (0 : Fin 1) q)) (var (ix2 (0 : Fin 1) q)) (g (ix2 (0 : Fin 1) q)) (b (ix2 (0 : Fin 1) q)) := rfl

/-! ## The first kernel -/

theorem tile0_1 (D : DotDims ⟨2, ![50000, 128]⟩ ⟨2, ![128, 256]⟩ ⟨2, ![50000, 256]⟩) (hD : D = DotDims.plain 50000 128 256)
    (x : FVec Ideal ⟨2, ![50000, 128]⟩ .f32) (w : FVec Ideal ⟨2, ![128, 256]⟩ .f32)
    (xb : Vec Ideal S5000x128 .f32) (wb : Vec Ideal S128x256 .f32) (p : Fin 5000) (q : Fin 256) (r : Fin 50000)
    (hx : ∀ k : Fin 128, xb (ix2 p k) = x (ix2 r k)) (hw : ∀ k : Fin 128, wb (ix2 k q) = w (ix2 k q)) :
    k0_pay1 (F := Ideal) xb wb (ix2 p q) = Host.dotGeneral (F := Ideal) D none x w (ix2 r q) := by
  rw [pay0_1_apply]
  refine Eq.trans ?_ (Cert.DotNN.dotGeneral_apply D hD none x w r q).symm
  exact Finset.sum_congr rfl fun k _ => by rw [hx k, hw k]

theorem tile0_2 (D : DotDims ⟨2, ![50000, 128]⟩ ⟨2, ![128, 256]⟩ ⟨2, ![50000, 256]⟩) (hD : D = DotDims.plain 50000 128 256)
    (x : FVec Ideal ⟨2, ![50000, 128]⟩ .f32) (w : FVec Ideal ⟨2, ![128, 256]⟩ .f32)
    (xb : Vec Ideal S5000x128 .f32) (wb : Vec Ideal S128x256 .f32) (p : Fin 5000) (q : Fin 256) (r : Fin 50000)
    (hx : ∀ k : Fin 128, xb (ix2 p k) = x (ix2 r k)) (hw : ∀ k : Fin 128, wb (ix2 k q) = w (ix2 k q)) :
    k0_pay2 (F := Ideal) xb wb (ix2 p q) = Host.dotGeneral (F := Ideal) D none x w (ix2 r q) := by
  rw [pay0_2_apply]
  refine Eq.trans ?_ (Cert.DotNN.dotGeneral_apply D hD none x w r q).symm
  exact Finset.sum_congr rfl fun k _ => by rw [hx k, hw k]

/-! ## The second and third kernels -/

theorem tile1_2 (D : DotDims ⟨2, ![50000, 256]⟩ ⟨2, ![256, 256]⟩ ⟨2, ![50000, 256]⟩) (hD : D = DotDims.plain 50000 256 256)
    (pre : FVec Ideal ⟨2, ![50000, 256]⟩ .f32) (mu var g b : FVec Ideal ⟨2, ![1, 256]⟩ .f32)
    (w : FVec Ideal ⟨2, ![256, 256]⟩ .f32)
    (xb : Vec Ideal S5000x256 .f32) (v2 v4 v6 v8 : Vec Ideal S1x256 .f32) (wb : Vec Ideal S256x256 .f32)
    (p : Fin 5000) (q : Fin 256) (r : Fin 50000)
    (hx : ∀ k : Fin 256, xb (ix2 p k) = pre (ix2 r k))
    (h2 : ∀ k : Fin 256, v2 (ix2 (0 : Fin 1) k) = mu (ix2 (0 : Fin 1) k))
    (h4 : ∀ k : Fin 256, v4 (ix2 (0 : Fin 1) k) = var (ix2 (0 : Fin 1) k))
    (h6 : ∀ k : Fin 256, v6 (ix2 (0 : Fin 1) k) = g (ix2 (0 : Fin 1) k))
    (h8 : ∀ k : Fin 256, v8 (ix2 (0 : Fin 1) k) = b (ix2 (0 : Fin 1) k))
    (hw : ∀ k : Fin 256, wb (ix2 k q) = w (ix2 k q)) :
    k1_pay2 (F := Ideal) xb v2 v4 v6 v8 wb (ix2 p q)
      = Host.dotGeneral (F := Ideal) D none (bnWhole pre mu var g b) w (ix2 r q) := by
  rw [pay1_2_apply]
  refine Eq.trans ?_ (Cert.DotNN.dotGeneral_apply D hD none (bnWhole pre mu var g b) w r q).symm
  refine Finset.sum_congr rfl fun k _ => ?_
  rw [norm1_apply, hx k, h2 k, h4 k, h6 k, h8 k, hw k, bnWhole_apply]

theorem tile1_3 (D : DotDims ⟨2, ![50000, 256]⟩ ⟨2, ![256, 256]⟩ ⟨2, ![50000, 256]⟩) (hD : D = DotDims.plain 50000 256 256)
    (pre : FVec Ideal ⟨2, ![50000, 256]⟩ .f32) (mu var g b : FVec Ideal ⟨2, ![1, 256]⟩ .f32)
    (w : FVec Ideal ⟨2, ![256, 256]⟩ .f32)
    (xb : Vec Ideal S5000x256 .f32) (v2 v4 v6 v8 : Vec Ideal S1x256 .f32) (wb : Vec Ideal S256x256 .f32)
    (p : Fin 5000) (q : Fin 256) (r : Fin 50000)
    (hx : ∀ k : Fin 256, xb (ix2 p k) = pre (ix2 r k))
    (h2 : ∀ k : Fin 256, v2 (ix2 (0 : Fin 1) k) = mu (ix2 (0 : Fin 1) k))
    (h4 : ∀ k : Fin 256, v4 (ix2 (0 : Fin 1) k) = var (ix2 (0 : Fin 1) k))
    (h6 : ∀ k : Fin 256, v6 (ix2 (0 : Fin 1) k) = g (ix2 (0 : Fin 1) k))
    (h8 : ∀ k : Fin 256, v8 (ix2 (0 : Fin 1) k) = b (ix2 (0 : Fin 1) k))
    (hw : ∀ k : Fin 256, wb (ix2 k q) = w (ix2 k q)) :
    k1_pay3 (F := Ideal) xb v2 v4 v6 v8 wb (ix2 p q)
      = Host.dotGeneral (F := Ideal) D none (bnWhole pre mu var g b) w (ix2 r q) := by
  rw [pay1_3_apply]
  refine Eq.trans ?_ (Cert.DotNN.dotGeneral_apply D hD none (bnWhole pre mu var g b) w r q).symm
  refine Finset.sum_congr rfl fun k _ => ?_
  rw [norm1_apply, hx k, h2 k, h4 k, h6 k, h8 k, hw k, bnWhole_apply]

theorem tile2_2 (D : DotDims ⟨2, ![50000, 256]⟩ ⟨2, ![256, 256]⟩ ⟨2, ![50000, 256]⟩) (hD : D = DotDims.plain 50000 256 256)
    (pre : FVec Ideal ⟨2, ![50000, 256]⟩ .f32) (mu var g b : FVec Ideal ⟨2, ![1, 256]⟩ .f32)
    (w : FVec Ideal ⟨2, ![256, 256]⟩ .f32)
    (xb : Vec Ideal S5000x256 .f32) (v2 v4 v6 v8 : Vec Ideal S1x256 .f32) (wb : Vec Ideal S256x256 .f32)
    (p : Fin 5000) (q : Fin 256) (r : Fin 50000)
    (hx : ∀ k : Fin 256, xb (ix2 p k) = pre (ix2 r k))
    (h2 : ∀ k : Fin 256, v2 (ix2 (0 : Fin 1) k) = mu (ix2 (0 : Fin 1) k))
    (h4 : ∀ k : Fin 256, v4 (ix2 (0 : Fin 1) k) = var (ix2 (0 : Fin 1) k))
    (h6 : ∀ k : Fin 256, v6 (ix2 (0 : Fin 1) k) = g (ix2 (0 : Fin 1) k))
    (h8 : ∀ k : Fin 256, v8 (ix2 (0 : Fin 1) k) = b (ix2 (0 : Fin 1) k))
    (hw : ∀ k : Fin 256, wb (ix2 k q) = w (ix2 k q)) :
    k2_pay2 (F := Ideal) xb v2 v4 v6 v8 wb (ix2 p q)
      = Host.dotGeneral (F := Ideal) D none (bnWhole pre mu var g b) w (ix2 r q) := by
  rw [pay2_2_apply]
  refine Eq.trans ?_ (Cert.DotNN.dotGeneral_apply D hD none (bnWhole pre mu var g b) w r q).symm
  refine Finset.sum_congr rfl fun k _ => ?_
  rw [norm2_apply, hx k, h2 k, h4 k, h6 k, h8 k, hw k, bnWhole_apply]

theorem tile2_3 (D : DotDims ⟨2, ![50000, 256]⟩ ⟨2, ![256, 256]⟩ ⟨2, ![50000, 256]⟩) (hD : D = DotDims.plain 50000 256 256)
    (pre : FVec Ideal ⟨2, ![50000, 256]⟩ .f32) (mu var g b : FVec Ideal ⟨2, ![1, 256]⟩ .f32)
    (w : FVec Ideal ⟨2, ![256, 256]⟩ .f32)
    (xb : Vec Ideal S5000x256 .f32) (v2 v4 v6 v8 : Vec Ideal S1x256 .f32) (wb : Vec Ideal S256x256 .f32)
    (p : Fin 5000) (q : Fin 256) (r : Fin 50000)
    (hx : ∀ k : Fin 256, xb (ix2 p k) = pre (ix2 r k))
    (h2 : ∀ k : Fin 256, v2 (ix2 (0 : Fin 1) k) = mu (ix2 (0 : Fin 1) k))
    (h4 : ∀ k : Fin 256, v4 (ix2 (0 : Fin 1) k) = var (ix2 (0 : Fin 1) k))
    (h6 : ∀ k : Fin 256, v6 (ix2 (0 : Fin 1) k) = g (ix2 (0 : Fin 1) k))
    (h8 : ∀ k : Fin 256, v8 (ix2 (0 : Fin 1) k) = b (ix2 (0 : Fin 1) k))
    (hw : ∀ k : Fin 256, wb (ix2 k q) = w (ix2 k q)) :
    k2_pay3 (F := Ideal) xb v2 v4 v6 v8 wb (ix2 p q)
      = Host.dotGeneral (F := Ideal) D none (bnWhole pre mu var g b) w (ix2 r q) := by
  rw [pay2_3_apply]
  refine Eq.trans ?_ (Cert.DotNN.dotGeneral_apply D hD none (bnWhole pre mu var g b) w r q).symm
  refine Finset.sum_congr rfl fun k _ => ?_
  rw [norm2_apply, hx k, h2 k, h4 k, h6 k, h8 k, hw k, bnWhole_apply]

/-! ## The last kernel -/

theorem tile3_1 (pre : FVec Ideal ⟨2, ![50000, 256]⟩ .f32) (mu var g b : FVec Ideal ⟨2, ![1, 256]⟩ .f32)
    (xb : Vec Ideal S5000x256 .f32) (v2 v4 v6 v8 : Vec Ideal S1x256 .f32) (p : Fin 5000) (q : Fin 256) (r : Fin 50000)
    (hx : xb (ix2 p q) = pre (ix2 r q))
    (h2 : v2 (ix2 (0 : Fin 1) q) = mu (ix2 (0 : Fin 1) q)) (h4 : v4 (ix2 (0 : Fin 1) q) = var (ix2 (0 : Fin 1) q))
    (h6 : v6 (ix2 (0 : Fin 1) q) = g (ix2 (0 : Fin 1) q)) (h8 : v8 (ix2 (0 : Fin 1) q) = b (ix2 (0 : Fin 1) q)) :
    k3_pay1 (F := Ideal) xb v2 v4 v6 v8 (ix2 p q) = bnWhole pre mu var g b (ix2 r q) := by
  rw [norm3_apply, hx, h2, h4, h6, h8, bnWhole_apply]

end Cert.KBlocks

end
-- ==== Proof.Spec.lean ====
/-
  The network both programs compute, as whole-array functions over the extended reals.

  One layer is  pre = h·W₁ + Σ_{edges e into a node} (h[src e]·W₂)  (a gather of source rows, a matrix product and a
  scatter-add over the destination column), followed by a batch normalisation over the node axis
  (mean and biased variance of every feature column, (pre − mean)·rsqrt(var + ε)·g + b) and a clamp at zero.
  The functions below are written with exactly the host operations the plain jnp program performs, so that its run
  ends at `net` of the arguments by unfolding alone; the tiled program is compared with them entry by entry elsewhere.
-/
import proofs.«124758_j37177236914932_2_alg».proof.ReferenceIdeal
import Idealize.ShloMosaic.PureOps.Ideal

noncomputable section

namespace Cert.Spec

open Idealize.ShloMosaic Cert.ReferenceIdeal Cert.ReferenceIdeal.Facts₀

variable [Cert.ReferenceIdeal.Facts]

/-- a float array of shape `S` over the extended reals -/
abbrev Mat (S : Shape) := FVec Ideal S .f32
/-- a 32-bit integer array of shape `S` -/
abbrev IMat (S : Shape) := IVec S 32

/-- the destination node of every edge (row 0 of the edge list), as a column -/
def dstCol (ei : IMat S2x800000) : IMat S800000x1 :=
  broadcastInDim S800000x1 ![0] bcast_S800000_S800000x1_0
    (shapeCast S800000 (extractStridedSlice S1x800000 ![0, 0] ei slices_S2x800000_S1x800000_0_0) shapeCasts_S1x800000_S800000)

/-- row 1 of the edge list: the source node of every edge -/
def srcVec (ei : IMat S2x800000) : IMat S800000 :=
  shapeCast S800000 (extractStridedSlice S1x800000 ![1, 0] ei slices_S2x800000_S1x800000_1_0) shapeCasts_S1x800000_S800000

/-- the source node of every edge as a column, a negative index counted from the end (index + 50000) -/
def srcCol (ei : IMat S2x800000) : IMat S800000x1 :=
  broadcastInDim S800000x1 ![0] bcast_S800000_S800000x1_0
    (select (cmpi .slt (srcVec ei) (broadcastInDim S800000 ![] bcast_S_S800000 (constantI S_ 32 0#32)))
      (addi (srcVec ei) (broadcastInDim S800000 ![] bcast_S_S800000 (constantI S_ 32 50000#32)))
      (srcVec ei))

/-- the all-zero [50000, 256] array the scatter-add starts from -/
def zeros : Mat S50000x256 :=
  broadcastInDim S50000x256 ![] bcast_S_S50000x256 (constant (F := Ideal) S_ .f32 0x00000000#32)

/-- the first layer's pre-activation, from the 128 input features -/
def conv0 (x : Mat S50000x128) (ei : IMat S2x800000) (w1 w2 : Mat S128x256) : Mat S50000x256 :=
  addf (Host.dotGeneral (F := Ideal) dot_S50000x128_S128x256_S50000x256_1_0_0_1_n_n none x w1)
    (Host.scatterAdd (F := Ideal) scatter_S50000x256_S800000x1_S800000x256_1_0_0_1 zeros (dstCol ei)
      (Host.dotGeneral (F := Ideal) dot_S800000x128_S128x256_S800000x256_1_0_0_1_n_n none
        (Host.gather gather_S50000x128_S800000x1_S800000x128_1_0_n_n_0_1_1128 x (srcCol ei)) w2))

/-- a later layer's pre-activation, from 256 hidden features -/
def conv1 (h : Mat S50000x256) (ei : IMat S2x800000) (w1 w2 : Mat S256x256) : Mat S50000x256 :=
  addf (Host.dotGeneral (F := Ideal) dot_S50000x256_S256x256_S50000x256_1_0_0_1_n_n none h w1)
    (Host.scatterAdd (F := Ideal) scatter_S50000x256_S800000x1_S800000x256_1_0_0_1 zeros (dstCol ei)
      (Host.dotGeneral (F := Ideal) dot_S800000x256_S256x256_S800000x256_1_0_0_1_n_n none
        (Host.gather gather_S50000x256_S800000x1_S800000x256_1_0_n_n_0_1_1256 h (srcCol ei)) w2))

/-- the column sums of a [50000, 256] array -/
def colSum (a : Mat S50000x256) : Mat S256 :=
  Host.reduceAdd (F := Ideal) a (constant (F := Ideal) S_ .f32 0x00000000#32) reducesTo_S50000x256_S256_d0 h_S_

/-- the mean of every feature column: the column sum divided by 50000 -/
def mean (pre : Mat S50000x256) : Mat S256 :=
  Host.divf (F := Ideal) (colSum pre) (broadcastInDim S256 ![] bcast_S_S256 (constant (F := Ideal) S_ .f32 0x47435000#32))

/-- the squared deviation of every entry from its column's mean (the mean kept as a [1, 256] row and spread back) -/
def sqDev (pre : Mat S50000x256) : Mat S50000x256 :=
  mulf
    (subf pre (broadcastInDim S50000x256 ![0, 1] bcast_S1x256_S50000x256_0_1
      (Host.divf (F := Ideal) (broadcastInDim S1x256 ![1] bcast_S256_S1x256_1 (colSum pre))
        (broadcastInDim S1x256 ![] bcast_S_S1x256 (constant (F := Ideal) S_ .f32 0x47435000#32)))))
    (subf pre (broadcastInDim S50000x256 ![0, 1] bcast_S1x256_S50000x256_0_1
      (Host.divf (F := Ideal) (broadcastInDim S1x256 ![1] bcast_S256_S1x256_1 (colSum pre))
        (broadcastInDim S1x256 ![] bcast_S_S1x256 (constant (F := Ideal) S_ .f32 0x47435000#32)))))

/-- the divisor of the biased variance: 50000 minus zero degrees of freedom -/
def dof : Mat S_ :=
  subf (constant (F := Ideal) S_ .f32 0x47435000#32) (sitofp (F := Ideal) .f32 (constantI S_ 32 0#32))

/-- the biased variance of every feature column (jnp.var: the quotient where the divisor is positive, NaN elsewhere) -/
def variance (pre : Mat S50000x256) : Mat S256 :=
  select (broadcastInDim S256 ![] bcast_S_S256 (cmpf .ogt dof (constant (F := Ideal) S_ .f32 0x00000000#32)))
    (Host.divf (F := Ideal) (colSum (sqDev pre)) (broadcastInDim S256 ![] bcast_S_S256 dof))
    (broadcastInDim S256 ![] bcast_S_S256 (id (constant (F := Ideal) S_ .f32 0x7FC00000#32)))

/-- a length-256 vector repeated down the 50000 rows -/
def rows (v : Mat S256) : Mat S50000x256 :=
  broadcastInDim S50000x256 ![0, 1] bcast_S1x256_S50000x256_0_1 (broadcastInDim S1x256 ![1] bcast_S256_S1x256_1 v)

/-- batch normalisation with scale g and shift b, then the clamp at zero -/
def bnRelu (pre : Mat S50000x256) (g b : Mat S256) : Mat S50000x256 :=
  maximumf
    (addf
      (mulf
        (mulf (subf pre (rows (mean pre)))
          (rows (Host.rsqrt (F := Ideal) (addf (variance pre)
            (broadcastInDim S256 ![] bcast_S_S256 (constant (F := Ideal) S_ .f32 0x3727C5AC#32))))))
        (rows g))
      (rows b))
    zeros

/-- the three layers -/
def net (x : Mat S50000x128) (ei : IMat S2x800000) (w10 w20 : Mat S128x256) (g0 b0 : Mat S256)
    (w11 w21 : Mat S256x256) (g1 b1 : Mat S256) (w12 w22 : Mat S256x256) (g2 b2 : Mat S256) : Mat S50000x256 :=
  bnRelu (conv1 (bnRelu (conv1 (bnRelu (conv0 x ei w10 w20) g0 b0) ei w11 w21) g1 b1) ei w12 w22) g2 b2

end Cert.Spec

end
-- ==== Proof.KRegion0.lean ====
/-
  The first tiled kernel against whole arrays: after its ten grid points, each of its two output arrays is the product of
  the whole [50000,128] input with one of the two [128,256] weight matrices. Grid point t works on rows 5000·t … 5000·t+4999;
  the ten blocks fill the array.
-/
import proofs.«124758_j37177236914932_2_alg».proof.Proof.Gen.KernelIdeal.Frame
import proofs.«124758_j37177236914932_2_alg».proof.Proof.KTiles
import proofs.«124758_j37177236914932_2_alg».proof.Proof.Spec

set_option maxRecDepth 16384

noncomputable section

namespace Cert.KRegion0

open Idealize.ShloMosaic Idealize.ShloMosaic.TcCoe Idealize.SL.Sem Idealize.ShloMosaic.ValueIdx
open Cert.KernelIdeal Cert.KernelIdeal.Gen Cert.KBlocks
open Idealize.ShloMosaic.Pipeline (Dat Cfg Window)

variable [Cert.KernelIdeal.Facts] [Cert.ReferenceIdeal.Facts]

-- the buffer contents the region is entered with
variable (V : (c : Dev nD) → (b : Ref sig .tc) → Buf (Elt Ideal) ((c : Thread nD τ).loc b))

/-- the zero offsets a whole-block rectangle sits at -/
theorem hz : (![0, 0] : Fin 2 → Nat) = fun _ => 0 := funext fun a => by fin_cases a <;> rfl

/-- The block index maps over the grid: a row block moves with the grid point along axis 0 (the same block for every
    row-tiled window), every other block index is zero, and there are ten row blocks. -/
theorem idx : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_4.index t (0 : Fin 2) = win0_3.index t (0 : Fin 2)
    ∧ win0_4.index t (1 : Fin 2) = 0
    ∧ win0_3.index t (0 : Fin 2) ≤ 9 :=
  (by decide +kernel : ∀ t : Fin grid0.N, _)

/-- every one of the ten row blocks is some grid point's -/
theorem onto : ∀ q0 : Fin 10, ∃ t : Fin cfg0.N, win0_3.index t (0 : Fin 2) = q0.val :=
  (by decide +kernel : ∀ q0 : Fin 10, ∃ t : Fin grid0.N, win0_3.index t (0 : Fin 2) = q0.val)

/-- the array row of row p of grid point t's block is below 50000 -/
theorem row_lt (t : Fin cfg0.N) (p : Fin 5000) : win0_3.index t (0 : Fin 2) * 5000 + p.val < 50000 := by
  have h := (idx t).2.2.2.2.2.2.2.2.2
  have := p.isLt
  omega

/-- the array row that row p of grid point t's block is -/
def rowAt (t : Fin cfg0.N) (p : Fin 5000) : Fin 50000 := ⟨win0_3.index t (0 : Fin 2) * 5000 + p.val, row_lt t p⟩

/-! ## The input blocks read where they sit in their arrays -/

/-- entry (p, k) of the row block at grid point t is entry (rowAt t p, k) of the array -/
theorem blk_0 (c : Dev nD) (t : Fin cfg0.N) (p : Fin 5000) (k : Fin 128) :
    (iblk0 V c 0 t : Vec Ideal S5000x128 .f32) (ix2 p k) = (V c main_arg0 : FVec Ideal ⟨2, ![50000, 128]⟩ .f32) (ix2 (rowAt t p) k) := by
  have h0 := (idx t).1
  have h1 := (idx t).2.1
  unfold iblk0
  rw [View.read_apply]
  show V c main_arg0 _ = V c main_arg0 _
  congr 1
  funext a
  apply Fin.ext
  match a with
  | ⟨0, _⟩ => show win0_0.index t (0 : Fin 2) * 5000 + 1 * p.val = win0_3.index t (0 : Fin 2) * 5000 + p.val; rw [h0]; omega
  | ⟨1, _⟩ => show win0_0.index t (1 : Fin 2) * 128 + 1 * k.val = k.val; rw [h1]; omega

/-- a window that takes its whole array: the block is the array -/
theorem blk_1 (c : Dev nD) (t : Fin cfg0.N) (a : Fin 128) (b : Fin 256) :
    (iblk0 V c 1 t : Vec Ideal S128x256 .f32) (ix2 a b) = (V c main_arg2 : FVec Ideal ⟨2, ![128, 256]⟩ .f32) (ix2 a b) := by
  have h0 := (idx t).2.2.1
  have h1 := (idx t).2.2.2.1
  unfold iblk0
  rw [View.read_apply]
  show V c main_arg2 _ = V c main_arg2 _
  congr 1
  funext d
  apply Fin.ext
  match d with
  | ⟨0, _⟩ => show win0_1.index t (0 : Fin 2) * 128 + 1 * a.val = a.val; rw [h0]; omega
  | ⟨1, _⟩ => show win0_1.index t (1 : Fin 2) * 256 + 1 * b.val = b.val; rw [h1]; omega

/-- a window that takes its whole array: the block is the array -/
theorem blk_2 (c : Dev nD) (t : Fin cfg0.N) (a : Fin 128) (b : Fin 256) :
    (iblk0 V c 2 t : Vec Ideal S128x256 .f32) (ix2 a b) = (V c main_arg3 : FVec Ideal ⟨2, ![128, 256]⟩ .f32) (ix2 a b) := by
  have h0 := (idx t).2.2.2.2.1
  have h1 := (idx t).2.2.2.2.2.1
  unfold iblk0
  rw [View.read_apply]
  show V c main_arg3 _ = V c main_arg3 _
  congr 1
  funext d
  apply Fin.ext
  match d with
  | ⟨0, _⟩ => show win0_2.index t (0 : Fin 2) * 128 + 1 * a.val = a.val; rw [h0]; omega
  | ⟨1, _⟩ => show win0_2.index t (1 : Fin 2) * 256 + 1 * b.val = b.val; rw [h1]; omega

/-! ## The output blocks: where they sit, what is written back, and that they fill their arrays -/

/-- the whole [50000,128] input times a [128,256] weight matrix -/
def mm (x : FVec Ideal ⟨2, ![50000, 128]⟩ .f32) (w : FVec Ideal ⟨2, ![128, 256]⟩ .f32) : FVec Ideal ⟨2, ![50000, 256]⟩ .f32 :=
  Host.dotGeneral (F := Ideal) Cert.ReferenceIdeal.dot_S50000x128_S128x256_S50000x256_1_0_0_1_n_n none x w

/-- entry (p, q) of output window 3's block at grid point t sits at (rowAt t p, q) of its array -/
theorem emb_3 (t : Fin cfg0.N) (p : Fin 5000) (q : Fin 256) :
    ((cfg0.win 3).blk t).view.emb (ix2 p q) = (ix2 (rowAt t p) q : (⟨2, ![50000, 256]⟩ : Shape).Idx) := by
  have h0 : win0_3.index t (0 : Fin 2) = win0_3.index t (0 : Fin 2) := rfl
  have h1 := (idx t).2.2.2.2.2.2.1
  funext a
  apply Fin.ext
  match a with
  | ⟨0, _⟩ => show win0_3.index t (0 : Fin 2) * 5000 + 1 * p.val = win0_3.index t (0 : Fin 2) * 5000 + p.val; rw [h0]; omega
  | ⟨1, _⟩ => show win0_3.index t (1 : Fin 2) * 256 + 1 * q.val = q.val; rw [h1]; omega

/-- what grid point t writes back through output window 3 is its block of the whole-array result -/
theorem flushed_3 (c : Dev nD) (t : Fin cfg0.N) :
    (dat0 V c).flushed 3 t = ((cfg0.win 3).blk t).view.read (Elt Ideal) (mm (V c main_arg0) (V c main_arg2)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz]
  funext j
  obtain ⟨p, q, rfl⟩ : ∃ (p : Fin 5000) (q : Fin 256), j = ix2 p q := ⟨j (0 : Fin 2), j (1 : Fin 2), eq_ix2 (n0 := 5000) (n1 := 256) j⟩
  show k0_pay1 (F := Ideal) (iblk0 V c 0 t) (iblk0 V c 1 t) (ix2 p q) = (mm (V c main_arg0) (V c main_arg2)) (((cfg0.win 3).blk t).view.emb (ix2 p q))
  exact (tile0_1 Cert.ReferenceIdeal.dot_S50000x128_S128x256_S50000x256_1_0_0_1_n_n rfl (V c main_arg0) (V c main_arg2) (iblk0 V c 0 t) (iblk0 V c 1 t) p q (rowAt t p) (fun k => blk_0 V c t p k) (fun k => blk_1 V c t k q)).trans (congrArg (mm (V c main_arg0) (V c main_arg2)) (emb_3 t p q).symm)

/-- an index of the array lies in grid point t's block iff each coordinate is in the block's range -/
theorem mem_3 (t : Fin cfg0.N) (i : (⟨2, ![50000, 256]⟩ : Shape).Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v10_0).slice (win0_3.rect t)).set ↔ _
  rw [View.set_slice_whole, Rect.mem_set_unit]
  exact Iff.rfl

/-- every index of the array is in some grid point's block: the one its row block names -/
theorem cover_3 (i : (⟨2, ![50000, 256]⟩ : Shape).Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := onto ⟨(i 0).val / 5000, by omega⟩
  have h0 : win0_3.index t (0 : Fin 2) = win0_3.index t (0 : Fin 2) := rfl
  have h1 := (idx t).2.2.2.2.2.2.1
  have ht' : win0_3.index t (0 : Fin 2) = (i 0).val / 5000 := ht
  refine ⟨t, flush0_3 t, ?_⟩
  rw [mem_3]
  intro a
  match a with
  | ⟨0, _⟩ => show win0_3.index t (0 : Fin 2) * 5000 ≤ (i 0).val ∧ (i 0).val < win0_3.index t (0 : Fin 2) * 5000 + 5000; rw [h0, ht']; omega
  | ⟨1, _⟩ => show win0_3.index t (1 : Fin 2) * 256 ≤ (i 1).val ∧ (i 1).val < win0_3.index t (1 : Fin 2) * 256 + 256; rw [h1]; omega

/-- THE ARRAY behind output window 3 after the region: the whole-array result -/
theorem final_3 (c : Dev nD) : (dat0 V c).arrAt 3 cfg0.N = (mm (V c main_arg0) (V c main_arg2)) :=
  (dat0 V c).arrAt_eq_of_cover 3 (mm (V c main_arg0) (V c main_arg2)) (fun t _ => flushed_3 V c t) (cover_3)

/-- entry (p, q) of output window 4's block at grid point t sits at (rowAt t p, q) of its array -/
theorem emb_4 (t : Fin cfg0.N) (p : Fin 5000) (q : Fin 256) :
    ((cfg0.win 4).blk t).view.emb (ix2 p q) = (ix2 (rowAt t p) q : (⟨2, ![50000, 256]⟩ : Shape).Idx) := by
  have h0 := (idx t).2.2.2.2.2.2.2.1
  have h1 := (idx t).2.2.2.2.2.2.2.2.1
  funext a
  apply Fin.ext
  match a with
  | ⟨0, _⟩ => show win0_4.index t (0 : Fin 2) * 5000 + 1 * p.val = win0_3.index t (0 : Fin 2) * 5000 + p.val; rw [h0]; omega
  | ⟨1, _⟩ => show win0_4.index t (1 : Fin 2) * 256 + 1 * q.val = q.val; rw [h1]; omega

/-- what grid point t writes back through output window 4 is its block of the whole-array result -/
theorem flushed_4 (c : Dev nD) (t : Fin cfg0.N) :
    (dat0 V c).flushed 4 t = ((cfg0.win 4).blk t).view.read (Elt Ideal) (mm (V c main_arg0) (V c main_arg3)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x256) hz]
  funext j
  obtain ⟨p, q, rfl⟩ : ∃ (p : Fin 5000) (q : Fin 256), j = ix2 p q := ⟨j (0 : Fin 2), j (1 : Fin 2), eq_ix2 (n0 := 5000) (n1 := 256) j⟩
  show k0_pay2 (F := Ideal) (iblk0 V c 0 t) (iblk0 V c 2 t) (ix2 p q) = (mm (V c main_arg0) (V c main_arg3)) (((cfg0.win 4).blk t).view.emb (ix2 p q))
  exact (tile0_2 Cert.ReferenceIdeal.dot_S50000x128_S128x256_S50000x256_1_0_0_1_n_n rfl (V c main_arg0) (V c main_arg3) (iblk0 V c 0 t) (iblk0 V c 2 t) p q (rowAt t p) (fun k => blk_0 V c t p k) (fun k => blk_2 V c t k q)).trans (congrArg (mm (V c main_arg0) (V c main_arg3)) (emb_4 t p q).symm)

/-- an index of the array lies in grid point t's block iff each coordinate is in the block's range -/
theorem mem_4 (t : Fin cfg0.N) (i : (⟨2, ![50000, 256]⟩ : Shape).Idx) :
    i ∈ ((cfg0.win 4).blk t).view.set ↔ ∀ a : Fin 2, win0_4.index t a * S5000x256.size a ≤ (i a).val ∧ (i a).val < win0_4.index t a * S5000x256.size a + S5000x256.size a := by
  show i ∈ ((View.whole main_v10_1).slice (win0_4.rect t)).set ↔ _
  rw [View.set_slice_whole, Rect.mem_set_unit]
  exact Iff.rfl

/-- every index of the array is in some grid point's block: the one its row block names -/
theorem cover_4 (i : (⟨2, ![50000, 256]⟩ : Shape).Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ := onto ⟨(i 0).val / 5000, by omega⟩
  have h0 := (idx t).2.2.2.2.2.2.2.1
  have h1 := (idx t).2.2.2.2.2.2.2.2.1
  have ht' : win0_3.index t (0 : Fin 2) = (i 0).val / 5000 := ht
  refine ⟨t, flush0_4 t, ?_⟩
  rw [mem_4]
  intro a
  match a with
  | ⟨0, _⟩ => show win0_4.index t (0 : Fin 2) * 5000 ≤ (i 0).val ∧ (i 0).val < win0_4.index t (0 : Fin 2) * 5000 + 5000; rw [h0, ht']; omega
  | ⟨1, _⟩ => show win0_4.index t (1 : Fin 2) * 256 ≤ (i 1).val ∧ (i 1).val < win0_4.index t (1 : Fin 2) * 256 + 256; rw [h1]; omega

/-- THE ARRAY behind output window 4 after the region: the whole-array result -/
theorem final_4 (c : Dev nD) : (dat0 V c).arrAt 4 cfg0.N = (mm (V c main_arg0) (V c main_arg3)) :=
  (dat0 V c).arrAt_eq_of_cover 4 (mm (V c main_arg0) (V c main_arg3)) (fun t _ => flushed_4 V c t) (cover_4)

end Cert.KRegion0

end
-- ==== Proof.KWhole.lean ====
/-
  The whole-array computation of the second and third tiled kernels: the [50000,256] pre-activation normalised by four
  [1,256] rows (mean, variance, scale, shift) and clamped at zero, then multiplied by a [256,256] weight matrix.
-/
import proofs.«124758_j37177236914932_2_alg».proof.Proof.KTiles
import proofs.«124758_j37177236914932_2_alg».proof.ReferenceIdeal

noncomputable section

namespace Cert.KWhole

open Idealize.ShloMosaic Idealize.ShloMosaic.ValueIdx Cert.KBlocks

variable [Cert.ReferenceIdeal.Facts]

/-- (normalised pre) · W over the whole node axis -/
def mmbn (pre : FVec Ideal ⟨2, ![50000, 256]⟩ .f32) (mu var g b : FVec Ideal ⟨2, ![1, 256]⟩ .f32)
    (w : FVec Ideal ⟨2, ![256, 256]⟩ .f32) : FVec Ideal ⟨2, ![50000, 256]⟩ .f32 :=
  Host.dotGeneral (F := Ideal) Cert.ReferenceIdeal.dot_S50000x256_S256x256_S50000x256_1_0_0_1_n_n none (bnWhole pre mu var g b) w

end Cert.KWhole

end
-- ==== Proof.KRegion1.lean ====
/-
  The second tiled kernel against whole arrays: after its ten grid points, each of its two output arrays is
  (the whole pre-activation, normalised by the mean / variance / scale / shift rows and clamped at zero) times one of the two
  [256,256] weight matrices. Grid point t works on rows 5000·t … 5000·t+4999; the ten blocks fill the array.
-/
import proofs.«124758_j37177236914932_2_alg».proof.Proof.Gen.KernelIdeal.Frame
import proofs.«124758_j37177236914932_2_alg».proof.Proof.KTiles
import proofs.«124758_j37177236914932_2_alg».proof.Proof.Spec
import proofs.«124758_j37177236914932_2_alg».proof.Proof.KWhole

set_option maxRecDepth 16384

noncomputable section

namespace Cert.KRegion1

open Idealize.ShloMosaic Idealize.ShloMosaic.TcCoe Idealize.SL.Sem Idealize.ShloMosaic.ValueIdx
open Cert.KernelIdeal Cert.KernelIdeal.Gen Cert.KBlocks
open Idealize.ShloMosaic.Pipeline (Dat Cfg Window)

variable [Cert.KernelIdeal.Facts] [Cert.ReferenceIdeal.Facts]

-- the buffer contents the region is entered with
variable (V : (c : Dev nD) → (b : Ref sig .tc) → Buf (Elt Ideal) ((c : Thread nD τ).loc b))

/-- the zero offsets a whole-block rectangle sits at -/
theorem hz : (![0, 0] : Fin 2 → Nat) = fun _ => 0 := funext fun a => by fin_cases a <;> rfl

/-- The block index maps over the grid: a row block moves with the grid point along axis 0 (the same block for every
    row-tiled window), every other block index is zero, and there are ten row blocks. -/
theorem idx : ∀ t : Fin cfg1.N, win1_0.index t (0 : Fin 2) = win1_7.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (1 : Fin 2) = 0
    ∧ win1_8.index t (0 : Fin 2) = win1_7.index t (0 : Fin 2)
    ∧ win1_8.index t (1 : Fin 2) = 0
    ∧ win1_7.index t (0 : Fin 2) ≤ 9 :=
  (by decide +kernel : ∀ t : Fin grid1.N, _)

/-- every one of the ten row blocks is some grid point's -/
theorem onto : ∀ q0 : Fin 10, ∃ t : Fin cfg1.N, win1_7.index t (0 : Fin 2) = q0.val :=
  (by decide +kernel : ∀ q0 : Fin 10, ∃ t : Fin grid1.N, win1_7.index t (0 : Fin 2) = q0.val)

/-- the array row of row p of grid point t's block is below 50000 -/
theorem row_lt (t : Fin cfg1.N) (p : Fin 5000) : win1_7.index t (0 : Fin 2) * 5000 + p.val < 50000 := by
  have h := (idx t).2.2.2.2.2.2.2.2.2.2.2.2.2.2.2.2.2
  have := p.isLt
  omega

/-- the array row that row p of grid point t's block is -/
def rowAt (t : Fin cfg1.N) (p : Fin 5000) : Fin 50000 := ⟨win1_7.index t (0 : Fin 2) * 5000 + p.val, row_lt t p⟩

/-! ## The input blocks read where they sit in their arrays -/

/-- entry (p, k) of the row block at grid point t is entry (rowAt t p, k) of the array -/
theorem blk_0 (c : Dev nD) (t : Fin cfg1.N) (p : Fin 5000) (k : Fin 256) :
    (iblk1 V c 0 t : Vec Ideal S5000x256 .f32) (ix2 p k) = (V c main_v21 : FVec Ideal ⟨2, ![50000, 256]⟩ .f32) (ix2 (rowAt t p) k) := by
  have h0 := (idx t).1
  have h1 := (idx t).2.1
  unfold iblk1
  rw [View.read_apply]
  show V c main_v21 _ = V c main_v21 _
  congr 1
  funext a
  apply Fin.ext
  match a with
  | ⟨0, _⟩ => show win1_0.index t (0 : Fin 2) * 5000 + 1 * p.val = win1_7.index t (0 : Fin 2) * 5000 + p.val; rw [h0]; omega
  | ⟨1, _⟩ => show win1_0.index t (1 : Fin 2) * 256 + 1 * k.val = k.val; rw [h1]; omega

/-- a window that takes its whole array: the block is the array -/
theorem blk_1 (c : Dev nD) (t : Fin cfg1.N) (a : Fin 1) (b : Fin 256) :
    (iblk1 V c 1 t : Vec Ideal S1x256 .f32) (ix2 a b) = (V c main_v25 : FVec Ideal ⟨2, ![1, 256]⟩ .f32) (ix2 a b) := by
  have h0 := (idx t).2.2.1
  have h1 := (idx t).2.2.2.1
  unfold iblk1
  rw [View.read_apply]
  show V c main_v25 _ = V c main_v25 _
  congr 1
  funext d
  apply Fin.ext
  match d with
  | ⟨0, _⟩ => show win1_1.index t (0 : Fin 2) * 1 + 1 * a.val = a.val; rw [h0]; omega
  | ⟨1, _⟩ => show win1_1.index t (1 : Fin 2) * 256 + 1 * b.val = b.val; rw [h1]; omega

/-- a window that takes its whole array: the block is the array -/
theorem blk_2 (c : Dev nD) (t : Fin cfg1.N) (a : Fin 1) (b : Fin 256) :
    (iblk1 V c 2 t : Vec Ideal S1x256 .f32) (ix2 a b) = (V c main_v26 : FVec Ideal ⟨2, ![1, 256]⟩ .f32) (ix2 a b) := by
  have h0 := (idx t).2.2.2.2.1
  have h1 := (idx t).2.2.2.2.2.1
  unfold iblk1
  rw [View.read_apply]
  show V c main_v26 _ = V c main_v26 _
  congr 1
  funext d
  apply Fin.ext
  match d with
  | ⟨0, _⟩ => show win1_2.index t (0 : Fin 2) * 1 + 1 * a.val = a.val; rw [h0]; omega
  | ⟨1, _⟩ => show win1_2.index t (1 : Fin 2) * 256 + 1 * b.val = b.val; rw [h1]; omega

/-- a window that takes its whole array: the block is the array -/
theorem blk_3 (c : Dev nD) (t : Fin cfg1.N) (a : Fin 1) (b : Fin 256) :
    (iblk1 V c 3 t : Vec Ideal S1x256 .f32) (ix2 a b) = (V c main_v4 : FVec Ideal ⟨2, ![1, 256]⟩ .f32) (ix2 a b) := by
  have h0 := (idx t).2.2.2.2.2.2.1
  have h1 := (idx t).2.2.2.2.2.2.2.1
  unfold iblk1
  rw [View.read_apply]
  show V c main_v4 _ = V c main_v4 _
  congr 1
  funext d
  apply Fin.ext
  match d with
  | ⟨0, _⟩ => show win1_3.index t (0 : Fin 2) * 1 + 1 * a.val = a.val; rw [h0]; omega
  | ⟨1, _⟩ => show win1_3.index t (1 : Fin 2) * 256 + 1 * b.val = b.val; rw [h1]; omega

/-- a window that takes its whole array: the block is the array -/
theorem blk_4 (c : Dev nD) (t : Fin cfg1.N) (a : Fin 1) (b : Fin 256) :
    (iblk1 V c 4 t : Vec Ideal S1x256 .f32) (ix2 a b) = (V c main_v5 : FVec Ideal ⟨2, ![1, 256]⟩ .f32) (ix2 a b) := by
  have h0 := (idx t).2.2.2.2.2.2.2.2.1
  have h1 := (idx t).2.2.2.2.2.2.2.2.2.1
  unfold iblk1
  rw [View.read_apply]
  show V c main_v5 _ = V c main_v5 _
  congr 1
  funext d
  apply Fin.ext
  match d with
  | ⟨0, _⟩ => show win1_4.index t (0 : Fin 2) * 1 + 1 * a.val = a.val; rw [h0]; omega
  | ⟨1, _⟩ => show win1_4.index t (1 : Fin 2) * 256 + 1 * b.val = b.val; rw [h1]; omega

/-- a window that takes its whole array: the block is the array -/
theorem blk_5 (c : Dev nD) (t : Fin cfg1.N) (a : Fin 256) (b : Fin 256) :
    (iblk1 V c 5 t : Vec Ideal S256x256 .f32) (ix2 a b) = (V c main_arg6 : FVec Ideal ⟨2, ![256, 256]⟩ .f32) (ix2 a b) := by
  have h0 := (idx t).2.2.2.2.2.2.2.2.2.2.1
  have h1 := (idx t).2.2.2.2.2.2.2.2.2.2.2.1
  unfold iblk1
  rw [View.read_apply]
  show V c main_arg6 _ = V c main_arg6 _
  congr 1
  funext d
  apply Fin.ext
  match d with
  | ⟨0, _⟩ => show win1_5.index t (0 : Fin 2) * 256 + 1 * a.val = a.val; rw [h0]; omega
  | ⟨1, _⟩ => show win1_5.index t (1 : Fin 2) * 256 + 1 * b.val = b.val; rw [h1]; omega

/-- a window that takes its whole array: the block is the array -/
theorem blk_6 (c : Dev nD) (t : Fin cfg1.N) (a : Fin 256) (b : Fin 256) :
    (iblk1 V c 6 t : Vec Ideal S256x256 .f32) (ix2 a b) = (V c main_arg7 : FVec Ideal ⟨2, ![256, 256]⟩ .f32) (ix2 a b) := by
  have h0 := (idx t).2.2.2.2.2.2.2.2.2.2.2.2.1
  have h1 := (idx t).2.2.2.2.2.2.2.2.2.2.2.2.2.1
  unfold iblk1
  rw [View.read_apply]
  show V c main_arg7 _ = V c main_arg7 _
  congr 1
  funext d
  apply Fin.ext
  match d with
  | ⟨0, _⟩ => show win1_6.index t (0 : Fin 2) * 256 + 1 * a.val = a.val; rw [h0]; omega
  | ⟨1, _⟩ => show win1_6.index t (1 : Fin 2) * 256 + 1 * b.val = b.val; rw [h1]; omega

/-! ## The output blocks: where they sit, what is written back, and that they fill their arrays -/

/-- entry (p, q) of output window 7's block at grid point t sits at (rowAt t p, q) of its array -/
theorem emb_7 (t : Fin cfg1.N) (p : Fin 5000) (q : Fin 256) :
    ((cfg1.win 7).blk t).view.emb (ix2 p q) = (ix2 (rowAt t p) q : (⟨2, ![50000, 256]⟩ : Shape).Idx) := by
  have h0 : win1_7.index t (0 : Fin 2) = win1_7.index t (0 : Fin 2) := rfl
  have h1 := (idx t).2.2.2.2.2.2.2.2.2.2.2.2.2.2.1
  funext a
  apply Fin.ext
  match a with
  | ⟨0, _⟩ => show win1_7.index t (0 : Fin 2) * 5000 + 1 * p.val = win1_7.index t (0 : Fin 2) * 5000 + p.val; rw [h0]; omega
  | ⟨1, _⟩ => show win1_7.index t (1 : Fin 2) * 256 + 1 * q.val = q.val; rw [h1]; omega

/-- what grid point t writes back through output window 7 is its block of the whole-array result -/
theorem flushed_7 (c : Dev nD) (t : Fin cfg1.N) :
    (dat1 V c).flushed 7 t = ((cfg1.win 7).blk t).view.read (Elt Ideal) (Cert.KWhole.mmbn (V c main_v21) (V c main_v25) (V c main_v26) (V c main_v4) (V c main_v5) (V c main_arg6)) := by
  show (cfg1.win 7).cut (grid1.coords t) ((dat1 V c).after 7 t) = _
  rw [after1_7]
  unfold out1_7
  rw [View.canon_unit_zero hz]
  simp only [View.ld_unit_zero (S := S5000x256) hz, View.ld_unit_zero (S := S1x256) hz, View.ld_unit_zero (S := S256x256) hz]
  funext j
  obtain ⟨p, q, rfl⟩ : ∃ (p : Fin 5000) (q : Fin 256), j = ix2 p q := ⟨j (0 : Fin 2), j (1 : Fin 2), eq_ix2 (n0 := 5000) (n1 := 256) j⟩
  show k1_pay2 (F := Ideal) (iblk1 V c 0 t) (iblk1 V c 1 t) (iblk1 V c 2 t) (iblk1 V c 3 t) (iblk1 V c 4 t) (iblk1 V c 5 t) (ix2 p q) = (Cert.KWhole.mmbn (V c main_v21) (V c main_v25) (V c main_v26) (V c main_v4) (V c main_v5) (V c main_arg6)) (((cfg1.win 7).blk t).view.emb (ix2 p q))
  exact (tile1_2 Cert.ReferenceIdeal.dot_S50000x256_S256x256_S50000x256_1_0_0_1_n_n rfl (V c main_v21) (V c main_v25) (V c main_v26) (V c main_v4) (V c main_v5) (V c main_arg6) (iblk1 V c 0 t) (iblk1 V c 1 t) (iblk1 V c 2 t) (iblk1 V c 3 t) (iblk1 V c 4 t) (iblk1 V c 5 t) p q (rowAt t p) (fun k => blk_0 V c t p k) (fun k => blk_1 V c t 0 k) (fun k => blk_2 V c t 0 k) (fun k => blk_3 V c t 0 k) (fun k => blk_4 V c t 0 k) (fun k => blk_5 V c t k q)).trans (congrArg (Cert.KWhole.mmbn (V c main_v21) (V c main_v25) (V c main_v26) (V c main_v4) (V c main_v5) (V c main_arg6)) (emb_7 t p q).symm)

/-- an index of the array lies in grid point t's block iff each coordinate is in the block's range -/
theorem mem_7 (t : Fin cfg1.N) (i : (⟨2, ![50000, 256]⟩ : Shape).Idx) :
    i ∈ ((cfg1.win 7).blk t).view.set ↔ ∀ a : Fin 2, win1_7.index t a * S5000x256.size a ≤ (i a).val ∧ (i a).val < win1_7.index t a * S5000x256.size a + S5000x256.size a := by
  show i ∈ ((View.whole main_v27_0).slice (win1_7.rect t)).set ↔ _
  rw [View.set_slice_whole, Rect.mem_set_unit]
  exact Iff.rfl

/-- every index of the array is in some grid point's block: the one its row block names -/
theorem cover_7 (i : (⟨2, ![50000, 256]⟩ : Shape).Idx) :
    ∃ t : Fin cfg1.N, (cfg1.win 7).flush t = true ∧ i ∈ ((cfg1.win 7).blk t).view.set := by
  have hi0 : (i 0).val < 50000 := (i 0).isLt
  have hi1 : (i 1).val < 256 := (i 1).isLt
  obtain ⟨t, ht⟩ := onto ⟨(i 0).val / 5000, by omega⟩
  have h0 : win1_7.index t (0 : Fin 2) = win1_7.index t (0 : Fin 2) := rfl
  have h1 := (idx t).2.2.2.2.2.2.2.2.2.2.2.2.2.2.1
  have ht' : win1_7.index t (0 : Fin 2) = (i 0).val / 5000 := ht
  refine ⟨t, flush1_7 t, ?_⟩
  rw [mem_7]
  intro a
  match a with
  | ⟨0, _⟩ => show win1_7.index t (0 : Fin 2) * 5000 ≤ (i 0).val ∧ (i 0).val < win1_7.index t (0 : Fin 2) * 5000 + 5000; rw [h0, ht']; omega
  | ⟨1, _⟩ => show win1_7.index t (1 : Fin 2) * 256 ≤ (i 1).val ∧ (i 1).val < win1_7.index t (1 : Fin 2) * 256 + 256; rw [h1]; omega

/-- THE ARRAY behind output window 7 after the region: the whole-array result -/
theorem final_7 (c : Dev nD) : (dat1 V c).arrAt 7 cfg1.N = (Cert.KWhole.mmbn (V c main_v21) (V c main_v25) (V c main_v26) (V c main_v4) (V c main_v5) (V c main_arg6)) :=
  (dat1 V c).arrAt_eq_of_cover 7 (Cert.KWhole.mmbn (V c main_v21) (V c main_v25) (V c main_v26) (V c main_v4) (V c main_v5) (V c main_arg6)) (fun t _ => flushed_7 V c t) (cover_7)

/-- entry (p, q) of output window 8's block at grid point t sits at (rowAt t p, q) of its array -/
theorem emb_8 (t : Fin cfg1.N) (p : Fin 5000) (q : Fin 256) :
    ((cfg1.win 8).blk t).view.emb (ix2 p q) = (ix2 (rowAt t p) q : (⟨2, ![50000, 256]⟩ : Shape).Idx) := by
  have h0 := (idx t).2.2.2.2.2.2.2.2.2.2.2.2.2.2.2.1
  have h1 := (idx t).2.2.2.2.2.2.2.2.2.2.2.2.2.2.2.2.1
  funext a
  apply Fin.ext
  match a with
  | ⟨0, _⟩ => show win1_8.index t (0 : Fin 2) * 5000 + 1 * p.val = win1_7.index t (0 : Fin 2) * 5000 + p.val; rw [h0]; omega
  | ⟨1, _⟩ => show win1_8.index t (1 : Fin 2) * 256 + 1 * q.val = q.val; rw [h1]; omega

/-- what grid point t writes back through output window 8 is its block of the whole-array result -/
theorem flushed_8 (c : Dev nD) (t : Fin cfg1.N) :
    (dat1 V c).flushed 8 t = ((cfg1.win 8).blk t).view.read (Elt Ideal) (Cert.KWhole.mmbn (V c main_v21) (V c main_v25) (V c main_v26) (V c main_v4) (V c main_v5) (V c main_arg7)) := by
  show (cfg1.win 8).cut (grid1.coords t) ((dat1 V c).after 8 t) = _
  rw [after1_8]
  unfold out1_8
  rw [View.canon_unit_zero hz]
  simp only [View.ld_unit_zero (S := S5000x256) hz, View.ld_unit_zero (S := S1x256) hz, View.ld_unit_zero (S := S256x256) hz]
  funext j
  obtain ⟨p, q, rfl⟩ : ∃ (p : Fin 5000) (q : Fin 256), j = ix2 p q := ⟨j (0 : Fin 2), j (1 : Fin 2), eq_ix2 (n0 := 5000) (n1 := 256) j⟩
  show k1_pay3 (F := Ideal) (iblk1 V c 0 t) (iblk1 V c 1 t) (iblk1 V c 2 t) (iblk1 V c 3 t) (iblk1 V c 4 t) (iblk1 V c 6 t) (ix2 p q) = (Cert.KWhole.mmbn (V c main_v21) (V c main_v25) (V c main_v26) (V c main_v4) (V c main_v5) (V c main_arg7)) (((cfg1.win 8).blk t).view.emb (ix2 p q))
  exact (tile1_3 Cert.ReferenceIdeal.dot_S50000x256_S256x256_S50000x256_1_0_0_1_n_n rfl (V c main_v21) (V c main_v25) (V c main_v26) (V c main_v4) (V c main_v5) (V c main_arg7) (iblk1 V c 0 t) (iblk1 V c 1 t) (iblk1 V c 2 t) (iblk1 V c 3 t) (iblk1 V c 4 t) (iblk1 V c 6 t) p q (rowAt t p) (fun k => blk_0 V c t p k) (fun k => blk_1 V c t 0 k) (fun k => blk_2 V c t 0 k) (fun k => blk_3 V c t 0 k) (fun k => blk_4 V c t 0 k) (fun k => blk_6 V c t k q)).trans (congrArg (Cert.KWhole.mmbn (V c main_v21) (V c main_v25) (V c main_v26) (V c main_v4) (V c main_v5) (V c main_arg7)) (emb_8 t p q).symm)

/-- an index of the array lies in grid point t's block iff each coordinate is in the block's range -/
theorem mem_8 (t : Fin cfg1.N) (i : (⟨2, ![50000, 256]⟩ : Shape).Idx) :
    i ∈ ((cfg1.win 8).blk t).view.set ↔ ∀ a : Fin 2, win1_8.index t a * S5000x256.size a ≤ (i a).val ∧ (i a).val < win1_8.index t a * S5000x256.size a + S5000x256.size a := by
  show i ∈ ((View.whole main_v27_1).slice (win1_8.rect t)).set ↔ _
  rw [View.set_slice_whole, Rect.mem_set_unit]
  exact Iff.rfl

/-- every index of the array is in some grid point's block: the one its row block names -/
theorem cover_8 (i : (⟨2, ![50000, 256]⟩ : Shape).Idx) :
    ∃ t : Fin cfg1.N, (cfg1.win 8).flush t = true ∧ i ∈ ((cfg1.win 8).blk t).view.set := by
  have hi0 : (i 0).val < 50000 := (i 0).isLt
  have hi1 : (i 1).val < 256 := (i 1).isLt
  obtain ⟨t, ht⟩ := onto ⟨(i 0).val / 5000, by omega⟩
  have h0 := (idx t).2.2.2.2.2.2.2.2.2.2.2.2.2.2.2.1
  have h1 := (idx t).2.2.2.2.2.2.2.2.2.2.2.2.2.2.2.2.1
  have ht' : win1_7.index t (0 : Fin 2) = (i 0).val / 5000 := ht
  refine ⟨t, flush1_8 t, ?_⟩
  rw [mem_8]
  intro a
  match a with
  | ⟨0, _⟩ => show win1_8.index t (0 : Fin 2) * 5000 ≤ (i 0).val ∧ (i 0).val < win1_8.index t (0 : Fin 2) * 5000 + 5000; rw [h0, ht']; omega
  | ⟨1, _⟩ => show win1_8.index t (1 : Fin 2) * 256 ≤ (i 1).val ∧ (i 1).val < win1_8.index t (1 : Fin 2) * 256 + 256; rw [h1]; omega

/-- THE ARRAY behind output window 8 after the region: the whole-array result -/
theorem final_8 (c : Dev nD) : (dat1 V c).arrAt 8 cfg1.N = (Cert.KWhole.mmbn (V c main_v21) (V c main_v25) (V c main_v26) (V c main_v4) (V c main_v5) (V c main_arg7)) :=
  (dat1 V c).arrAt_eq_of_cover 8 (Cert.KWhole.mmbn (V c main_v21) (V c main_v25) (V c main_v26) (V c main_v4) (V c main_v5) (V c main_arg7)) (fun t _ => flushed_8 V c t) (cover_8)

end Cert.KRegion1

end
-- ==== Proof.KRegion2.lean ====
/-
  The third tiled kernel against whole arrays: after its ten grid points, each of its two output arrays is
  (the whole pre-activation, normalised by the mean / variance / scale / shift rows and clamped at zero) times one of the two
  [256,256] weight matrices. Grid point t works on rows 5000·t … 5000·t+4999; the ten blocks fill the array.
-/
import proofs.«124758_j37177236914932_2_alg».proof.Proof.Gen.KernelIdeal.Frame
import proofs.«124758_j37177236914932_2_alg».proof.Proof.KTiles
import proofs.«124758_j37177236914932_2_alg».proof.Proof.Spec
import proofs.«124758_j37177236914932_2_alg».proof.Proof.KWhole

set_option maxRecDepth 16384

noncomputable section

namespace Cert.KRegion2

open Idealize.ShloMosaic Idealize.ShloMosaic.TcCoe Idealize.SL.Sem Idealize.ShloMosaic.ValueIdx
open Cert.KernelIdeal Cert.KernelIdeal.Gen Cert.KBlocks
open Idealize.ShloMosaic.Pipeline (Dat Cfg Window)

variable [Cert.KernelIdeal.Facts] [Cert.ReferenceIdeal.Facts]

-- the buffer contents the region is entered with
variable (V : (c : Dev nD) → (b : Ref sig .tc) → Buf (Elt Ideal) ((c : Thread nD τ).loc b))

/-- the zero offsets a whole-block rectangle sits at -/
theorem hz : (![0, 0] : Fin 2 → Nat) = fun _ => 0 := funext fun a => by fin_cases a <;> rfl

/-- The block index maps over the grid: a row block moves with the grid point along axis 0 (the same block for every
    row-tiled window), every other block index is zero, and there are ten row blocks. -/
theorem idx : ∀ t : Fin cfg2.N, win2_0.index t (0 : Fin 2) = win2_7.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (1 : Fin 2) = 0
    ∧ win2_8.index t (0 : Fin 2) = win2_7.index t (0 : Fin 2)
    ∧ win2_8.index t (1 : Fin 2) = 0
    ∧ win2_7.index t (0 : Fin 2) ≤ 9 :=
  (by decide +kernel : ∀ t : Fin grid2.N, _)

/-- every one of the ten row blocks is some grid point's -/
theorem onto : ∀ q0 : Fin 10, ∃ t : Fin cfg2.N, win2_7.index t (0 : Fin 2) = q0.val :=
  (by decide +kernel : ∀ q0 : Fin 10, ∃ t : Fin grid2.N, win2_7.index t (0 : Fin 2) = q0.val)

/-- the array row of row p of grid point t's block is below 50000 -/
theorem row_lt (t : Fin cfg2.N) (p : Fin 5000) : win2_7.index t (0 : Fin 2) * 5000 + p.val < 50000 := by
  have h := (idx t).2.2.2.2.2.2.2.2.2.2.2.2.2.2.2.2.2
  have := p.isLt
  omega

/-- the array row that row p of grid point t's block is -/
def rowAt (t : Fin cfg2.N) (p : Fin 5000) : Fin 50000 := ⟨win2_7.index t (0 : Fin 2) * 5000 + p.val, row_lt t p⟩

/-! ## The input blocks read where they sit in their arrays -/

/-- entry (p, k) of the row block at grid point t is entry (rowAt t p, k) of the array -/
theorem blk_0 (c : Dev nD) (t : Fin cfg2.N) (p : Fin 5000) (k : Fin 256) :
    (iblk2 V c 0 t : Vec Ideal S5000x256 .f32) (ix2 p k) = (V c main_v38 : FVec Ideal ⟨2, ![50000, 256]⟩ .f32) (ix2 (rowAt t p) k) := by
  have h0 := (idx t).1
  have h1 := (idx t).2.1
  unfold iblk2
  rw [View.read_apply]
  show V c main_v38 _ = V c main_v38 _
  congr 1
  funext a
  apply Fin.ext
  match a with
  | ⟨0, _⟩ => show win2_0.index t (0 : Fin 2) * 5000 + 1 * p.val = win2_7.index t (0 : Fin 2) * 5000 + p.val; rw [h0]; omega
  | ⟨1, _⟩ => show win2_0.index t (1 : Fin 2) * 256 + 1 * k.val = k.val; rw [h1]; omega

/-- a window that takes its whole array: the block is the array -/
theorem blk_1 (c : Dev nD) (t : Fin cfg2.N) (a : Fin 1) (b : Fin 256) :
    (iblk2 V c 1 t : Vec Ideal S1x256 .f32) (ix2 a b) = (V c main_v42 : FVec Ideal ⟨2, ![1, 256]⟩ .f32) (ix2 a b) := by
  have h0 := (idx t).2.2.1
  have h1 := (idx t).2.2.2.1
  unfold iblk2
  rw [View.read_apply]
  show V c main_v42 _ = V c main_v42 _
  congr 1
  funext d
  apply Fin.ext
  match d with
  | ⟨0, _⟩ => show win2_1.index t (0 : Fin 2) * 1 + 1 * a.val = a.val; rw [h0]; omega
  | ⟨1, _⟩ => show win2_1.index t (1 : Fin 2) * 256 + 1 * b.val = b.val; rw [h1]; omega

/-- a window that takes its whole array: the block is the array -/
theorem blk_2 (c : Dev nD) (t : Fin cfg2.N) (a : Fin 1) (b : Fin 256) :
    (iblk2 V c 2 t : Vec Ideal S1x256 .f32) (ix2 a b) = (V c main_v43 : FVec Ideal ⟨2, ![1, 256]⟩ .f32) (ix2 a b) := by
  have h0 := (idx t).2.2.2.2.1
  have h1 := (idx t).2.2.2.2.2.1
  unfold iblk2
  rw [View.read_apply]
  show V c main_v43 _ = V c main_v43 _
  congr 1
  funext d
  apply Fin.ext
  match d with
  | ⟨0, _⟩ => show win2_2.index t (0 : Fin 2) * 1 + 1 * a.val = a.val; rw [h0]; omega
  | ⟨1, _⟩ => show win2_2.index t (1 : Fin 2) * 256 + 1 * b.val = b.val; rw [h1]; omega

/-- a window that takes its whole array: the block is the array -/
theorem blk_3 (c : Dev nD) (t : Fin cfg2.N) (a : Fin 1) (b : Fin 256) :
    (iblk2 V c 3 t : Vec Ideal S1x256 .f32) (ix2 a b) = (V c main_v6 : FVec Ideal ⟨2, ![1, 256]⟩ .f32) (ix2 a b) := by
  have h0 := (idx t).2.2.2.2.2.2.1
  have h1 := (idx t).2.2.2.2.2.2.2.1
  unfold iblk2
  rw [View.read_apply]
  show V c main_v6 _ = V c main_v6 _
  congr 1
  funext d
  apply Fin.ext
  match d with
  | ⟨0, _⟩ => show win2_3.index t (0 : Fin 2) * 1 + 1 * a.val = a.val; rw [h0]; omega
  | ⟨1, _⟩ => show win2_3.index t (1 : Fin 2) * 256 + 1 * b.val = b.val; rw [h1]; omega

/-- a window that takes its whole array: the block is the array -/
theorem blk_4 (c : Dev nD) (t : Fin cfg2.N) (a : Fin 1) (b : Fin 256) :
    (iblk2 V c 4 t : Vec Ideal S1x256 .f32) (ix2 a b) = (V c main_v7 : FVec Ideal ⟨2, ![1, 256]⟩ .f32) (ix2 a b) := by
  have h0 := (idx t).2.2.2.2.2.2.2.2.1
  have h1 := (idx t).2.2.2.2.2.2.2.2.2.1
  unfold iblk2
  rw [View.read_apply]
  show V c main_v7 _ = V c main_v7 _
  congr 1
  funext d
  apply Fin.ext
  match d with
  | ⟨0, _⟩ => show win2_4.index t (0 : Fin 2) * 1 + 1 * a.val = a.val; rw [h0]; omega
  | ⟨1, _⟩ => show win2_4.index t (1 : Fin 2) * 256 + 1 * b.val = b.val; rw [h1]; omega

/-- a window that takes its whole array: the block is the array -/
theorem blk_5 (c : Dev nD) (t : Fin cfg2.N) (a : Fin 256) (b : Fin 256) :
    (iblk2 V c 5 t : Vec Ideal S256x256 .f32) (ix2 a b) = (V c main_arg10 : FVec Ideal ⟨2, ![256, 256]⟩ .f32) (ix2 a b) := by
  have h0 := (idx t).2.2.2.2.2.2.2.2.2.2.1
  have h1 := (idx t).2.2.2.2.2.2.2.2.2.2.2.1
  unfold iblk2
  rw [View.read_apply]
  show V c main_arg10 _ = V c main_arg10 _
  congr 1
  funext d
  apply Fin.ext
  match d with
  | ⟨0, _⟩ => show win2_5.index t (0 : Fin 2) * 256 + 1 * a.val = a.val; rw [h0]; omega
  | ⟨1, _⟩ => show win2_5.index t (1 : Fin 2) * 256 + 1 * b.val = b.val; rw [h1]; omega

/-- a window that takes its whole array: the block is the array -/
theorem blk_6 (c : Dev nD) (t : Fin cfg2.N) (a : Fin 256) (b : Fin 256) :
    (iblk2 V c 6 t : Vec Ideal S256x256 .f32) (ix2 a b) = (V c main_arg11 : FVec Ideal ⟨2, ![256, 256]⟩ .f32) (ix2 a b) := by
  have h0 := (idx t).2.2.2.2.2.2.2.2.2.2.2.2.1
  have h1 := (idx t).2.2.2.2.2.2.2.2.2.2.2.2.2.1
  unfold iblk2
  rw [View.read_apply]
  show V c main_arg11 _ = V c main_arg11 _
  congr 1
  funext d
  apply Fin.ext
  match d with
  | ⟨0, _⟩ => show win2_6.index t (0 : Fin 2) * 256 + 1 * a.val = a.val; rw [h0]; omega
  | ⟨1, _⟩ => show win2_6.index t (1 : Fin 2) * 256 + 1 * b.val = b.val; rw [h1]; omega

/-! ## The output blocks: where they sit, what is written back, and that they fill their arrays -/

/-- entry (p, q) of output window 7's block at grid point t sits at (rowAt t p, q) of its array -/
theorem emb_7 (t : Fin cfg2.N) (p : Fin 5000) (q : Fin 256) :
    ((cfg2.win 7).blk t).view.emb (ix2 p q) = (ix2 (rowAt t p) q : (⟨2, ![50000, 256]⟩ : Shape).Idx) := by
  have h0 : win2_7.index t (0 : Fin 2) = win2_7.index t (0 : Fin 2) := rfl
  have h1 := (idx t).2.2.2.2.2.2.2.2.2.2.2.2.2.2.1
  funext a
  apply Fin.ext
  match a with
  | ⟨0, _⟩ => show win2_7.index t (0 : Fin 2) * 5000 + 1 * p.val = win2_7.index t (0 : Fin 2) * 5000 + p.val; rw [h0]; omega
  | ⟨1, _⟩ => show win2_7.index t (1 : Fin 2) * 256 + 1 * q.val = q.val; rw [h1]; omega

/-- what grid point t writes back through output window 7 is its block of the whole-array result -/
theorem flushed_7 (c : Dev nD) (t : Fin cfg2.N) :
    (dat2 V c).flushed 7 t = ((cfg2.win 7).blk t).view.read (Elt Ideal) (Cert.KWhole.mmbn (V c main_v38) (V c main_v42) (V c main_v43) (V c main_v6) (V c main_v7) (V c main_arg10)) := by
  show (cfg2.win 7).cut (grid2.coords t) ((dat2 V c).after 7 t) = _
  rw [after2_7]
  unfold out2_7
  rw [View.canon_unit_zero hz]
  simp only [View.ld_unit_zero (S := S5000x256) hz, View.ld_unit_zero (S := S1x256) hz, View.ld_unit_zero (S := S256x256) hz]
  funext j
  obtain ⟨p, q, rfl⟩ : ∃ (p : Fin 5000) (q : Fin 256), j = ix2 p q := ⟨j (0 : Fin 2), j (1 : Fin 2), eq_ix2 (n0 := 5000) (n1 := 256) j⟩
  show k2_pay2 (F := Ideal) (iblk2 V c 0 t) (iblk2 V c 1 t) (iblk2 V c 2 t) (iblk2 V c 3 t) (iblk2 V c 4 t) (iblk2 V c 5 t) (ix2 p q) = (Cert.KWhole.mmbn (V c main_v38) (V c main_v42) (V c main_v43) (V c main_v6) (V c main_v7) (V c main_arg10)) (((cfg2.win 7).blk t).view.emb (ix2 p q))
  exact (tile2_2 Cert.ReferenceIdeal.dot_S50000x256_S256x256_S50000x256_1_0_0_1_n_n rfl (V c main_v38) (V c main_v42) (V c main_v43) (V c main_v6) (V c main_v7) (V c main_arg10) (iblk2 V c 0 t) (iblk2 V c 1 t) (iblk2 V c 2 t) (iblk2 V c 3 t) (iblk2 V c 4 t) (iblk2 V c 5 t) p q (rowAt t p) (fun k => blk_0 V c t p k) (fun k => blk_1 V c t 0 k) (fun k => blk_2 V c t 0 k) (fun k => blk_3 V c t 0 k) (fun k => blk_4 V c t 0 k) (fun k => blk_5 V c t k q)).trans (congrArg (Cert.KWhole.mmbn (V c main_v38) (V c main_v42) (V c main_v43) (V c main_v6) (V c main_v7) (V c main_arg10)) (emb_7 t p q).symm)

/-- an index of the array lies in grid point t's block iff each coordinate is in the block's range -/
theorem mem_7 (t : Fin cfg2.N) (i : (⟨2, ![50000, 256]⟩ : Shape).Idx) :
    i ∈ ((cfg2.win 7).blk t).view.set ↔ ∀ a : Fin 2, win2_7.index t a * S5000x256.size a ≤ (i a).val ∧ (i a).val < win2_7.index t a * S5000x256.size a + S5000x256.size a := by
  show i ∈ ((View.whole main_v44_0).slice (win2_7.rect t)).set ↔ _
  rw [View.set_slice_whole, Rect.mem_set_unit]
  exact Iff.rfl

/-- every index of the array is in some grid point's block: the one its row block names -/
theorem cover_7 (i : (⟨2, ![50000, 256]⟩ : Shape).Idx) :
    ∃ t : Fin cfg2.N, (cfg2.win 7).flush t = true ∧ i ∈ ((cfg2.win 7).blk t).view.set := by
  have hi0 : (i 0).val < 50000 := (i 0).isLt
  have hi1 : (i 1).val < 256 := (i 1).isLt
  obtain ⟨t, ht⟩ := onto ⟨(i 0).val / 5000, by omega⟩
  have h0 : win2_7.index t (0 : Fin 2) = win2_7.index t (0 : Fin 2) := rfl
  have h1 := (idx t).2.2.2.2.2.2.2.2.2.2.2.2.2.2.1
  have ht' : win2_7.index t (0 : Fin 2) = (i 0).val / 5000 := ht
  refine ⟨t, flush2_7 t, ?_⟩
  rw [mem_7]
  intro a
  match a with
  | ⟨0, _⟩ => show win2_7.index t (0 : Fin 2) * 5000 ≤ (i 0).val ∧ (i 0).val < win2_7.index t (0 : Fin 2) * 5000 + 5000; rw [h0, ht']; omega
  | ⟨1, _⟩ => show win2_7.index t (1 : Fin 2) * 256 ≤ (i 1).val ∧ (i 1).val < win2_7.index t (1 : Fin 2) * 256 + 256; rw [h1]; omega

/-- THE ARRAY behind output window 7 after the region: the whole-array result -/
theorem final_7 (c : Dev nD) : (dat2 V c).arrAt 7 cfg2.N = (Cert.KWhole.mmbn (V c main_v38) (V c main_v42) (V c main_v43) (V c main_v6) (V c main_v7) (V c main_arg10)) :=
  (dat2 V c).arrAt_eq_of_cover 7 (Cert.KWhole.mmbn (V c main_v38) (V c main_v42) (V c main_v43) (V c main_v6) (V c main_v7) (V c main_arg10)) (fun t _ => flushed_7 V c t) (cover_7)

/-- entry (p, q) of output window 8's block at grid point t sits at (rowAt t p, q) of its array -/
theorem emb_8 (t : Fin cfg2.N) (p : Fin 5000) (q : Fin 256) :
    ((cfg2.win 8).blk t).view.emb (ix2 p q) = (ix2 (rowAt t p) q : (⟨2, ![50000, 256]⟩ : Shape).Idx) := by
  have h0 := (idx t).2.2.2.2.2.2.2.2.2.2.2.2.2.2.2.1
  have h1 := (idx t).2.2.2.2.2.2.2.2.2.2.2.2.2.2.2.2.1
  funext a
  apply Fin.ext
  match a with
  | ⟨0, _⟩ => show win2_8.index t (0 : Fin 2) * 5000 + 1 * p.val = win2_7.index t (0 : Fin 2) * 5000 + p.val; rw [h0]; omega
  | ⟨1, _⟩ => show win2_8.index t (1 : Fin 2) * 256 + 1 * q.val = q.val; rw [h1]; omega

/-- what grid point t writes back through output window 8 is its block of the whole-array result -/
theorem flushed_8 (c : Dev nD) (t : Fin cfg2.N) :
    (dat2 V c).flushed 8 t = ((cfg2.win 8).blk t).view.read (Elt Ideal) (Cert.KWhole.mmbn (V c main_v38) (V c main_v42) (V c main_v43) (V c main_v6) (V c main_v7) (V c main_arg11)) := by
  show (cfg2.win 8).cut (grid2.coords t) ((dat2 V c).after 8 t) = _
  rw [after2_8]
  unfold out2_8
  rw [View.canon_unit_zero hz]
  simp only [View.ld_unit_zero (S := S5000x256) hz, View.ld_unit_zero (S := S1x256) hz, View.ld_unit_zero (S := S256x256) hz]
  funext j
  obtain ⟨p, q, rfl⟩ : ∃ (p : Fin 5000) (q : Fin 256), j = ix2 p q := ⟨j (0 : Fin 2), j (1 : Fin 2), eq_ix2 (n0 := 5000) (n1 := 256) j⟩
  show k2_pay3 (F := Ideal) (iblk2 V c 0 t) (iblk2 V c 1 t) (iblk2 V c 2 t) (iblk2 V c 3 t) (iblk2 V c 4 t) (iblk2 V c 6 t) (ix2 p q) = (Cert.KWhole.mmbn (V c main_v38) (V c main_v42) (V c main_v43) (V c main_v6) (V c main_v7) (V c main_arg11)) (((cfg2.win 8).blk t).view.emb (ix2 p q))
  exact (tile2_3 Cert.ReferenceIdeal.dot_S50000x256_S256x256_S50000x256_1_0_0_1_n_n rfl (V c main_v38) (V c main_v42) (V c main_v43) (V c main_v6) (V c main_v7) (V c main_arg11) (iblk2 V c 0 t) (iblk2 V c 1 t) (iblk2 V c 2 t) (iblk2 V c 3 t) (iblk2 V c 4 t) (iblk2 V c 6 t) p q (rowAt t p) (fun k => blk_0 V c t p k) (fun k => blk_1 V c t 0 k) (fun k => blk_2 V c t 0 k) (fun k => blk_3 V c t 0 k) (fun k => blk_4 V c t 0 k) (fun k => blk_6 V c t k q)).trans (congrArg (Cert.KWhole.mmbn (V c main_v38) (V c main_v42) (V c main_v43) (V c main_v6) (V c main_v7) (V c main_arg11)) (emb_8 t p q).symm)

/-- an index of the array lies in grid point t's block iff each coordinate is in the block's range -/
theorem mem_8 (t : Fin cfg2.N) (i : (⟨2, ![50000, 256]⟩ : Shape).Idx) :
    i ∈ ((cfg2.win 8).blk t).view.set ↔ ∀ a : Fin 2, win2_8.index t a * S5000x256.size a ≤ (i a).val ∧ (i a).val < win2_8.index t a * S5000x256.size a + S5000x256.size a := by
  show i ∈ ((View.whole main_v44_1).slice (win2_8.rect t)).set ↔ _
  rw [View.set_slice_whole, Rect.mem_set_unit]
  exact Iff.rfl

/-- every index of the array is in some grid point's block: the one its row block names -/
theorem cover_8 (i : (⟨2, ![50000, 256]⟩ : Shape).Idx) :
    ∃ t : Fin cfg2.N, (cfg2.win 8).flush t = true ∧ i ∈ ((cfg2.win 8).blk t).view.set := by
  have hi0 : (i 0).val < 50000 := (i 0).isLt
  have hi1 : (i 1).val < 256 := (i 1).isLt
  obtain ⟨t, ht⟩ := onto ⟨(i 0).val / 5000, by omega⟩
  have h0 := (idx t).2.2.2.2.2.2.2.2.2.2.2.2.2.2.2.1
  have h1 := (idx t).2.2.2.2.2.2.2.2.2.2.2.2.2.2.2.2.1
  have ht' : win2_7.index t (0 : Fin 2) = (i 0).val / 5000 := ht
  refine ⟨t, flush2_8 t, ?_⟩
  rw [mem_8]
  intro a
  match a with
  | ⟨0, _⟩ => show win2_8.index t (0 : Fin 2) * 5000 ≤ (i 0).val ∧ (i 0).val < win2_8.index t (0 : Fin 2) * 5000 + 5000; rw [h0, ht']; omega
  | ⟨1, _⟩ => show win2_8.index t (1 : Fin 2) * 256 ≤ (i 1).val ∧ (i 1).val < win2_8.index t (1 : Fin 2) * 256 + 256; rw [h1]; omega

/-- THE ARRAY behind output window 8 after the region: the whole-array result -/
theorem final_8 (c : Dev nD) : (dat2 V c).arrAt 8 cfg2.N = (Cert.KWhole.mmbn (V c main_v38) (V c main_v42) (V c main_v43) (V c main_v6) (V c main_v7) (V c main_arg11)) :=
  (dat2 V c).arrAt_eq_of_cover 8 (Cert.KWhole.mmbn (V c main_v38) (V c main_v42) (V c main_v43) (V c main_v6) (V c main_v7) (V c main_arg11)) (fun t _ => flushed_8 V c t) (cover_8)

end Cert.KRegion2

end
-- ==== Proof.KRegion3.lean ====
/-
  The last tiled kernel against whole arrays: after its ten grid points its output array is the whole pre-activation
  normalised by the mean / variance / scale / shift rows and clamped at zero. Grid point t works on rows 5000·t … 5000·t+4999;
  the ten blocks fill the array.
-/
import proofs.«124758_j37177236914932_2_alg».proof.Proof.Gen.KernelIdeal.Frame
import proofs.«124758_j37177236914932_2_alg».proof.Proof.KTiles
import proofs.«124758_j37177236914932_2_alg».proof.Proof.Spec

set_option maxRecDepth 16384

noncomputable section

namespace Cert.KRegion3

open Idealize.ShloMosaic Idealize.ShloMosaic.TcCoe Idealize.SL.Sem Idealize.ShloMosaic.ValueIdx
open Cert.KernelIdeal Cert.KernelIdeal.Gen Cert.KBlocks
open Idealize.ShloMosaic.Pipeline (Dat Cfg Window)

variable [Cert.KernelIdeal.Facts] [Cert.ReferenceIdeal.Facts]

-- the buffer contents the region is entered with
variable (V : (c : Dev nD) → (b : Ref sig .tc) → Buf (Elt Ideal) ((c : Thread nD τ).loc b))

/-- the zero offsets a whole-block rectangle sits at -/
theorem hz : (![0, 0] : Fin 2 → Nat) = fun _ => 0 := funext fun a => by fin_cases a <;> rfl

/-- The block index maps over the grid: a row block moves with the grid point along axis 0 (the same block for every
    row-tiled window), every other block index is zero, and there are ten row blocks. -/
theorem idx : ∀ t : Fin cfg3.N, win3_0.index t (0 : Fin 2) = win3_5.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (1 : Fin 2) = 0
    ∧ win3_5.index t (0 : Fin 2) ≤ 9 :=
  (by decide +kernel : ∀ t : Fin grid3.N, _)

/-- every one of the ten row blocks is some grid point's -/
theorem onto : ∀ q0 : Fin 10, ∃ t : Fin cfg3.N, win3_5.index t (0 : Fin 2) = q0.val :=
  (by decide +kernel : ∀ q0 : Fin 10, ∃ t : Fin grid3.N, win3_5.index t (0 : Fin 2) = q0.val)

/-- the array row of row p of grid point t's block is below 50000 -/
theorem row_lt (t : Fin cfg3.N) (p : Fin 5000) : win3_5.index t (0 : Fin 2) * 5000 + p.val < 50000 := by
  have h := (idx t).2.2.2.2.2.2.2.2.2.2.2
  have := p.isLt
  omega

/-- the array row that row p of grid point t's block is -/
def rowAt (t : Fin cfg3.N) (p : Fin 5000) : Fin 50000 := ⟨win3_5.index t (0 : Fin 2) * 5000 + p.val, row_lt t p⟩

/-! ## The input blocks read where they sit in their arrays -/

/-- entry (p, k) of the row block at grid point t is entry (rowAt t p, k) of the array -/
theorem blk_0 (c : Dev nD) (t : Fin cfg3.N) (p : Fin 5000) (k : Fin 256) :
    (iblk3 V c 0 t : Vec Ideal S5000x256 .f32) (ix2 p k) = (V c main_v55 : FVec Ideal ⟨2, ![50000, 256]⟩ .f32) (ix2 (rowAt t p) k) := by
  have h0 := (idx t).1
  have h1 := (idx t).2.1
  unfold iblk3
  rw [View.read_apply]
  show V c main_v55 _ = V c main_v55 _
  congr 1
  funext a
  apply Fin.ext
  match a with
  | ⟨0, _⟩ => show win3_0.index t (0 : Fin 2) * 5000 + 1 * p.val = win3_5.index t (0 : Fin 2) * 5000 + p.val; rw [h0]; omega
  | ⟨1, _⟩ => show win3_0.index t (1 : Fin 2) * 256 + 1 * k.val = k.val; rw [h1]; omega

/-- a window that takes its whole array: the block is the array -/
theorem blk_1 (c : Dev nD) (t : Fin cfg3.N) (a : Fin 1) (b : Fin 256) :
    (iblk3 V c 1 t : Vec Ideal S1x256 .f32) (ix2 a b) = (V c main_v59 : FVec Ideal ⟨2, ![1, 256]⟩ .f32) (ix2 a b) := by
  have h0 := (idx t).2.2.1
  have h1 := (idx t).2.2.2.1
  unfold iblk3
  rw [View.read_apply]
  show V c main_v59 _ = V c main_v59 _
  congr 1
  funext d
  apply Fin.ext
  match d with
  | ⟨0, _⟩ => show win3_1.index t (0 : Fin 2) * 1 + 1 * a.val = a.val; rw [h0]; omega
  | ⟨1, _⟩ => show win3_1.index t (1 : Fin 2) * 256 + 1 * b.val = b.val; rw [h1]; omega

/-- a window that takes its whole array: the block is the array -/
theorem blk_2 (c : Dev nD) (t : Fin cfg3.N) (a : Fin 1) (b : Fin 256) :
    (iblk3 V c 2 t : Vec Ideal S1x256 .f32) (ix2 a b) = (V c main_v60 : FVec Ideal ⟨2, ![1, 256]⟩ .f32) (ix2 a b) := by
  have h0 := (idx t).2.2.2.2.1
  have h1 := (idx t).2.2.2.2.2.1
  unfold iblk3
  rw [View.read_apply]
  show V c main_v60 _ = V c main_v60 _
  congr 1
  funext d
  apply Fin.ext
  match d with
  | ⟨0, _⟩ => show win3_2.index t (0 : Fin 2) * 1 + 1 * a.val = a.val; rw [h0]; omega
  | ⟨1, _⟩ => show win3_2.index t (1 : Fin 2) * 256 + 1 * b.val = b.val; rw [h1]; omega

/-- a window that takes its whole array: the block is the array -/
theorem blk_3 (c : Dev nD) (t : Fin cfg3.N) (a : Fin 1) (b : Fin 256) :
    (iblk3 V c 3 t : Vec Ideal S1x256 .f32) (ix2 a b) = (V c main_v8 : FVec Ideal ⟨2, ![1, 256]⟩ .f32) (ix2 a b) := by
  have h0 := (idx t).2.2.2.2.2.2.1
  have h1 := (idx t).2.2.2.2.2.2.2.1
  unfold iblk3
  rw [View.read_apply]
  show V c main_v8 _ = V c main_v8 _
  congr 1
  funext d
  apply Fin.ext
  match d with
  | ⟨0, _⟩ => show win3_3.index t (0 : Fin 2) * 1 + 1 * a.val = a.val; rw [h0]; omega
  | ⟨1, _⟩ => show win3_3.index t (1 : Fin 2) * 256 + 1 * b.val = b.val; rw [h1]; omega

/-- a window that takes its whole array: the block is the array -/
theorem blk_4 (c : Dev nD) (t : Fin cfg3.N) (a : Fin 1) (b : Fin 256) :
    (iblk3 V c 4 t : Vec Ideal S1x256 .f32) (ix2 a b) = (V c main_v9 : FVec Ideal ⟨2, ![1, 256]⟩ .f32) (ix2 a b) := by
  have h0 := (idx t).2.2.2.2.2.2.2.2.1
  have h1 := (idx t).2.2.2.2.2.2.2.2.2.1
  unfold iblk3
  rw [View.read_apply]
  show V c main_v9 _ = V c main_v9 _
  congr 1
  funext d
  apply Fin.ext
  match d with
  | ⟨0, _⟩ => show win3_4.index t (0 : Fin 2) * 1 + 1 * a.val = a.val; rw [h0]; omega
  | ⟨1, _⟩ => show win3_4.index t (1 : Fin 2) * 256 + 1 * b.val = b.val; rw [h1]; omega

/-! ## The output blocks: where they sit, what is written back, and that they fill their arrays -/

/-- entry (p, q) of output window 5's block at grid point t sits at (rowAt t p, q) of its array -/
theorem emb_5 (t : Fin cfg3.N) (p : Fin 5000) (q : Fin 256) :
    ((cfg3.win 5).blk t).view.emb (ix2 p q) = (ix2 (rowAt t p) q : (⟨2, ![50000, 256]⟩ : Shape).Idx) := by
  have h0 : win3_5.index t (0 : Fin 2) = win3_5.index t (0 : Fin 2) := rfl
  have h1 := (idx t).2.2.2.2.2.2.2.2.2.2.1
  funext a
  apply Fin.ext
  match a with
  | ⟨0, _⟩ => show win3_5.index t (0 : Fin 2) * 5000 + 1 * p.val = win3_5.index t (0 : Fin 2) * 5000 + p.val; rw [h0]; omega
  | ⟨1, _⟩ => show win3_5.index t (1 : Fin 2) * 256 + 1 * q.val = q.val; rw [h1]; omega

/-- what grid point t writes back through output window 5 is its block of the whole-array result -/
theorem flushed_5 (c : Dev nD) (t : Fin cfg3.N) :
    (dat3 V c).flushed 5 t = ((cfg3.win 5).blk t).view.read (Elt Ideal) (bnWhole (V c main_v55) (V c main_v59) (V c main_v60) (V c main_v8) (V c main_v9)) := by
  show (cfg3.win 5).cut (grid3.coords t) ((dat3 V c).after 5 t) = _
  rw [after3_5]
  unfold out3_5
  rw [View.canon_unit_zero hz]
  simp only [View.ld_unit_zero (S := S5000x256) hz, View.ld_unit_zero (S := S1x256) hz]
  funext j
  obtain ⟨p, q, rfl⟩ : ∃ (p : Fin 5000) (q : Fin 256), j = ix2 p q := ⟨j (0 : Fin 2), j (1 : Fin 2), eq_ix2 (n0 := 5000) (n1 := 256) j⟩
  show k3_pay1 (F := Ideal) (iblk3 V c 0 t) (iblk3 V c 1 t) (iblk3 V c 2 t) (iblk3 V c 3 t) (iblk3 V c 4 t) (ix2 p q) = (bnWhole (V c main_v55) (V c main_v59) (V c main_v60) (V c main_v8) (V c main_v9)) (((cfg3.win 5).blk t).view.emb (ix2 p q))
  exact (tile3_1 (V c main_v55) (V c main_v59) (V c main_v60) (V c main_v8) (V c main_v9) (iblk3 V c 0 t) (iblk3 V c 1 t) (iblk3 V c 2 t) (iblk3 V c 3 t) (iblk3 V c 4 t) p q (rowAt t p) (blk_0 V c t p q) (blk_1 V c t 0 q) (blk_2 V c t 0 q) (blk_3 V c t 0 q) (blk_4 V c t 0 q)).trans (congrArg (bnWhole (V c main_v55) (V c main_v59) (V c main_v60) (V c main_v8) (V c main_v9)) (emb_5 t p q).symm)

/-- an index of the array lies in grid point t's block iff each coordinate is in the block's range -/
theorem mem_5 (t : Fin cfg3.N) (i : (⟨2, ![50000, 256]⟩ : Shape).Idx) :
    i ∈ ((cfg3.win 5).blk t).view.set ↔ ∀ a : Fin 2, win3_5.index t a * S5000x256.size a ≤ (i a).val ∧ (i a).val < win3_5.index t a * S5000x256.size a + S5000x256.size a := by
  show i ∈ ((View.whole main_v61).slice (win3_5.rect t)).set ↔ _
  rw [View.set_slice_whole, Rect.mem_set_unit]
  exact Iff.rfl

/-- every index of the array is in some grid point's block: the one its row block names -/
theorem cover_5 (i : (⟨2, ![50000, 256]⟩ : Shape).Idx) :
    ∃ t : Fin cfg3.N, (cfg3.win 5).flush t = true ∧ i ∈ ((cfg3.win 5).blk t).view.set := by
  have hi0 : (i 0).val < 50000 := (i 0).isLt
  have hi1 : (i 1).val < 256 := (i 1).isLt
  obtain ⟨t, ht⟩ := onto ⟨(i 0).val / 5000, by omega⟩
  have h0 : win3_5.index t (0 : Fin 2) = win3_5.index t (0 : Fin 2) := rfl
  have h1 := (idx t).2.2.2.2.2.2.2.2.2.2.1
  have ht' : win3_5.index t (0 : Fin 2) = (i 0).val / 5000 := ht
  refine ⟨t, flush3_5 t, ?_⟩
  rw [mem_5]
  intro a
  match a with
  | ⟨0, _⟩ => show win3_5.index t (0 : Fin 2) * 5000 ≤ (i 0).val ∧ (i 0).val < win3_5.index t (0 : Fin 2) * 5000 + 5000; rw [h0, ht']; omega
  | ⟨1, _⟩ => show win3_5.index t (1 : Fin 2) * 256 ≤ (i 1).val ∧ (i 1).val < win3_5.index t (1 : Fin 2) * 256 + 256; rw [h1]; omega

/-- THE ARRAY behind output window 5 after the region: the whole-array result -/
theorem final_5 (c : Dev nD) : (dat3 V c).arrAt 5 cfg3.N = (bnWhole (V c main_v55) (V c main_v59) (V c main_v60) (V c main_v8) (V c main_v9)) :=
  (dat3 V c).arrAt_eq_of_cover 5 (bnWhole (V c main_v55) (V c main_v59) (V c main_v60) (V c main_v8) (V c main_v9)) (fun t _ => flushed_5 V c t) (cover_5)

end Cert.KRegion3

end
-- ==== Proof.KHost.lean ====
/-
  The host operations of the tiled program between its kernels, as functions of the arrays they read.

  Before the first kernel the edge list is cut into its destination row and its source row and the six scale / shift
  vectors are viewed as [1,256] rows. After each product kernel the host gathers the rows y[src e] of the second product,
  scatter-adds them over the destination column into zeros, adds the first product (the layer's pre-activation), and takes the
  column mean and the biased column variance of it, both kept as [1,256] rows.
-/
import proofs.«124758_j37177236914932_2_alg».proof.Proof.Gen.KernelIdeal.Launch
import Idealize.ShloMosaic.Lib.StableHlo.Run
import Idealize.ShloMosaic.PureOps.Ideal

set_option maxRecDepth 16384

noncomputable section

namespace Cert.KHost

open Idealize.ShloMosaic Idealize.ShloMosaic.TcCoe Idealize.SL.Sem Idealize.ShloMosaic.StableHlo
open Cert.KernelIdeal Cert.KernelIdeal.Facts₀

variable [Cert.KernelIdeal.Facts]

/-- a [50000,256] float array -/
abbrev A := FVec Ideal S50000x256 .f32

/-- row k of the edge list as a vector -/
def edgeRow0 (ei : IVec S2x800000 32) : IVec S800000 32 :=
  shapeCast S800000 (extractStridedSlice S1x800000 ![0, 0] ei slices_S2x800000_S1x800000_0_0) shapeCasts_S1x800000_S800000
def edgeRow1 (ei : IVec S2x800000 32) : IVec S800000 32 :=
  shapeCast S800000 (extractStridedSlice S1x800000 ![1, 0] ei slices_S2x800000_S1x800000_1_0) shapeCasts_S1x800000_S800000

/-- a length-256 vector viewed as a [1,256] row -/
def rowOf (v : FVec Ideal S256 .f32) : FVec Ideal S1x256 .f32 := shapeCast S1x256 v shapeCasts_S256_S1x256

/-- the source column: a negative index counted from the end -/
def srcColK (v3 : IVec S800000 32) : IVec S800000x1 32 :=
  broadcastInDim S800000x1 ![0] bcast_S800000_S800000x1_0
    (select (cmpi .slt v3 (broadcastInDim S800000 ![] bcast_S_S800000 (constantI S_ 32 0#32)))
      (addi v3 (broadcastInDim S800000 ![] bcast_S_S800000 (constantI S_ 32 50000#32))) v3)

/-- the pre-activation from the two products o1 = h·W₁ and y = h·W₂ -/
def preK (o1 y : A) (v1 v3 : IVec S800000 32) : A :=
  addf o1
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 v1)
      (Host.gather gather_S50000x256_S800000x1_S800000x256_1_0_n_n_0_1_1256 y (srcColK v3)))

/-- column sums -/
def colSumK (a : A) : FVec Ideal S256 .f32 :=
  Host.reduceAdd (F := Ideal) a (constant (F := Ideal) S_ .f32 0x00000000#32) reducesTo_S50000x256_S256_d0 h_S_

/-- the column means as a [1,256] row -/
def meanK (pre : A) : FVec Ideal S1x256 .f32 :=
  Host.divf (F := Ideal) (broadcastInDim S1x256 ![1] bcast_S256_S1x256_1 (colSumK pre))
    (broadcastInDim S1x256 ![] bcast_S_S1x256 (constant (F := Ideal) S_ .f32 0x47435000#32))

/-- squared deviations from the column means -/
def sqDevK (pre : A) : A :=
  mulf (subf pre (broadcastInDim S50000x256 ![0, 1] bcast_S1x256_S50000x256_0_1 (meanK pre)))
    (subf pre (broadcastInDim S50000x256 ![0, 1] bcast_S1x256_S50000x256_0_1 (meanK pre)))

/-- the variance's divisor: 50000 minus zero -/
def dofK : FVec Ideal S_ .f32 :=
  subf (constant (F := Ideal) S_ .f32 0x47435000#32) (sitofp (F := Ideal) .f32 (constantI S_ 32 0#32))

/-- the biased column variances as a [1,256] row -/
def varK (pre : A) : FVec Ideal S1x256 .f32 :=
  select (broadcastInDim S1x256 ![] bcast_S_S1x256 (cmpf .ogt dofK (constant (F := Ideal) S_ .f32 0x00000000#32)))
    (Host.divf (F := Ideal) (broadcastInDim S1x256 ![1] bcast_S256_S1x256_1 (colSumK (sqDevK pre)))
      (broadcastInDim S1x256 ![] bcast_S_S1x256 dofK))
    (broadcastInDim S1x256 ![] bcast_S_S1x256 (id (constant (F := Ideal) S_ .f32 0x7FC00000#32)))

variable (W : Valuation τ sig (Elt Ideal))

/-! ## Before the first kernel -/

theorem ops0_v1 : after Gen.hostOps0 W (Proc.devRef .tc main_v1) = edgeRow0 (W (Proc.devRef .tc main_arg1)) := by
  simp only [Gen.hostOps0]; after_results_simp; rfl
theorem ops0_v3 : after Gen.hostOps0 W (Proc.devRef .tc main_v3) = edgeRow1 (W (Proc.devRef .tc main_arg1)) := by
  simp only [Gen.hostOps0]; after_results_simp; rfl
theorem ops0_v4 : after Gen.hostOps0 W (Proc.devRef .tc main_v4) = rowOf (W (Proc.devRef .tc main_arg4)) := by
  simp only [Gen.hostOps0]; after_results_simp; rfl
theorem ops0_v5 : after Gen.hostOps0 W (Proc.devRef .tc main_v5) = rowOf (W (Proc.devRef .tc main_arg5)) := by
  simp only [Gen.hostOps0]; after_results_simp; rfl
theorem ops0_v6 : after Gen.hostOps0 W (Proc.devRef .tc main_v6) = rowOf (W (Proc.devRef .tc main_arg8)) := by
  simp only [Gen.hostOps0]; after_results_simp; rfl
theorem ops0_v7 : after Gen.hostOps0 W (Proc.devRef .tc main_v7) = rowOf (W (Proc.devRef .tc main_arg9)) := by
  simp only [Gen.hostOps0]; after_results_simp; rfl
theorem ops0_v8 : after Gen.hostOps0 W (Proc.devRef .tc main_v8) = rowOf (W (Proc.devRef .tc main_arg12)) := by
  simp only [Gen.hostOps0]; after_results_simp; rfl
theorem ops0_v9 : after Gen.hostOps0 W (Proc.devRef .tc main_v9) = rowOf (W (Proc.devRef .tc main_arg13)) := by
  simp only [Gen.hostOps0]; after_results_simp; rfl

/-! ## After the first product kernel -/

attribute [local irreducible] Host.reduceAdd Host.gather Host.scatterAdd in
theorem ops1_pre : after Gen.hostOps1_1 (after Gen.hostOps1 W) (Proc.devRef .tc main_v21)
    = preK (W (Proc.devRef .tc main_v10_0)) (W (Proc.devRef .tc main_v10_1)) (W (Proc.devRef .tc main_v1)) (W (Proc.devRef .tc main_v3)) := by
  simp only [Gen.hostOps1, Gen.hostOps1_1]; after_results_simp; rfl

attribute [local irreducible] Host.reduceAdd Host.gather Host.scatterAdd in
theorem ops1_mean : after Gen.hostOps1_1 (after Gen.hostOps1 W) (Proc.devRef .tc main_v25)
    = meanK (preK (W (Proc.devRef .tc main_v10_0)) (W (Proc.devRef .tc main_v10_1)) (W (Proc.devRef .tc main_v1)) (W (Proc.devRef .tc main_v3))) := by
  simp only [Gen.hostOps1, Gen.hostOps1_1]; after_results_simp; rfl

attribute [local irreducible] Host.reduceAdd Host.gather Host.scatterAdd in
theorem ops1_var : after Gen.hostOps1_1 (after Gen.hostOps1 W) (Proc.devRef .tc main_v26)
    = varK (preK (W (Proc.devRef .tc main_v10_0)) (W (Proc.devRef .tc main_v10_1)) (W (Proc.devRef .tc main_v1)) (W (Proc.devRef .tc main_v3))) := by
  simp only [Gen.hostOps1, Gen.hostOps1_1]; after_results_simp; rfl

/-! ## After the second product kernel -/

attribute [local irreducible] Host.reduceAdd Host.gather Host.scatterAdd in
theorem ops2_pre : after Gen.hostOps2_1 (after Gen.hostOps2 W) (Proc.devRef .tc main_v38)
    = preK (W (Proc.devRef .tc main_v27_0)) (W (Proc.devRef .tc main_v27_1)) (W (Proc.devRef .tc main_v1)) (W (Proc.devRef .tc main_v3)) := by
  simp only [Gen.hostOps2, Gen.hostOps2_1]; after_results_simp; rfl

attribute [local irreducible] Host.reduceAdd Host.gather Host.scatterAdd in
theorem ops2_mean : after Gen.hostOps2_1 (after Gen.hostOps2 W) (Proc.devRef .tc main_v42)
    = meanK (preK (W (Proc.devRef .tc main_v27_0)) (W (Proc.devRef .tc main_v27_1)) (W (Proc.devRef .tc main_v1)) (W (Proc.devRef .tc main_v3))) := by
  simp only [Gen.hostOps2, Gen.hostOps2_1]; after_results_simp; rfl

attribute [local irreducible] Host.reduceAdd Host.gather Host.scatterAdd in
theorem ops2_var : after Gen.hostOps2_1 (after Gen.hostOps2 W) (Proc.devRef .tc main_v43)
    = varK (preK (W (Proc.devRef .tc main_v27_0)) (W (Proc.devRef .tc main_v27_1)) (W (Proc.devRef .tc main_v1)) (W (Proc.devRef .tc main_v3))) := by
  simp only [Gen.hostOps2, Gen.hostOps2_1]; after_results_simp; rfl

/-! ## After the third product kernel -/

attribute [local irreducible] Host.reduceAdd Host.gather Host.scatterAdd in
theorem ops3_pre : after Gen.hostOps3_1 (after Gen.hostOps3 W) (Proc.devRef .tc main_v55)
    = preK (W (Proc.devRef .tc main_v44_0)) (W (Proc.devRef .tc main_v44_1)) (W (Proc.devRef .tc main_v1)) (W (Proc.devRef .tc main_v3)) := by
  simp only [Gen.hostOps3, Gen.hostOps3_1]; after_results_simp; rfl

attribute [local irreducible] Host.reduceAdd Host.gather Host.scatterAdd in
theorem ops3_mean : after Gen.hostOps3_1 (after Gen.hostOps3 W) (Proc.devRef .tc main_v59)
    = meanK (preK (W (Proc.devRef .tc main_v44_0)) (W (Proc.devRef .tc main_v44_1)) (W (Proc.devRef .tc main_v1)) (W (Proc.devRef .tc main_v3))) := by
  simp only [Gen.hostOps3, Gen.hostOps3_1]; after_results_simp; rfl

attribute [local irreducible] Host.reduceAdd Host.gather Host.scatterAdd in
theorem ops3_var : after Gen.hostOps3_1 (after Gen.hostOps3 W) (Proc.devRef .tc main_v60)
    = varK (preK (W (Proc.devRef .tc main_v44_0)) (W (Proc.devRef .tc main_v44_1)) (W (Proc.devRef .tc main_v1)) (W (Proc.devRef .tc main_v3))) := by
  simp only [Gen.hostOps3, Gen.hostOps3_1]; after_results_simp; rfl

end Cert.KHost

end
-- ==== Proof.KChain.lean ====
/-
  The tiled program's buffers followed through its run: from the launch memory through the host stretches and the four
  regions, each array a region or a stretch reads is named as a function of the fourteen argument arrays, and the result
  array is the last normalisation of the third pre-activation.
-/
import proofs.«124758_j37177236914932_2_alg».proof.Proof.Gen.KernelIdeal.Frame
import proofs.«124758_j37177236914932_2_alg».proof.Proof.KRegion0
import proofs.«124758_j37177236914932_2_alg».proof.Proof.KRegion1
import proofs.«124758_j37177236914932_2_alg».proof.Proof.KRegion2
import proofs.«124758_j37177236914932_2_alg».proof.Proof.KRegion3
import proofs.«124758_j37177236914932_2_alg».proof.Proof.KHost

set_option maxRecDepth 16384

noncomputable section

namespace Cert.KChain

open Idealize.ShloMosaic Idealize.ShloMosaic.TcCoe Idealize.SL.Sem
open Cert.KernelIdeal Cert.KernelIdeal.Gen Cert.KBlocks Cert.KHost

variable [Cert.KernelIdeal.Facts] [Cert.ReferenceIdeal.Facts]

variable (m : (ℓ : Loc nD τ sig) → Buf (Elt Ideal) ℓ) (ρ : Dev nD → PrngReg)

/-- no operation of a host stretch writes the buffer: one inequality of references per operation -/
local macro "host_keeps" ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## Buffers that a stretch of the run leaves alone -/

theorem keep_arg0_0_1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (by host_keeps hostOps0)

theorem keep_arg2_0_1 (c : Dev nD) : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (by host_keeps hostOps0)

theorem keep_arg3_0_1 (c : Dev nD) : W1 m ρ c (Proc.devRef .tc main_arg3) = W0 m ρ c (Proc.devRef .tc main_arg3) :=
  calc W1 m ρ c (Proc.devRef .tc main_arg3)
    _ = W0 m ρ c (Proc.devRef .tc main_arg3) := StableHlo.after_of_forall_not_mem (b := Proc.devRef .tc main_arg3) _ _ (by host_keeps hostOps0)

theorem keep_v1_1_2 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem keep_v3_1_2 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep_v1_1_5 (c : Dev nD) : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := StableHlo.after_of_forall_not_mem (b := Proc.devRef .tc main_v1) _ _ (by host_keeps hostOps1_1)
    _ = W2 m ρ c (Proc.devRef .tc main_v1) := StableHlo.after_of_forall_not_mem (b := Proc.devRef .tc main_v1) _ _ (by host_keeps hostOps1)
    _ = W1 m ρ c (Proc.devRef .tc main_v1) := W2_of_ne m ρ c main_v1 (by decide)

theorem keep_v3_1_5 (c : Dev nD) : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := StableHlo.after_of_forall_not_mem (b := Proc.devRef .tc main_v3) _ _ (by host_keeps hostOps1_1)
    _ = W2 m ρ c (Proc.devRef .tc main_v3) := StableHlo.after_of_forall_not_mem (b := Proc.devRef .tc main_v3) _ _ (by host_keeps hostOps1)
    _ = W1 m ρ c (Proc.devRef .tc main_v3) := W2_of_ne m ρ c main_v3 (by decide)

theorem keep_v1_1_8 (c : Dev nD) : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (by host_keeps hostOps2_1)
    _ = W5 m ρ c (Proc.devRef .tc main_v1) := StableHlo.after_of_forall_not_mem (b := Proc.devRef .tc main_v1) _ _ (by host_keeps hostOps2)
    _ = W4 m ρ c (Proc.devRef .tc main_v1) := W5_of_ne m ρ c main_v1 (by decide)
    _ = W3 m ρ c (Proc.devRef .tc main_v1) := StableHlo.after_of_forall_not_mem (b := Proc.devRef .tc main_v1) _ _ (by host_keeps hostOps1_1)
    _ = W2 m ρ c (Proc.devRef .tc main_v1) := StableHlo.after_of_forall_not_mem (b := Proc.devRef .tc main_v1) _ _ (by host_keeps hostOps1)
    _ = W1 m ρ c (Proc.devRef .tc main_v1) := W2_of_ne m ρ c main_v1 (by decide)

theorem keep_v3_1_8 (c : Dev nD) : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (by host_keeps hostOps2_1)
    _ = W5 m ρ c (Proc.devRef .tc main_v3) := StableHlo.after_of_forall_not_mem (b := Proc.devRef .tc main_v3) _ _ (by host_keeps hostOps2)
    _ = W4 m ρ c (Proc.devRef .tc main_v3) := W5_of_ne m ρ c main_v3 (by decide)
    _ = W3 m ρ c (Proc.devRef .tc main_v3) := StableHlo.after_of_forall_not_mem (b := Proc.devRef .tc main_v3) _ _ (by host_keeps hostOps1_1)
    _ = W2 m ρ c (Proc.devRef .tc main_v3) := StableHlo.after_of_forall_not_mem (b := Proc.devRef .tc main_v3) _ _ (by host_keeps hostOps1)
    _ = W1 m ρ c (Proc.devRef .tc main_v3) := W2_of_ne m ρ c main_v3 (by decide)

theorem keep_v4_1_4 (c : Dev nD) : W4 m ρ c (Proc.devRef .tc main_v4) = W1 m ρ c (Proc.devRef .tc main_v4) :=
  calc W4 m ρ c (Proc.devRef .tc main_v4)
    _ = W3 m ρ c (Proc.devRef .tc main_v4) := StableHlo.after_of_forall_not_mem (b := Proc.devRef .tc main_v4) _ _ (by host_keeps hostOps1_1)
    _ = W2 m ρ c (Proc.devRef .tc main_v4) := StableHlo.after_of_forall_not_mem (b := Proc.devRef .tc main_v4) _ _ (by host_keeps hostOps1)
    _ = W1 m ρ c (Proc.devRef .tc main_v4) := W2_of_ne m ρ c main_v4 (by decide)

theorem keep_v5_1_4 (c : Dev nD) : W4 m ρ c (Proc.devRef .tc main_v5) = W1 m ρ c (Proc.devRef .tc main_v5) :=
  calc W4 m ρ c (Proc.devRef .tc main_v5)
    _ = W3 m ρ c (Proc.devRef .tc main_v5) := StableHlo.after_of_forall_not_mem (b := Proc.devRef .tc main_v5) _ _ (by host_keeps hostOps1_1)
    _ = W2 m ρ c (Proc.devRef .tc main_v5) := StableHlo.after_of_forall_not_mem (b := Proc.devRef .tc main_v5) _ _ (by host_keeps hostOps1)
    _ = W1 m ρ c (Proc.devRef .tc main_v5) := W2_of_ne m ρ c main_v5 (by decide)

theorem keep_arg6_0_4 (c : Dev nD) : W4 m ρ c (Proc.devRef .tc main_arg6) = W0 m ρ c (Proc.devRef .tc main_arg6) :=
  calc W4 m ρ c (Proc.devRef .tc main_arg6)
    _ = W3 m ρ c (Proc.devRef .tc main_arg6) := StableHlo.after_of_forall_not_mem (b := Proc.devRef .tc main_arg6) _ _ (by host_keeps hostOps1_1)
    _ = W2 m ρ c (Proc.devRef .tc main_arg6) := StableHlo.after_of_forall_not_mem (b := Proc.devRef .tc main_arg6) _ _ (by host_keeps hostOps1)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (by host_keeps hostOps0)

theorem keep_arg7_0_4 (c : Dev nD) : W4 m ρ c (Proc.devRef .tc main_arg7) = W0 m ρ c (Proc.devRef .tc main_arg7) :=
  calc W4 m ρ c (Proc.devRef .tc main_arg7)
    _ = W3 m ρ c (Proc.devRef .tc main_arg7) := StableHlo.after_of_forall_not_mem (b := Proc.devRef .tc main_arg7) _ _ (by host_keeps hostOps1_1)
    _ = W2 m ρ c (Proc.devRef .tc main_arg7) := StableHlo.after_of_forall_not_mem (b := Proc.devRef .tc main_arg7) _ _ (by host_keeps hostOps1)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (by host_keeps hostOps0)

theorem keep_v6_1_7 (c : Dev nD) : W7 m ρ c (Proc.devRef .tc main_v6) = W1 m ρ c (Proc.devRef .tc main_v6) :=
  calc W7 m ρ c (Proc.devRef .tc main_v6)
    _ = W6 m ρ c (Proc.devRef .tc main_v6) := StableHlo.after_of_forall_not_mem (b := Proc.devRef .tc main_v6) _ _ (by host_keeps hostOps2_1)
    _ = W5 m ρ c (Proc.devRef .tc main_v6) := StableHlo.after_of_forall_not_mem (b := Proc.devRef .tc main_v6) _ _ (by host_keeps hostOps2)
    _ = W4 m ρ c (Proc.devRef .tc main_v6) := W5_of_ne m ρ c main_v6 (by decide)
    _ = W3 m ρ c (Proc.devRef .tc main_v6) := StableHlo.after_of_forall_not_mem (b := Proc.devRef .tc main_v6) _ _ (by host_keeps hostOps1_1)
    _ = W2 m ρ c (Proc.devRef .tc main_v6) := StableHlo.after_of_forall_not_mem (b := Proc.devRef .tc main_v6) _ _ (by host_keeps hostOps1)
    _ = W1 m ρ c (Proc.devRef .tc main_v6) := W2_of_ne m ρ c main_v6 (by decide)

theorem keep_v7_1_7 (c : Dev nD) : W7 m ρ c (Proc.devRef .tc main_v7) = W1 m ρ c (Proc.devRef .tc main_v7) :=
  calc W7 m ρ c (Proc.devRef .tc main_v7)
    _ = W6 m ρ c (Proc.devRef .tc main_v7) := StableHlo.after_of_forall_not_mem (b := Proc.devRef .tc main_v7) _ _ (by host_keeps hostOps2_1)
    _ = W5 m ρ c (Proc.devRef .tc main_v7) := StableHlo.after_of_forall_not_mem (b := Proc.devRef .tc main_v7) _ _ (by host_keeps hostOps2)
    _ = W4 m ρ c (Proc.devRef .tc main_v7) := W5_of_ne m ρ c main_v7 (by decide)
    _ = W3 m ρ c (Proc.devRef .tc main_v7) := StableHlo.after_of_forall_not_mem (b := Proc.devRef .tc main_v7) _ _ (by host_keeps hostOps1_1)
    _ = W2 m ρ c (Proc.devRef .tc main_v7) := StableHlo.after_of_forall_not_mem (b := Proc.devRef .tc main_v7) _ _ (by host_keeps hostOps1)
    _ = W1 m ρ c (Proc.devRef .tc main_v7) := W2_of_ne m ρ c main_v7 (by decide)

theorem keep_arg10_0_7 (c : Dev nD) : W7 m ρ c (Proc.devRef .tc main_arg10) = W0 m ρ c (Proc.devRef .tc main_arg10) :=
  calc W7 m ρ c (Proc.devRef .tc main_arg10)
    _ = W6 m ρ c (Proc.devRef .tc main_arg10) := StableHlo.after_of_forall_not_mem (b := Proc.devRef .tc main_arg10) _ _ (by host_keeps hostOps2_1)
    _ = W5 m ρ c (Proc.devRef .tc main_arg10) := StableHlo.after_of_forall_not_mem (b := Proc.devRef .tc main_arg10) _ _ (by host_keeps hostOps2)
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (by host_keeps hostOps1_1)
    _ = W2 m ρ c (Proc.devRef .tc main_arg10) := StableHlo.after_of_forall_not_mem (b := Proc.devRef .tc main_arg10) _ _ (by host_keeps hostOps1)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (by host_keeps hostOps0)

theorem keep_arg11_0_7 (c : Dev nD) : W7 m ρ c (Proc.devRef .tc main_arg11) = W0 m ρ c (Proc.devRef .tc main_arg11) :=
  calc W7 m ρ c (Proc.devRef .tc main_arg11)
    _ = W6 m ρ c (Proc.devRef .tc main_arg11) := StableHlo.after_of_forall_not_mem (b := Proc.devRef .tc main_arg11) _ _ (by host_keeps hostOps2_1)
    _ = W5 m ρ c (Proc.devRef .tc main_arg11) := StableHlo.after_of_forall_not_mem (b := Proc.devRef .tc main_arg11) _ _ (by host_keeps hostOps2)
    _ = W4 m ρ c (Proc.devRef .tc main_arg11) := W5_of_ne m ρ c main_arg11 (by decide)
    _ = W3 m ρ c (Proc.devRef .tc main_arg11) := StableHlo.after_of_forall_not_mem (b := Proc.devRef .tc main_arg11) _ _ (by host_keeps hostOps1_1)
    _ = W2 m ρ c (Proc.devRef .tc main_arg11) := StableHlo.after_of_forall_not_mem (b := Proc.devRef .tc main_arg11) _ _ (by host_keeps hostOps1)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (by host_keeps hostOps0)

theorem keep_v8_1_10 (c : Dev nD) : W10 m ρ c (Proc.devRef .tc main_v8) = W1 m ρ c (Proc.devRef .tc main_v8) :=
  calc W10 m ρ c (Proc.devRef .tc main_v8)
    _ = W9 m ρ c (Proc.devRef .tc main_v8) := StableHlo.after_of_forall_not_mem (b := Proc.devRef .tc main_v8) _ _ (by host_keeps hostOps3_1)
    _ = W8 m ρ c (Proc.devRef .tc main_v8) := StableHlo.after_of_forall_not_mem (b := Proc.devRef .tc main_v8) _ _ (by host_keeps hostOps3)
    _ = W7 m ρ c (Proc.devRef .tc main_v8) := W8_of_ne m ρ c main_v8 (by decide)
    _ = W6 m ρ c (Proc.devRef .tc main_v8) := StableHlo.after_of_forall_not_mem (b := Proc.devRef .tc main_v8) _ _ (by host_keeps hostOps2_1)
    _ = W5 m ρ c (Proc.devRef .tc main_v8) := StableHlo.after_of_forall_not_mem (b := Proc.devRef .tc main_v8) _ _ (by host_keeps hostOps2)
    _ = W4 m ρ c (Proc.devRef .tc main_v8) := W5_of_ne m ρ c main_v8 (by decide)
    _ = W3 m ρ c (Proc.devRef .tc main_v8) := StableHlo.after_of_forall_not_mem (b := Proc.devRef .tc main_v8) _ _ (by host_keeps hostOps1_1)
    _ = W2 m ρ c (Proc.devRef .tc main_v8) := StableHlo.after_of_forall_not_mem (b := Proc.devRef .tc main_v8) _ _ (by host_keeps hostOps1)
    _ = W1 m ρ c (Proc.devRef .tc main_v8) := W2_of_ne m ρ c main_v8 (by decide)

theorem keep_v9_1_10 (c : Dev nD) : W10 m ρ c (Proc.devRef .tc main_v9) = W1 m ρ c (Proc.devRef .tc main_v9) :=
  calc W10 m ρ c (Proc.devRef .tc main_v9)
    _ = W9 m ρ c (Proc.devRef .tc main_v9) := StableHlo.after_of_forall_not_mem (b := Proc.devRef .tc main_v9) _ _ (by host_keeps hostOps3_1)
    _ = W8 m ρ c (Proc.devRef .tc main_v9) := StableHlo.after_of_forall_not_mem (b := Proc.devRef .tc main_v9) _ _ (by host_keeps hostOps3)
    _ = W7 m ρ c (Proc.devRef .tc main_v9) := W8_of_ne m ρ c main_v9 (by decide)
    _ = W6 m ρ c (Proc.devRef .tc main_v9) := StableHlo.after_of_forall_not_mem (b := Proc.devRef .tc main_v9) _ _ (by host_keeps hostOps2_1)
    _ = W5 m ρ c (Proc.devRef .tc main_v9) := StableHlo.after_of_forall_not_mem (b := Proc.devRef .tc main_v9) _ _ (by host_keeps hostOps2)
    _ = W4 m ρ c (Proc.devRef .tc main_v9) := W5_of_ne m ρ c main_v9 (by decide)
    _ = W3 m ρ c (Proc.devRef .tc main_v9) := StableHlo.after_of_forall_not_mem (b := Proc.devRef .tc main_v9) _ _ (by host_keeps hostOps1_1)
    _ = W2 m ρ c (Proc.devRef .tc main_v9) := StableHlo.after_of_forall_not_mem (b := Proc.devRef .tc main_v9) _ _ (by host_keeps hostOps1)
    _ = W1 m ρ c (Proc.devRef .tc main_v9) := W2_of_ne m ρ c main_v9 (by decide)

/-! ## The stages of the tiled program as functions of the argument arrays -/

/-- the first pre-activation: the two products of the first kernel, gathered, scattered and added by the host -/
def pre0 (x : FVec Ideal ⟨2, ![50000, 128]⟩ .f32) (ei : IVec S2x800000 32) (w1 w2 : FVec Ideal ⟨2, ![128, 256]⟩ .f32) : A :=
  preK (Cert.KRegion0.mm x w1) (Cert.KRegion0.mm x w2) (edgeRow0 ei) (edgeRow1 ei)

/-- the next pre-activation from the previous one p: the fused kernel normalises p with its own column mean and variance
    and the layer's scale g and shift b and multiplies by the two weight matrices; the host gathers, scatters and adds -/
def nextPre (p : A) (g b : FVec Ideal S256 .f32) (ei : IVec S2x800000 32) (w1 w2 : FVec Ideal ⟨2, ![256, 256]⟩ .f32) : A :=
  preK (Cert.KWhole.mmbn p (meanK p) (varK p) (rowOf g) (rowOf b) w1) (Cert.KWhole.mmbn p (meanK p) (varK p) (rowOf g) (rowOf b) w2)
    (edgeRow0 ei) (edgeRow1 ei)

/-- the result: the last pre-activation normalised -/
def outK (p : A) (g b : FVec Ideal S256 .f32) : A := bnWhole p (meanK p) (varK p) (rowOf g) (rowOf b)

/-! ## Before the first kernel -/

theorem W1_v1 (c : Dev nD) : W1 m ρ c (Proc.devRef .tc main_v1) = edgeRow0 (m ((c : Thread nD τ).loc main_arg1)) := Cert.KHost.ops0_v1 (W0 m ρ c)
theorem W1_v3 (c : Dev nD) : W1 m ρ c (Proc.devRef .tc main_v3) = edgeRow1 (m ((c : Thread nD τ).loc main_arg1)) := Cert.KHost.ops0_v3 (W0 m ρ c)
theorem W1_v4 (c : Dev nD) : W1 m ρ c (Proc.devRef .tc main_v4) = rowOf (m ((c : Thread nD τ).loc main_arg4)) := Cert.KHost.ops0_v4 (W0 m ρ c)
theorem W1_v5 (c : Dev nD) : W1 m ρ c (Proc.devRef .tc main_v5) = rowOf (m ((c : Thread nD τ).loc main_arg5)) := Cert.KHost.ops0_v5 (W0 m ρ c)
theorem W1_v6 (c : Dev nD) : W1 m ρ c (Proc.devRef .tc main_v6) = rowOf (m ((c : Thread nD τ).loc main_arg8)) := Cert.KHost.ops0_v6 (W0 m ρ c)
theorem W1_v7 (c : Dev nD) : W1 m ρ c (Proc.devRef .tc main_v7) = rowOf (m ((c : Thread nD τ).loc main_arg9)) := Cert.KHost.ops0_v7 (W0 m ρ c)
theorem W1_v8 (c : Dev nD) : W1 m ρ c (Proc.devRef .tc main_v8) = rowOf (m ((c : Thread nD τ).loc main_arg12)) := Cert.KHost.ops0_v8 (W0 m ρ c)
theorem W1_v9 (c : Dev nD) : W1 m ρ c (Proc.devRef .tc main_v9) = rowOf (m ((c : Thread nD τ).loc main_arg13)) := Cert.KHost.ops0_v9 (W0 m ρ c)

/-! ## The first kernel's two products -/

theorem W2_v10_0 (c : Dev nD) : W2 m ρ c (Proc.devRef .tc main_v10_0) = Cert.KRegion0.mm (m ((c : Thread nD τ).loc main_arg0)) (m ((c : Thread nD τ).loc main_arg2)) := by
  refine (W2_arr m ρ c 3).trans ((Cert.KRegion0.final_3 (V1 m ρ) c).trans ?_)
  show Cert.KRegion0.mm (W1 m ρ c (Proc.devRef .tc main_arg0)) (W1 m ρ c (Proc.devRef .tc main_arg2)) = _
  rw [keep_arg0_0_1 m ρ c, keep_arg2_0_1 m ρ c]

theorem W2_v10_1 (c : Dev nD) : W2 m ρ c (Proc.devRef .tc main_v10_1) = Cert.KRegion0.mm (m ((c : Thread nD τ).loc main_arg0)) (m ((c : Thread nD τ).loc main_arg3)) := by
  refine (W2_arr m ρ c 4).trans ((Cert.KRegion0.final_4 (V1 m ρ) c).trans ?_)
  show Cert.KRegion0.mm (W1 m ρ c (Proc.devRef .tc main_arg0)) (W1 m ρ c (Proc.devRef .tc main_arg3)) = _
  rw [keep_arg0_0_1 m ρ c, keep_arg3_0_1 m ρ c]

/-! ## The first pre-activation and its column statistics -/

theorem W4_v21 (c : Dev nD) : W4 m ρ c (Proc.devRef .tc main_v21) = (pre0 (m ((c : Thread nD τ).loc main_arg0)) (m ((c : Thread nD τ).loc main_arg1)) (m ((c : Thread nD τ).loc main_arg2)) (m ((c : Thread nD τ).loc main_arg3))) := by
  refine (Cert.KHost.ops1_pre (W2 m ρ c)).trans ?_
  rw [W2_v10_0 m ρ c, W2_v10_1 m ρ c, keep_v1_1_2 m ρ c, keep_v3_1_2 m ρ c, W1_v1 m ρ c, W1_v3 m ρ c]
  rfl

theorem W4_v25 (c : Dev nD) : W4 m ρ c (Proc.devRef .tc main_v25) = meanK (pre0 (m ((c : Thread nD τ).loc main_arg0)) (m ((c : Thread nD τ).loc main_arg1)) (m ((c : Thread nD τ).loc main_arg2)) (m ((c : Thread nD τ).loc main_arg3))) := by
  refine (Cert.KHost.ops1_mean (W2 m ρ c)).trans ?_
  rw [W2_v10_0 m ρ c, W2_v10_1 m ρ c, keep_v1_1_2 m ρ c, keep_v3_1_2 m ρ c, W1_v1 m ρ c, W1_v3 m ρ c]
  rfl

theorem W4_v26 (c : Dev nD) : W4 m ρ c (Proc.devRef .tc main_v26) = varK (pre0 (m ((c : Thread nD τ).loc main_arg0)) (m ((c : Thread nD τ).loc main_arg1)) (m ((c : Thread nD τ).loc main_arg2)) (m ((c : Thread nD τ).loc main_arg3))) := by
  refine (Cert.KHost.ops1_var (W2 m ρ c)).trans ?_
  rw [W2_v10_0 m ρ c, W2_v10_1 m ρ c, keep_v1_1_2 m ρ c, keep_v3_1_2 m ρ c, W1_v1 m ρ c, W1_v3 m ρ c]
  rfl

theorem W4_v4 (c : Dev nD) : W4 m ρ c (Proc.devRef .tc main_v4) = rowOf (m ((c : Thread nD τ).loc main_arg4)) :=
  (keep_v4_1_4 m ρ c).trans (W1_v4 m ρ c)
theorem W4_v5 (c : Dev nD) : W4 m ρ c (Proc.devRef .tc main_v5) = rowOf (m ((c : Thread nD τ).loc main_arg5)) :=
  (keep_v5_1_4 m ρ c).trans (W1_v5 m ρ c)

/-! ## The second kernel's two products -/

theorem W5_v27_0 (c : Dev nD) : W5 m ρ c (Proc.devRef .tc main_v27_0)
    = Cert.KWhole.mmbn (pre0 (m ((c : Thread nD τ).loc main_arg0)) (m ((c : Thread nD τ).loc main_arg1)) (m ((c : Thread nD τ).loc main_arg2)) (m ((c : Thread nD τ).loc main_arg3))) (meanK (pre0 (m ((c : Thread nD τ).loc main_arg0)) (m ((c : Thread nD τ).loc main_arg1)) (m ((c : Thread nD τ).loc main_arg2)) (m ((c : Thread nD τ).loc main_arg3)))) (varK (pre0 (m ((c : Thread nD τ).loc main_arg0)) (m ((c : Thread nD τ).loc main_arg1)) (m ((c : Thread nD τ).loc main_arg2)) (m ((c : Thread nD τ).loc main_arg3)))) (rowOf (m ((c : Thread nD τ).loc main_arg4))) (rowOf (m ((c : Thread nD τ).loc main_arg5))) (m ((c : Thread nD τ).loc main_arg6)) := by
  refine (W5_arr m ρ c 7).trans ((Cert.KRegion1.final_7 (V4 m ρ) c).trans ?_)
  show Cert.KWhole.mmbn (W4 m ρ c (Proc.devRef .tc main_v21)) (W4 m ρ c (Proc.devRef .tc main_v25)) (W4 m ρ c (Proc.devRef .tc main_v26))
    (W4 m ρ c (Proc.devRef .tc main_v4)) (W4 m ρ c (Proc.devRef .tc main_v5)) (W4 m ρ c (Proc.devRef .tc main_arg6)) = _
  rw [W4_v21 m ρ c, W4_v25 m ρ c, W4_v26 m ρ c, W4_v4 m ρ c, W4_v5 m ρ c, keep_arg6_0_4 m ρ c]

theorem W5_v27_1 (c : Dev nD) : W5 m ρ c (Proc.devRef .tc main_v27_1)
    = Cert.KWhole.mmbn (pre0 (m ((c : Thread nD τ).loc main_arg0)) (m ((c : Thread nD τ).loc main_arg1)) (m ((c : Thread nD τ).loc main_arg2)) (m ((c : Thread nD τ).loc main_arg3))) (meanK (pre0 (m ((c : Thread nD τ).loc main_arg0)) (m ((c : Thread nD τ).loc main_arg1)) (m ((c : Thread nD τ).loc main_arg2)) (m ((c : Thread nD τ).loc main_arg3)))) (varK (pre0 (m ((c : Thread nD τ).loc main_arg0)) (m ((c : Thread nD τ).loc main_arg1)) (m ((c : Thread nD τ).loc main_arg2)) (m ((c : Thread nD τ).loc main_arg3)))) (rowOf (m ((c : Thread nD τ).loc main_arg4))) (rowOf (m ((c : Thread nD τ).loc main_arg5))) (m ((c : Thread nD τ).loc main_arg7)) := by
  refine (W5_arr m ρ c 8).trans ((Cert.KRegion1.final_8 (V4 m ρ) c).trans ?_)
  show Cert.KWhole.mmbn (W4 m ρ c (Proc.devRef .tc main_v21)) (W4 m ρ c (Proc.devRef .tc main_v25)) (W4 m ρ c (Proc.devRef .tc main_v26))
    (W4 m ρ c (Proc.devRef .tc main_v4)) (W4 m ρ c (Proc.devRef .tc main_v5)) (W4 m ρ c (Proc.devRef .tc main_arg7)) = _
  rw [W4_v21 m ρ c, W4_v25 m ρ c, W4_v26 m ρ c, W4_v4 m ρ c, W4_v5 m ρ c, keep_arg7_0_4 m ρ c]

/-! ## The second pre-activation and its column statistics -/

theorem W7_v38 (c : Dev nD) : W7 m ρ c (Proc.devRef .tc main_v38) = (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7))) := by
  refine (Cert.KHost.ops2_pre (W5 m ρ c)).trans ?_
  rw [W5_v27_0 m ρ c, W5_v27_1 m ρ c, keep_v1_1_5 m ρ c, keep_v3_1_5 m ρ c, W1_v1 m ρ c, W1_v3 m ρ c]
  rfl

theorem W7_v42 (c : Dev nD) : W7 m ρ c (Proc.devRef .tc main_v42) = meanK (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7))) := by
  refine (Cert.KHost.ops2_mean (W5 m ρ c)).trans ?_
  rw [W5_v27_0 m ρ c, W5_v27_1 m ρ c, keep_v1_1_5 m ρ c, keep_v3_1_5 m ρ c, W1_v1 m ρ c, W1_v3 m ρ c]
  rfl

theorem W7_v43 (c : Dev nD) : W7 m ρ c (Proc.devRef .tc main_v43) = varK (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7))) := by
  refine (Cert.KHost.ops2_var (W5 m ρ c)).trans ?_
  rw [W5_v27_0 m ρ c, W5_v27_1 m ρ c, keep_v1_1_5 m ρ c, keep_v3_1_5 m ρ c, W1_v1 m ρ c, W1_v3 m ρ c]
  rfl

theorem W7_v6 (c : Dev nD) : W7 m ρ c (Proc.devRef .tc main_v6) = rowOf (m ((c : Thread nD τ).loc main_arg8)) :=
  (keep_v6_1_7 m ρ c).trans (W1_v6 m ρ c)
theorem W7_v7 (c : Dev nD) : W7 m ρ c (Proc.devRef .tc main_v7) = rowOf (m ((c : Thread nD τ).loc main_arg9)) :=
  (keep_v7_1_7 m ρ c).trans (W1_v7 m ρ c)

/-! ## The third kernel's two products -/

theorem W8_v44_0 (c : Dev nD) : W8 m ρ c (Proc.devRef .tc main_v44_0)
    = Cert.KWhole.mmbn (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7))) (meanK (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7)))) (varK (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7)))) (rowOf (m ((c : Thread nD τ).loc main_arg8))) (rowOf (m ((c : Thread nD τ).loc main_arg9))) (m ((c : Thread nD τ).loc main_arg10)) := by
  refine (W8_arr m ρ c 7).trans ((Cert.KRegion2.final_7 (V7 m ρ) c).trans ?_)
  show Cert.KWhole.mmbn (W7 m ρ c (Proc.devRef .tc main_v38)) (W7 m ρ c (Proc.devRef .tc main_v42)) (W7 m ρ c (Proc.devRef .tc main_v43))
    (W7 m ρ c (Proc.devRef .tc main_v6)) (W7 m ρ c (Proc.devRef .tc main_v7)) (W7 m ρ c (Proc.devRef .tc main_arg10)) = _
  rw [W7_v38 m ρ c, W7_v42 m ρ c, W7_v43 m ρ c, W7_v6 m ρ c, W7_v7 m ρ c, keep_arg10_0_7 m ρ c]

theorem W8_v44_1 (c : Dev nD) : W8 m ρ c (Proc.devRef .tc main_v44_1)
    = Cert.KWhole.mmbn (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7))) (meanK (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7)))) (varK (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7)))) (rowOf (m ((c : Thread nD τ).loc main_arg8))) (rowOf (m ((c : Thread nD τ).loc main_arg9))) (m ((c : Thread nD τ).loc main_arg11)) := by
  refine (W8_arr m ρ c 8).trans ((Cert.KRegion2.final_8 (V7 m ρ) c).trans ?_)
  show Cert.KWhole.mmbn (W7 m ρ c (Proc.devRef .tc main_v38)) (W7 m ρ c (Proc.devRef .tc main_v42)) (W7 m ρ c (Proc.devRef .tc main_v43))
    (W7 m ρ c (Proc.devRef .tc main_v6)) (W7 m ρ c (Proc.devRef .tc main_v7)) (W7 m ρ c (Proc.devRef .tc main_arg11)) = _
  rw [W7_v38 m ρ c, W7_v42 m ρ c, W7_v43 m ρ c, W7_v6 m ρ c, W7_v7 m ρ c, keep_arg11_0_7 m ρ c]

/-! ## The third pre-activation and its column statistics -/

theorem W10_v55 (c : Dev nD) : W10 m ρ c (Proc.devRef .tc main_v55) = (nextPre (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7))) (m ((c : Thread nD τ).loc main_arg8)) (m ((c : Thread nD τ).loc main_arg9)) (m ((c : Thread nD τ).loc main_arg1)) (m ((c : Thread nD τ).loc main_arg10)) (m ((c : Thread nD τ).loc main_arg11))) := by
  refine (Cert.KHost.ops3_pre (W8 m ρ c)).trans ?_
  rw [W8_v44_0 m ρ c, W8_v44_1 m ρ c, keep_v1_1_8 m ρ c, keep_v3_1_8 m ρ c, W1_v1 m ρ c, W1_v3 m ρ c]
  rfl

theorem W10_v59 (c : Dev nD) : W10 m ρ c (Proc.devRef .tc main_v59) = meanK (nextPre (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7))) (m ((c : Thread nD τ).loc main_arg8)) (m ((c : Thread nD τ).loc main_arg9)) (m ((c : Thread nD τ).loc main_arg1)) (m ((c : Thread nD τ).loc main_arg10)) (m ((c : Thread nD τ).loc main_arg11))) := by
  refine (Cert.KHost.ops3_mean (W8 m ρ c)).trans ?_
  rw [W8_v44_0 m ρ c, W8_v44_1 m ρ c, keep_v1_1_8 m ρ c, keep_v3_1_8 m ρ c, W1_v1 m ρ c, W1_v3 m ρ c]
  rfl

theorem W10_v60 (c : Dev nD) : W10 m ρ c (Proc.devRef .tc main_v60) = varK (nextPre (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7))) (m ((c : Thread nD τ).loc main_arg8)) (m ((c : Thread nD τ).loc main_arg9)) (m ((c : Thread nD τ).loc main_arg1)) (m ((c : Thread nD τ).loc main_arg10)) (m ((c : Thread nD τ).loc main_arg11))) := by
  refine (Cert.KHost.ops3_var (W8 m ρ c)).trans ?_
  rw [W8_v44_0 m ρ c, W8_v44_1 m ρ c, keep_v1_1_8 m ρ c, keep_v3_1_8 m ρ c, W1_v1 m ρ c, W1_v3 m ρ c]
  rfl

theorem W10_v8 (c : Dev nD) : W10 m ρ c (Proc.devRef .tc main_v8) = rowOf (m ((c : Thread nD τ).loc main_arg12)) :=
  (keep_v8_1_10 m ρ c).trans (W1_v8 m ρ c)
theorem W10_v9 (c : Dev nD) : W10 m ρ c (Proc.devRef .tc main_v9) = rowOf (m ((c : Thread nD τ).loc main_arg13)) :=
  (keep_v9_1_10 m ρ c).trans (W1_v9 m ρ c)

/-! ## The result -/

/-- the result array after the run is the tiled program's network of the argument arrays -/
theorem W11_v61 (c : Dev nD) : W11 m ρ c (Proc.devRef .tc main_v61) = outK (nextPre (nextPre (pre0 (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg1)) (m ((c : Thread nD τ).loc main_arg6)) (m ((c : Thread nD τ).loc main_arg7))) (m ((c : Thread nD τ).loc main_arg8)) (m ((c : Thread nD τ).loc main_arg9)) (m ((c : Thread nD τ).loc main_arg1)) (m ((c : Thread nD τ).loc main_arg10)) (m ((c : Thread nD τ).loc main_arg11))) (m ((c : Thread nD τ).loc main_arg12)) (m ((c : Thread nD τ).loc main_arg13)) := by
  refine (W11_arr m ρ c 5).trans ((Cert.KRegion3.final_5 (V10 m ρ) c).trans ?_)
  show bnWhole (W10 m ρ c (Proc.devRef .tc main_v55)) (W10 m ρ c (Proc.devRef .tc main_v59)) (W10 m ρ c (Proc.devRef .tc main_v60))
    (W10 m ρ c (Proc.devRef .tc main_v8)) (W10 m ρ c (Proc.devRef .tc main_v9)) = _
  rw [W10_v55 m ρ c, W10_v59 m ρ c, W10_v60 m ρ c, W10_v8 m ρ c, W10_v9 m ρ c]
  rfl

end Cert.KChain

end
-- ==== Proof.KRun.lean ====
/-
  The run of the tiled program with its result kept: from any memory with zero counters every weakly fair execution of
  @main terminates without a fault, the fourteen argument arrays end as launched, and the result array ends at the
  contents the chain of host stretches and regions leaves in it (the last region's output array after its ten write-backs).
-/
import proofs.«124758_j37177236914932_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Cert.KernelIdeal.Facts]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
theorem run_main : θ_run defs (onTc (τ := τ) (main (F := F))) ⟨m, fun _ => 0, ρ⟩ (fun r => ∀ c : Dev nD,
      r.2.mem ((c.tc : Thread nD τ).loc main_v61) = W11 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v61 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c)⟩)

end Cert.KernelIdeal.KRun

end
-- ==== Proof.LibGatherRows.lean ====
/-
  GATHER OF ROWS, READ AT AN ENTRY.

  A StableHLO gather that takes whole rows of a matrix `x : [N, C]` at a column of start indices
  `idx : [T, 1]` (offset axis 1, collapsed axis 0, start index map `[0]`, index vector on axis 1, slice
  sizes `[1, C]`) has at entry `(e, c)` the value `x[r, c]`, where `r` is the start index `idx[e, 0]` read
  as a signed integer and clamped into `[0, N - 1]` (`gather_rows_apply`).  The same gather of a vector
  `x : [N]` (no offset axis, slice sizes `[1]`) has at entry `e` the value `x[r]` (`gather_vec_apply`).

  Each is proved first for the record written out with these fields (`rowsDims`, `vecDims`) and then
  stated for ANY record of dimension numbers whose fields are the ones above, so that it applies to a
  record however it was written down.
-/
import Idealize.ShloMosaic.Lib.ValueIdx

noncomputable section

namespace Cert.GatherRows

open Idealize.ShloMosaic Idealize.ShloMosaic.ValueIdx

/-- the operand row an edge reads: its start index read signed and clamped into [0, N-1] -/
def rowAt {T w : ℕ} (N : ℕ) (hN : 0 < N) (idx : IVec ⟨2, ![T, 1]⟩ w) (e : Fin T) : Fin N :=
  ⟨min (idx (ix2 e (0 : Fin 1))).toInt.toNat (N - 1), by omega⟩

/-! ## Rows of a matrix -/

/-- The dimension numbers of a gather of rows: operand `[N, C]`, start indices `[T, 1]`, result `[T, C]`. -/
abbrev rowsDims (N C T : ℕ)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

/-- The start-indices entry result entry `(e, c)` reads: `(e, 0)`. -/
theorem rowsDims_siIdx {N C T : ℕ}
    (wf : GatherDims.WF ⟨2, ![N, C]⟩ ⟨2, ![T, 1]⟩ ⟨2, ![T, C]⟩ [1] [0] [] [0] [] 1 ![1, C])
    (e : Fin T) (c : Fin C) :
    (rowsDims N C T wf).siIdx (ix2 e c) ⟨List.idxOf (0 : Fin 2) (rowsDims N C T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of rows at the written-out record, read at an entry. -/
theorem gather_rowsDims_apply {α : Type} {N C T w : ℕ} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (e : Fin T) (c : Fin C) :
    Host.gather (rowsDims N C T wf) x idx (ix2 e c) = x (ix2 (rowAt N hN idx e) c) := by
  unfold Host.gather
  congr 1
  funext a
  refine Fin.ext ?_
  match a with
  | ⟨0, _⟩ =>
    -- the row axis: the clamped start, no batching and no offset coordinate
    show (rowsDims N C T wf).start (ix2 e c) idx 0 + (rowsDims N C T wf).batchCoord (ix2 e c) 0
      + (rowsDims N C T wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C T wf).startIndexMap from List.mem_singleton.mpr rfl)]
    rw [rowsDims_siIdx wf e c]
    rfl
  | ⟨1, _⟩ =>
    -- the column axis: start 0, no batching coordinate, the offset coordinate is the result's column
    show (rowsDims N C T wf).start (ix2 e c) idx 1 + (rowsDims N C T wf).batchCoord (ix2 e c) 1
      + (rowsDims N C T wf).offCoord (ix2 e c) 1 = c.val
    rw [GatherDims.batchCoord_eq_zero _ _ _ List.not_mem_nil]
    unfold GatherDims.start
    rw [dif_neg (show (1 : Fin 2) ∉ (rowsDims N C T wf).startIndexMap from
      fun h => Nat.one_ne_zero (congrArg Fin.val (List.mem_singleton.mp h)))]
    simp only [Nat.add_zero, Nat.zero_add]
    rfl

/-- THE GATHER OF ROWS READ AT `(e, c)`: row `rowAt N hN idx e` of the operand, column `c`; for any record
    with these dimension numbers. -/
theorem gather_rows_apply {α : Type} {N C T w : ℕ} (hN : 0 < N)
    (d : GatherDims ⟨2, ![N, C]⟩ ⟨2, ![T, 1]⟩ ⟨2, ![T, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![T, 1]⟩ w) (e : Fin T) (c : Fin C) :
    Host.gather d x idx (ix2 e c) = x (ix2 (rowAt N hN idx e) c) := by
  obtain ⟨od, cd, ob, sb, sm, iv, ss, wf⟩ := d
  simp only at h1 h2 h3 h4 h5 h6 h7
  subst h1 h2 h3 h4 h5 h6 h7
  exact gather_rowsDims_apply hN wf x idx e c

/-! ## Entries of a vector -/

/-- The dimension numbers of the same gather of a vector: operand `[N]`, start indices `[T, 1]`, result `[T]`. -/
abbrev vecDims (N T : ℕ)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- The start-indices entry result entry `e` reads: `(e, 0)`. -/
theorem vecDims_siIdx {N T : ℕ}
    (wf : GatherDims.WF ⟨1, ![N]⟩ ⟨2, ![T, 1]⟩ ⟨1, ![T]⟩ [] [0] [] [0] [] 1 ![1]) (e : Fin T) :
    (vecDims N T wf).siIdx (ix1 e) ⟨List.idxOf (0 : Fin 1) (vecDims N T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of a vector at the written-out record, read at an entry. -/
theorem gather_vecDims_apply {α : Type} {N T w : ℕ} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (e : Fin T) :
    Host.gather (vecDims N T wf) x idx (ix1 e) = x (ix1 (rowAt N hN idx e)) := by
  unfold Host.gather
  congr 1
  funext a
  obtain rfl : a = 0 := Subsingleton.elim _ _
  refine Fin.ext ?_
  show (vecDims N T wf).start (ix1 e) idx 0 + (vecDims N T wf).batchCoord (ix1 e) 0
    + (vecDims N T wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N T wf).startIndexMap from List.mem_singleton.mpr rfl)]
  rw [vecDims_siIdx wf e]
  rfl

/-- THE GATHER OF A VECTOR READ AT `e`: entry `rowAt N hN idx e` of the operand; for any record with these
    dimension numbers. -/
theorem gather_vec_apply {α : Type} {N T w : ℕ} (hN : 0 < N)
    (d : GatherDims ⟨1, ![N]⟩ ⟨2, ![T, 1]⟩ ⟨1, ![T]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![T, 1]⟩ w) (e : Fin T) :
    Host.gather d x idx (ix1 e) = x (ix1 (rowAt N hN idx e)) := by
  obtain ⟨od, cd, ob, sb, sm, iv, ss, wf⟩ := d
  simp only at h1 h2 h3 h4 h5 h6 h7
  subst h1 h2 h3 h4 h5 h6 h7
  exact gather_vecDims_apply hN wf x idx e

end Cert.GatherRows

end
-- ==== Proof.LibGatherDot.lean ====
/-
  A reusable lemma: a gather of rows commutes with a matrix product on the right.

  For x : [N, K], W : [K, C] and a [T, 1] column of start indices, gathering whole rows of the product x·W (a StableHLO
  gather with offset axis 1, collapsed axis 0, start index map [0], slice sizes [1, C]) gives the same [T, C] array as
  multiplying the gathered rows of x (slice sizes [1, K]) by W: entry (e, q) is Σ_k x[r, k]·W[k, q] either way, r the start
  index of e read signed and clamped into [0, N−1] — the row only depends on N and the index column, not on the width.
  Over the extended reals, with no finiteness assumed; generic in N, K, C, T, for any records with these dimension numbers.
-/
import proofs.«124758_j37177236914932_2_alg».proof.Proof.LibGatherRows
import proofs.«124758_j37177236914932_2_alg».proof.Proof.LibDotNN

noncomputable section

namespace Cert.GatherDot

open Idealize.ShloMosaic Idealize.ShloMosaic.ValueIdx

/-- Rows of a product are the products of the rows: for x : [N, K], W : [K, C] and a column of T start indices,
    gathering rows of x·W is multiplying the gathered rows of x by W. -/
theorem gather_dot {N K C T w : ℕ} (hN : 0 < N)
    (dC : GatherDims ⟨2, ![N, C]⟩ ⟨2, ![T, 1]⟩ ⟨2, ![T, C]⟩)
    (c1 : dC.offsetDims = [1]) (c2 : dC.collapsedSliceDims = [0]) (c3 : dC.operandBatchingDims = [])
    (c4 : dC.startIndicesBatchingDims = []) (c5 : dC.startIndexMap = [0]) (c6 : dC.indexVectorDim = 1)
    (c7 : dC.sliceSizes = ![1, C])
    (dK : GatherDims ⟨2, ![N, K]⟩ ⟨2, ![T, 1]⟩ ⟨2, ![T, K]⟩)
    (k1 : dK.offsetDims = [1]) (k2 : dK.collapsedSliceDims = [0]) (k3 : dK.operandBatchingDims = [])
    (k4 : dK.startIndicesBatchingDims = []) (k5 : dK.startIndexMap = [0]) (k6 : dK.indexVectorDim = 1)
    (k7 : dK.sliceSizes = ![1, K])
    (D : DotDims ⟨2, ![N, K]⟩ ⟨2, ![K, C]⟩ ⟨2, ![N, C]⟩) (hD : D = DotDims.plain N K C)
    (D' : DotDims ⟨2, ![T, K]⟩ ⟨2, ![K, C]⟩ ⟨2, ![T, C]⟩) (hD' : D' = DotDims.plain T K C)
    (x : FVec Ideal ⟨2, ![N, K]⟩ .f32) (wt : FVec Ideal ⟨2, ![K, C]⟩ .f32) (idx : IVec ⟨2, ![T, 1]⟩ w) :
    Host.gather dC (Host.dotGeneral (F := Ideal) D none x wt) idx
      = Host.dotGeneral (F := Ideal) D' none (Host.gather dK x idx) wt := by
  funext j
  obtain ⟨e, c, rfl⟩ : ∃ (e : Fin T) (c : Fin C), j = ix2 e c := ⟨j 0, j 1, eq_ix2 j⟩
  refine (Cert.GatherRows.gather_rows_apply hN dC c1 c2 c3 c4 c5 c6 c7 _ idx e c).trans ?_
  refine (Cert.DotNN.dotGeneral_apply D hD none x wt _ c).trans ?_
  refine Eq.trans ?_ (Cert.DotNN.dotGeneral_apply D' hD' none (Host.gather dK x idx) wt e c).symm
  refine Finset.sum_congr rfl fun k _ => ?_
  rw [Cert.GatherRows.gather_rows_apply hN dK k1 k2 k3 k4 k5 k6 k7 x idx e k]

end Cert.GatherDot

end
-- ==== Proof.BridgeConv.lean ====
/-
  A layer's pre-activation, the tiled program's way and the plain program's way.

  Both add the first product h·W₁ to the scatter-add, over the destination nodes, of one row per edge. The tiled program
  forms the second product y = h·W₂ on all nodes first and takes, for edge e, row src(e) of y; the plain program takes row
  src(e) of h and multiplies that by W₂. Entry (e, q) is Σ_k h[src e, k]·W₂[k, q] either way: a gather of rows commutes
  with a product on the right. Everything else is the same operation on both sides.
-/
import proofs.«124758_j37177236914932_2_alg».proof.Proof.KHost
import proofs.«124758_j37177236914932_2_alg».proof.Proof.KRegion0
import proofs.«124758_j37177236914932_2_alg».proof.Proof.Spec
import proofs.«124758_j37177236914932_2_alg».proof.Proof.LibGatherDot

noncomputable section

namespace Cert.Bridge

open Idealize.ShloMosaic Idealize.ShloMosaic.ValueIdx

variable [Cert.KernelIdeal.Facts] [Cert.ReferenceIdeal.Facts]

/-- the first layer: 128 input features -/
theorem conv0_eq (x : FVec Ideal ⟨2, ![50000, 128]⟩ .f32) (ei : IVec Cert.KernelIdeal.S2x800000 32)
    (w1 w2 : FVec Ideal ⟨2, ![128, 256]⟩ .f32) :
    Cert.KHost.preK (Cert.KRegion0.mm x w1) (Cert.KRegion0.mm x w2) (Cert.KHost.edgeRow0 ei) (Cert.KHost.edgeRow1 ei)
      = Cert.Spec.conv0 x ei w1 w2 := by
  have hg := Cert.GatherDot.gather_dot (N := 50000) (K := 128) (C := 256) (T := 800000) (by norm_num)
    Cert.KernelIdeal.gather_S50000x256_S800000x1_S800000x256_1_0_n_n_0_1_1256 rfl rfl rfl rfl rfl rfl rfl
    Cert.ReferenceIdeal.gather_S50000x128_S800000x1_S800000x128_1_0_n_n_0_1_1128 rfl rfl rfl rfl rfl rfl rfl
    Cert.ReferenceIdeal.dot_S50000x128_S128x256_S50000x256_1_0_0_1_n_n rfl
    Cert.ReferenceIdeal.dot_S800000x128_S128x256_S800000x256_1_0_0_1_n_n rfl
    x w2 (Cert.KHost.srcColK (Cert.KHost.edgeRow1 ei))
  unfold Cert.KHost.preK Cert.KRegion0.mm
  rw [hg]
  rfl

/-- a later layer: 256 hidden features -/
theorem conv1_eq (h : FVec Ideal ⟨2, ![50000, 256]⟩ .f32) (ei : IVec Cert.KernelIdeal.S2x800000 32)
    (w1 w2 : FVec Ideal ⟨2, ![256, 256]⟩ .f32) :
    Cert.KHost.preK
        (Host.dotGeneral (F := Ideal) Cert.ReferenceIdeal.dot_S50000x256_S256x256_S50000x256_1_0_0_1_n_n none h w1)
        (Host.dotGeneral (F := Ideal) Cert.ReferenceIdeal.dot_S50000x256_S256x256_S50000x256_1_0_0_1_n_n none h w2)
        (Cert.KHost.edgeRow0 ei) (Cert.KHost.edgeRow1 ei)
      = Cert.Spec.conv1 h ei w1 w2 := by
  have hg := Cert.GatherDot.gather_dot (N := 50000) (K := 256) (C := 256) (T := 800000) (by norm_num)
    Cert.KernelIdeal.gather_S50000x256_S800000x1_S800000x256_1_0_n_n_0_1_1256 rfl rfl rfl rfl rfl rfl rfl
    Cert.ReferenceIdeal.gather_S50000x256_S800000x1_S800000x256_1_0_n_n_0_1_1256 rfl rfl rfl rfl rfl rfl rfl
    Cert.ReferenceIdeal.dot_S50000x256_S256x256_S50000x256_1_0_0_1_n_n rfl
    Cert.ReferenceIdeal.dot_S800000x256_S256x256_S800000x256_1_0_0_1_n_n rfl
    h w2 (Cert.KHost.srcColK (Cert.KHost.edgeRow1 ei))
  unfold Cert.KHost.preK
  rw [hg]
  rfl

end Cert.Bridge

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibBiasRow.lean ====
/-
  A reusable lemma: a vector viewed as a one-row matrix, read at an entry.

  A bias of length b reaches a tiled kernel as a [1, b] row: the host reshapes the vector. Read at (u, q) the row is the
  vector at q (u can only be 0). Generic in the length and the element type.
-/
import Idealize.ShloMosaic.Lib.Pipeline.Value
import Idealize.ShloMosaic.Lib.ValueIdx

noncomputable section

namespace Cert.BiasRow

open Idealize.ShloMosaic Idealize.ShloMosaic.ValueIdx

/-- A [b] array cast to [1, b] reads, at (u, q), the operand at q. -/
theorem rowOf_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

end Cert.BiasRow

end
-- ==== Proof.BridgeNorm.lean ====
/-
  A batch normalisation and clamp, the tiled program's way and the plain program's way.

  The tiled program's host keeps the column means and the biased column variances of the pre-activation as [1,256] rows and
  its kernels normalise entry (r, q) with entry (0, q) of the four rows (mean, variance, scale, shift). The plain program
  keeps them as length-256 vectors and spreads each down the 50000 rows. At (r, q) both read the same column's mean,
  variance, scale and shift: the means and variances are the same scalar expressions of the same column sums.
-/
import proofs.«124758_j37177236914932_2_alg».proof.Proof.KHost
import proofs.«124758_j37177236914932_2_alg».proof.Proof.KTiles
import proofs.«124758_j37177236914932_2_alg».proof.Proof.Spec
import proofs.«124758_j37177236914932_2_alg».proof.Proof.LibBroadcastRows
import proofs.«124758_j37177236914932_2_alg».proof.Proof.LibHostBroadcasts
import proofs.«124758_j37177236914932_2_alg».proof.Proof.LibBiasRow

noncomputable section

namespace Cert.Bridge

open Idealize.ShloMosaic Idealize.ShloMosaic.ValueIdx

variable [Cert.KernelIdeal.Facts] [Cert.ReferenceIdeal.Facts]

open Cert.KBlocks

/-! ## The whole-array pieces that are the same operation on both sides -/

theorem colSumK_eq (a : FVec Ideal ⟨2, ![50000, 256]⟩ .f32) : Cert.KHost.colSumK a = Cert.Spec.colSum a := rfl

theorem sqDevK_eq (pre : FVec Ideal ⟨2, ![50000, 256]⟩ .f32) : Cert.KHost.sqDevK pre = Cert.Spec.sqDev pre := rfl

theorem dofK_eq : Cert.KHost.dofK = Cert.Spec.dof := rfl

/-! ## Reading the spread vectors and rows at an entry -/

/-- a vector spread down the rows reads, at (r, q), its entry q -/
theorem rows_apply (v : FVec Ideal ⟨1, ![256]⟩ .f32) (r : Fin 50000) (q : Fin 256) :
    Cert.Spec.rows v (ix2 r q) = v (ix1 q) :=
  (Cert.BroadcastRows.row_apply _ _ r q).trans (Cert.BroadcastRows.unit_apply v _ 0 q)

/-- the zero array reads zero everywhere -/
theorem zeros_apply (i : (⟨2, ![50000, 256]⟩ : Shape).Idx) :
    Cert.Spec.zeros i = Ideal.ofBits .f32 0x00000000#32 :=
  Cert.HostBroadcasts.scalar_apply _ _ _ i

/-- a vector viewed as a [1,256] row reads, at (0, q), its entry q -/
theorem rowOf_apply (v : FVec Ideal ⟨1, ![256]⟩ .f32) (q : Fin 256) :
    Cert.KHost.rowOf v (ix2 (0 : Fin 1) q) = v (ix1 q) :=
  Cert.BiasRow.rowOf_apply v _ 0 q

/-! ## The column means and variances -/

/-- the mean row at (0, q) is the mean vector at q: the column sum over 50000 -/
theorem meanK_apply (pre : FVec Ideal ⟨2, ![50000, 256]⟩ .f32) (q : Fin 256) :
    Cert.KHost.meanK pre (ix2 (0 : Fin 1) q) = Cert.Spec.mean pre (ix1 q) := by
  unfold Cert.KHost.meanK Cert.Spec.mean
  simp only [Host.divf, Cert.HostBroadcasts.scalar_apply]
  rw [Cert.BroadcastRows.unit_apply (Cert.KHost.colSumK pre) _ 0 q, colSumK_eq]
  all_goals rfl

/-- the variance row at (0, q) is the variance vector at q: the column sum of the squared deviations over the divisor,
    where the divisor is positive -/
theorem varK_apply (pre : FVec Ideal ⟨2, ![50000, 256]⟩ .f32) (q : Fin 256) :
    Cert.KHost.varK pre (ix2 (0 : Fin 1) q) = Cert.Spec.variance pre (ix1 q) := by
  unfold Cert.KHost.varK Cert.Spec.variance
  simp only [select_apply, Host.divf, Cert.HostBroadcasts.scalar_apply]
  rw [Cert.BroadcastRows.unit_apply (Cert.KHost.colSumK (Cert.KHost.sqDevK pre)) _ 0 q, colSumK_eq, sqDevK_eq, dofK_eq]
  all_goals rfl

/-! ## The normalisation at an entry -/

/-- the plain program's normalisation and clamp at (r, q) -/
theorem bnRelu_apply (pre : FVec Ideal ⟨2, ![50000, 256]⟩ .f32) (g b : FVec Ideal ⟨1, ![256]⟩ .f32)
    (r : Fin 50000) (q : Fin 256) :
    Cert.Spec.bnRelu pre g b (ix2 r q)
      = bnAt (pre (ix2 r q)) (Cert.Spec.mean pre (ix1 q)) (Cert.Spec.variance pre (ix1 q)) (g (ix1 q)) (b (ix1 q)) := by
  unfold Cert.Spec.bnRelu Cert.KBlocks.bnAt
  simp only [maximumf_apply, addf_apply, mulf_apply, subf_apply, rows_apply, zeros_apply, Host.rsqrt,
    Cert.HostBroadcasts.scalar_apply]
  rfl

/-- the normalised and clamped array is the same -/
theorem bn_eq (pre : FVec Ideal ⟨2, ![50000, 256]⟩ .f32) (g b : FVec Ideal ⟨1, ![256]⟩ .f32) :
    Cert.KBlocks.bnWhole pre (Cert.KHost.meanK pre) (Cert.KHost.varK pre) (Cert.KHost.rowOf g) (Cert.KHost.rowOf b)
      = Cert.Spec.bnRelu pre g b := by
  funext i
  obtain ⟨r, q, rfl⟩ : ∃ (r : Fin 50000) (q : Fin 256), i = ix2 r q := ⟨i 0, i 1, eq_ix2 i⟩
  rw [bnRelu_apply, Cert.KBlocks.bnWhole_apply, meanK_apply, varK_apply, rowOf_apply, rowOf_apply]

end Cert.Bridge

end
-- ==== Proof.Bridge.lean ====
/-
  The tiled program's whole-array computations against the plain program's network functions: a layer's pre-activation
  (the first layer and a later layer) and a batch normalisation and clamp, each the same array over the extended reals.
-/
import proofs.«124758_j37177236914932_2_alg».proof.Proof.BridgeConv
import proofs.«124758_j37177236914932_2_alg».proof.Proof.BridgeNorm
-- ==== Proof.KValue.lean ====
/-
  The tiled program computes the network: its stages, read as functions of the argument arrays, are the layers of the
  plain program — the first pre-activation by gathering rows of a product instead of multiplying gathered rows, every later
  one because the fused kernel's normalisation by the [1,256] mean / variance / scale / shift rows is the batch normalisation
  and clamp of the whole array — and its run ends with the result array at the network of the arguments.
-/
import proofs.«124758_j37177236914932_2_alg».proof.Proof.KChain
import proofs.«124758_j37177236914932_2_alg».proof.Proof.KRun
import proofs.«124758_j37177236914932_2_alg».proof.Proof.Bridge

noncomputable section

namespace Cert.KValue

open Idealize.ShloMosaic Idealize.ShloMosaic.TcCoe Idealize.SL.Sem
open Cert.KernelIdeal Cert.KBlocks Cert.KHost Cert.KChain

variable [Cert.KernelIdeal.Facts] [Cert.ReferenceIdeal.Facts]

/-- a later pre-activation of the tiled program is the plain layer applied to the normalised previous one -/
theorem nextPre_eq (p : A) (g b : FVec Ideal S256 .f32) (ei : IVec S2x800000 32) (w1 w2 : FVec Ideal ⟨2, ![256, 256]⟩ .f32) :
    nextPre p g b ei w1 w2 = Cert.Spec.conv1 (Cert.Spec.bnRelu p g b) ei w1 w2 := by
  unfold nextPre Cert.KWhole.mmbn
  rw [Cert.Bridge.bn_eq p g b]
  exact Cert.Bridge.conv1_eq (Cert.Spec.bnRelu p g b) ei w1 w2

/-- the tiled program's network is the plain program's -/
theorem net_eq (x : FVec Ideal ⟨2, ![50000, 128]⟩ .f32) (ei : IVec S2x800000 32) (w10 w20 : FVec Ideal ⟨2, ![128, 256]⟩ .f32)
    (g0 b0 : FVec Ideal S256 .f32) (w11 w21 : FVec Ideal ⟨2, ![256, 256]⟩ .f32) (g1 b1 : FVec Ideal S256 .f32)
    (w12 w22 : FVec Ideal ⟨2, ![256, 256]⟩ .f32) (g2 b2 : FVec Ideal S256 .f32) :
    outK (nextPre (nextPre (pre0 x ei w10 w20) g0 b0 ei w11 w21) g1 b1 ei w12 w22) g2 b2
      = Cert.Spec.net x ei w10 w20 g0 b0 w11 w21 g1 b1 w12 w22 g2 b2 := by
  have e0 : pre0 x ei w10 w20 = Cert.Spec.conv0 x ei w10 w20 := Cert.Bridge.conv0_eq x ei w10 w20
  rw [e0, nextPre_eq, nextPre_eq]
  exact Cert.Bridge.bn_eq _ g2 b2

variable (m : (ℓ : Loc nD τ sig) → Buf (Elt Ideal) ℓ) (ρ : Dev nD → PrngReg)

/-- THE RUN of the tiled program at the extended reals: it terminates without a fault, the result array ends at the network
    of the argument arrays, and the arguments end as launched. -/
theorem run : θ_run (defs (F := Ideal)) (onTc (τ := τ) (main (F := Ideal))) ⟨m, fun _ => 0, ρ⟩ (fun r => ∀ c : Dev nD,
      r.2.mem ((c.tc : Thread nD τ).loc main_v61)
        = Cert.Spec.net (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono
    (fun r h c => ⟨((h c).1.trans (W11_v61 m ρ c)).trans (net_eq _ _ _ _ _ _ _ _ _ _ _ _ _ _), (h c).2⟩)
    (Cert.KernelIdeal.KRun.run_main m ρ)

end Cert.KValue

end
-- ==== Proof.RefOps.lean ====
/-
  The plain program's operations, in order, as lists: every operation of @main with each outlined function's operations
  written at its call over that call's buffers (the variance function's, with its select's three inside; the clamp's three).
  The line is cut where one layer's pre-activation or one hidden array is complete, so that each piece reads only the
  previous piece's result, the arguments and the two edge rows.
-/
import proofs.«124758_j37177236914932_2_alg».proof.ReferenceIdeal
import Idealize.ShloMosaic.Lib.StableHlo.Run

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- the first layer's pre-activation: the two edge rows, x·W₁, the gathered source rows times W₂ scatter-added at the destinations, and their sum (20 operations). -/
abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg2 main_v4 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.nullary main_c (constantI S_ 32 0#32),
    StableHlo.unary main_c main_v5 (broadcastInDim S800000 ![] bcast_S_S800000 : (⟨S_, .i32⟩ : BufTy).Contents (Elt F) → (⟨S800000, .i32⟩ : BufTy).Contents (Elt F)),
    StableHlo.binary main_v3 main_v5 main_v6 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v7 (broadcastInDim S800000 ![] bcast_S_S800000 : (⟨S_, .i32⟩ : BufTy).Contents (Elt F) → (⟨S800000, .i32⟩ : BufTy).Contents (Elt F)),
    StableHlo.binary main_v3 main_v7 main_v8 (addi : (⟨S800000, .i32⟩ : BufTy).Contents (Elt F) → (⟨S800000, .i32⟩ : BufTy).Contents (Elt F) → (⟨S800000, .i32⟩ : BufTy).Contents (Elt F)),
    StableHlo.ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v9 main_v10 (broadcastInDim S800000x1 ![0] bcast_S800000_S800000x1_0 : (⟨S800000, .i32⟩ : BufTy).Contents (Elt F) → (⟨S800000x1, .i32⟩ : BufTy).Contents (Elt F)),
    StableHlo.binary main_arg0 main_v10 main_v11 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v11 main_arg3 main_v12 ((fun l r => Host.dotGeneral dot_S800000x128_S128x256_S800000x256_1_0_0_1_n_n none l r) : (⟨S800000x128, .f32⟩ : BufTy).Contents (Elt F) → (⟨S128x256, .f32⟩ : BufTy).Contents (Elt F) → (⟨S800000x256, .f32⟩ : BufTy).Contents (Elt F)),
    StableHlo.nullary main_cst (constant S_ .f32 0x00000000#32),
    StableHlo.unary main_cst main_v13 (broadcastInDim S50000x256 ![] bcast_S_S50000x256 : (⟨S_, .f32⟩ : BufTy).Contents (Elt F) → (⟨S50000x256, .f32⟩ : BufTy).Contents (Elt F)),
    StableHlo.unary main_v1 main_v14 (broadcastInDim S800000x1 ![0] bcast_S800000_S800000x1_0 : (⟨S800000, .i32⟩ : BufTy).Contents (Elt F) → (⟨S800000x1, .i32⟩ : BufTy).Contents (Elt F)),
    StableHlo.ternary main_v13 main_v14 main_v12 main_v15 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v4 main_v15 main_v16 (addf : (⟨S50000x256, .f32⟩ : BufTy).Contents (Elt F) → (⟨S50000x256, .f32⟩ : BufTy).Contents (Elt F) → (⟨S50000x256, .f32⟩ : BufTy).Contents (Elt F)) ]

theorem opsA_sub : (opsA : List (HloOp τ sig (Elt F))).Forall fun op => op.bufs ⊆ tcRefs τ sig :=
  ⟨unary_bufs_sub .., reshape_bufs_sub .., unary_bufs_sub .., reshape_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., unary_bufs_sub ..,
    ternary_bufs_sub .., binary_bufs_sub ..⟩

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- the first batch normalisation and clamp: column mean, the variance function's operations with its select inlined, the normalisation lines, the clamp at zero (47 operations). -/
abbrev opsB : List (HloOp τ sig (Elt F)) :=
  [ StableHlo.nullary main_cst_1 (constant S_ .f32 0x00000000#32),
    StableHlo.binary main_v16 main_cst_1 main_v17 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v18 (broadcastInDim S256 ![] bcast_S_S256 : (⟨S_, .f32⟩ : BufTy).Contents (Elt F) → (⟨S256, .f32⟩ : BufTy).Contents (Elt F)),
    StableHlo.binary main_v17 main_v18 main_v19 (Host.divf : (⟨S256, .f32⟩ : BufTy).Contents (Elt F) → (⟨S256, .f32⟩ : BufTy).Contents (Elt F) → (⟨S256, .f32⟩ : BufTy).Contents (Elt F)),
    StableHlo.nullary main_c_3 (constantI S_ 32 0#32),
    StableHlo.TRef.nullary main_call0.cst (constant S_ .f32 0x00000000#32),
    StableHlo.TRef.binary (.of main_v16 : StableHlo.TRef sig ⟨S50000x256, .f32⟩) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v16 : StableHlo.TRef sig ⟨S50000x256, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v19 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S50000x256 ![0, 1] bcast_S1x256_S50000x256_0_1 : (⟨S1x256, .f32⟩ : BufTy).Contents (Elt F) → (⟨S50000x256, .f32⟩ : BufTy).Contents (Elt F)),
    StableHlo.binary main_v16 main_v22 main_v23 (subf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x3727C5AC#32),
    StableHlo.unary main_cst_4 main_v24 (broadcastInDim S256 ![] bcast_S_S256 : (⟨S_, .f32⟩ : BufTy).Contents (Elt F) → (⟨S256, .f32⟩ : BufTy).Contents (Elt F)),
    StableHlo.binary main_v20 main_v24 main_v25 (addf : (⟨S256, .f32⟩ : BufTy).Contents (Elt F) → (⟨S256, .f32⟩ : BufTy).Contents (Elt F) → (⟨S256, .f32⟩ : BufTy).Contents (Elt F)),
    StableHlo.unary main_v25 main_v26 (Host.rsqrt : (⟨S256, .f32⟩ : BufTy).Contents (Elt F) → (⟨S256, .f32⟩ : BufTy).Contents (Elt F)),
    StableHlo.unary main_v26 main_v27 (broadcastInDim S1x256 ![1] bcast_S256_S1x256_1 : (⟨S256, .f32⟩ : BufTy).Contents (Elt F) → (⟨S1x256, .f32⟩ : BufTy).Contents (Elt F)),
    StableHlo.unary main_v27 main_v28 (broadcastInDim S50000x256 ![0, 1] bcast_S1x256_S50000x256_0_1 : (⟨S1x256, .f32⟩ : BufTy).Contents (Elt F) → (⟨S50000x256, .f32⟩ : BufTy).Contents (Elt F)),
    StableHlo.binary main_v23 main_v28 main_v29 (mulf : (⟨S50000x256, .f32⟩ : BufTy).Contents (Elt F) → (⟨S50000x256, .f32⟩ : BufTy).Contents (Elt F) → (⟨S50000x256, .f32⟩ : BufTy).Contents (Elt F)),
    StableHlo.unary main_arg4 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S50000x256 ![0, 1] bcast_S1x256_S50000x256_0_1 : (⟨S1x256, .f32⟩ : BufTy).Contents (Elt F) → (⟨S50000x256, .f32⟩ : BufTy).Contents (Elt F)),
    StableHlo.binary main_v29 main_v31 main_v32 (mulf : (⟨S50000x256, .f32⟩ : BufTy).Contents (Elt F) → (⟨S50000x256, .f32⟩ : BufTy).Contents (Elt F) → (⟨S50000x256, .f32⟩ : BufTy).Contents (Elt F)),
    StableHlo.unary main_arg5 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S50000x256 ![0, 1] bcast_S1x256_S50000x256_0_1 : (⟨S1x256, .f32⟩ : BufTy).Contents (Elt F) → (⟨S50000x256, .f32⟩ : BufTy).Contents (Elt F)),
    StableHlo.binary main_v32 main_v34 main_v35 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v35 : StableHlo.TRef sig ⟨S50000x256, .f32⟩) main_call1.v0 main_call1.v1 maximumf ]

theorem opsB_sub : (opsB : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl⟩

/-- the second layer's pre-activation from the first hidden array (16 operations). -/
abbrev opsC : List (HloOp τ sig (Elt F)) :=
  [ StableHlo.binary main_v36 main_arg6 main_v37 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_5 (constantI S_ 32 0#32),
    StableHlo.unary main_c_5 main_v38 (broadcastInDim S800000 ![] bcast_S_S800000 : (⟨S_, .i32⟩ : BufTy).Contents (Elt F) → (⟨S800000, .i32⟩ : BufTy).Contents (Elt F)),
    StableHlo.binary main_v3 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v40 (broadcastInDim S800000 ![] bcast_S_S800000 : (⟨S_, .i32⟩ : BufTy).Contents (Elt F) → (⟨S800000, .i32⟩ : BufTy).Contents (Elt F)),
    StableHlo.binary main_v3 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_v3 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v36 main_v43 main_v44 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.binary main_v44 main_arg7 main_v45 ((fun l r => Host.dotGeneral dot_S800000x256_S256x256_S800000x256_1_0_0_1_n_n none l r) : (⟨S800000x256, .f32⟩ : BufTy).Contents (Elt F) → (⟨S256x256, .f32⟩ : BufTy).Contents (Elt F) → (⟨S800000x256, .f32⟩ : BufTy).Contents (Elt F)),
    StableHlo.nullary main_cst_7 (constant S_ .f32 0x00000000#32),
    StableHlo.unary main_cst_7 main_v46 (broadcastInDim S50000x256 ![] bcast_S_S50000x256 : (⟨S_, .f32⟩ : BufTy).Contents (Elt F) → (⟨S50000x256, .f32⟩ : BufTy).Contents (Elt F)),
    StableHlo.unary main_v1 main_v47 (broadcastInDim S800000x1 ![0] bcast_S800000_S800000x1_0 : (⟨S800000, .i32⟩ : BufTy).Contents (Elt F) → (⟨S800000x1, .i32⟩ : BufTy).Contents (Elt F)),
    StableHlo.ternary main_v46 main_v47 main_v45 main_v48 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v37 main_v48 main_v49 (addf : (⟨S50000x256, .f32⟩ : BufTy).Contents (Elt F) → (⟨S50000x256, .f32⟩ : BufTy).Contents (Elt F) → (⟨S50000x256, .f32⟩ : BufTy).Contents (Elt F)) ]

theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., unary_bufs_sub .., ternary_bufs_sub .., binary_bufs_sub ..⟩

theorem opsC_fresh : (opsC : List (HloOp τ sig (Elt F))).Forall fun op => op.fresh = ∅ :=
  ⟨rfl, rfl, rfl, rfl, rfl, rfl, rfl, rfl, rfl, rfl, rfl, rfl, rfl, rfl, rfl, rfl⟩

/-- the second batch normalisation and clamp (47 operations). -/
abbrev opsD : List (HloOp τ sig (Elt F)) :=
  [ StableHlo.nullary main_cst_8 (constant S_ .f32 0x00000000#32),
    StableHlo.binary main_v49 main_cst_8 main_v50 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_9 (constant S_ .f32 0x47435000#32),
    StableHlo.unary main_cst_9 main_v51 (broadcastInDim S256 ![] bcast_S_S256 : (⟨S_, .f32⟩ : BufTy).Contents (Elt F) → (⟨S256, .f32⟩ : BufTy).Contents (Elt F)),
    StableHlo.binary main_v50 main_v51 main_v52 (Host.divf : (⟨S256, .f32⟩ : BufTy).Contents (Elt F) → (⟨S256, .f32⟩ : BufTy).Contents (Elt F) → (⟨S256, .f32⟩ : BufTy).Contents (Elt F)),
    StableHlo.nullary main_c_10 (constantI S_ 32 0#32),
    StableHlo.TRef.nullary main_call2.cst (constant S_ .f32 0x00000000#32),
    StableHlo.TRef.binary (.of main_v49 : StableHlo.TRef sig ⟨S50000x256, .f32⟩) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v49 : StableHlo.TRef sig ⟨S50000x256, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v52 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S50000x256 ![0, 1] bcast_S1x256_S50000x256_0_1 : (⟨S1x256, .f32⟩ : BufTy).Contents (Elt F) → (⟨S50000x256, .f32⟩ : BufTy).Contents (Elt F)),
    StableHlo.binary main_v49 main_v55 main_v56 (subf : (⟨S50000x256, .f32⟩ : BufTy).Contents (Elt F) → (⟨S50000x256, .f32⟩ : BufTy).Contents (Elt F) → (⟨S50000x256, .f32⟩ : BufTy).Contents (Elt F)),
    StableHlo.nullary main_cst_11 (constant S_ .f32 0x3727C5AC#32),
    StableHlo.unary main_cst_11 main_v57 (broadcastInDim S256 ![] bcast_S_S256 : (⟨S_, .f32⟩ : BufTy).Contents (Elt F) → (⟨S256, .f32⟩ : BufTy).Contents (Elt F)),
    StableHlo.binary main_v53 main_v57 main_v58 (addf : (⟨S256, .f32⟩ : BufTy).Contents (Elt F) → (⟨S256, .f32⟩ : BufTy).Contents (Elt F) → (⟨S256, .f32⟩ : BufTy).Contents (Elt F)),
    StableHlo.unary main_v58 main_v59 (Host.rsqrt : (⟨S256, .f32⟩ : BufTy).Contents (Elt F) → (⟨S256, .f32⟩ : BufTy).Contents (Elt F)),
    StableHlo.unary main_v59 main_v60 (broadcastInDim S1x256 ![1] bcast_S256_S1x256_1 : (⟨S256, .f32⟩ : BufTy).Contents (Elt F) → (⟨S1x256, .f32⟩ : BufTy).Contents (Elt F)),
    StableHlo.unary main_v60 main_v61 (broadcastInDim S50000x256 ![0, 1] bcast_S1x256_S50000x256_0_1 : (⟨S1x256, .f32⟩ : BufTy).Contents (Elt F) → (⟨S50000x256, .f32⟩ : BufTy).Contents (Elt F)),
    StableHlo.binary main_v56 main_v61 main_v62 (mulf : (⟨S50000x256, .f32⟩ : BufTy).Contents (Elt F) → (⟨S50000x256, .f32⟩ : BufTy).Contents (Elt F) → (⟨S50000x256, .f32⟩ : BufTy).Contents (Elt F)),
    StableHlo.unary main_arg8 main_v63 (broadcastInDim S1x256 ![1] bcast_S256_S1x256_1 : (⟨S256, .f32⟩ : BufTy).Contents (Elt F) → (⟨S1x256, .f32⟩ : BufTy).Contents (Elt F)),
    StableHlo.unary main_v63 main_v64 (broadcastInDim S50000x256 ![0, 1] bcast_S1x256_S50000x256_0_1 : (⟨S1x256, .f32⟩ : BufTy).Contents (Elt F) → (⟨S50000x256, .f32⟩ : BufTy).Contents (Elt F)),
    StableHlo.binary main_v62 main_v64 main_v65 (mulf : (⟨S50000x256, .f32⟩ : BufTy).Contents (Elt F) → (⟨S50000x256, .f32⟩ : BufTy).Contents (Elt F) → (⟨S50000x256, .f32⟩ : BufTy).Contents (Elt F)),
    StableHlo.unary main_arg9 main_v66 (broadcastInDim S1x256 ![1] bcast_S256_S1x256_1 : (⟨S256, .f32⟩ : BufTy).Contents (Elt F) → (⟨S1x256, .f32⟩ : BufTy).Contents (Elt F)),
    StableHlo.unary main_v66 main_v67 (broadcastInDim S50000x256 ![0, 1] bcast_S1x256_S50000x256_0_1 : (⟨S1x256, .f32⟩ : BufTy).Contents (Elt F) → (⟨S50000x256, .f32⟩ : BufTy).Contents (Elt F)),
    StableHlo.binary main_v65 main_v67 main_v68 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v68 : StableHlo.TRef sig ⟨S50000x256, .f32⟩) main_call3.v0 main_call3.v1 maximumf ]

theorem opsD_sub : (opsD : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl⟩

/-- the third layer's pre-activation from the second hidden array (16 operations). -/
abbrev opsE : List (HloOp τ sig (Elt F)) :=
  [ StableHlo.binary main_v69 main_arg10 main_v70 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_c_12 (constantI S_ 32 0#32),
    StableHlo.unary main_c_12 main_v71 (broadcastInDim S800000 ![] bcast_S_S800000 : (⟨S_, .i32⟩ : BufTy).Contents (Elt F) → (⟨S800000, .i32⟩ : BufTy).Contents (Elt F)),
    StableHlo.binary main_v3 main_v71 main_v72 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v73 (broadcastInDim S800000 ![] bcast_S_S800000 : (⟨S_, .i32⟩ : BufTy).Contents (Elt F) → (⟨S800000, .i32⟩ : BufTy).Contents (Elt F)),
    StableHlo.binary main_v3 main_v73 main_v74 (addi : (⟨S800000, .i32⟩ : BufTy).Contents (Elt F) → (⟨S800000, .i32⟩ : BufTy).Contents (Elt F) → (⟨S800000, .i32⟩ : BufTy).Contents (Elt F)),
    StableHlo.ternary main_v72 main_v74 main_v3 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v75 main_v76 (broadcastInDim S800000x1 ![0] bcast_S800000_S800000x1_0 : (⟨S800000, .i32⟩ : BufTy).Contents (Elt F) → (⟨S800000x1, .i32⟩ : BufTy).Contents (Elt F)),
    StableHlo.binary main_v69 main_v76 main_v77 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.binary main_v77 main_arg11 main_v78 ((fun l r => Host.dotGeneral dot_S800000x256_S256x256_S800000x256_1_0_0_1_n_n none l r) : (⟨S800000x256, .f32⟩ : BufTy).Contents (Elt F) → (⟨S256x256, .f32⟩ : BufTy).Contents (Elt F) → (⟨S800000x256, .f32⟩ : BufTy).Contents (Elt F)),
    StableHlo.nullary main_cst_14 (constant S_ .f32 0x00000000#32),
    StableHlo.unary main_cst_14 main_v79 (broadcastInDim S50000x256 ![] bcast_S_S50000x256 : (⟨S_, .f32⟩ : BufTy).Contents (Elt F) → (⟨S50000x256, .f32⟩ : BufTy).Contents (Elt F)),
    StableHlo.unary main_v1 main_v80 (broadcastInDim S800000x1 ![0] bcast_S800000_S800000x1_0 : (⟨S800000, .i32⟩ : BufTy).Contents (Elt F) → (⟨S800000x1, .i32⟩ : BufTy).Contents (Elt F)),
    StableHlo.ternary main_v79 main_v80 main_v78 main_v81 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v70 main_v81 main_v82 (addf : (⟨S50000x256, .f32⟩ : BufTy).Contents (Elt F) → (⟨S50000x256, .f32⟩ : BufTy).Contents (Elt F) → (⟨S50000x256, .f32⟩ : BufTy).Contents (Elt F)) ]

theorem opsE_sub : (opsE : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., unary_bufs_sub .., ternary_bufs_sub .., binary_bufs_sub ..⟩

theorem opsE_fresh : (opsE : List (HloOp τ sig (Elt F))).Forall fun op => op.fresh = ∅ :=
  ⟨rfl, rfl, rfl, rfl, rfl, rfl, rfl, rfl, rfl, rfl, rfl, rfl, rfl, rfl, rfl, rfl⟩

/-- the third batch normalisation up to the scaled value (41 operations). -/
abbrev opsF1 : List (HloOp τ sig (Elt F)) :=
  [ StableHlo.nullary main_cst_15 (constant S_ .f32 0x00000000#32),
    StableHlo.binary main_v82 main_cst_15 main_v83 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_16 (constant S_ .f32 0x47435000#32),
    StableHlo.unary main_cst_16 main_v84 (broadcastInDim S256 ![] bcast_S_S256 : (⟨S_, .f32⟩ : BufTy).Contents (Elt F) → (⟨S256, .f32⟩ : BufTy).Contents (Elt F)),
    StableHlo.binary main_v83 main_v84 main_v85 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32),
    StableHlo.TRef.nullary main_call4.cst (constant S_ .f32 0x00000000#32),
    StableHlo.TRef.binary (.of main_v82 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v82 : StableHlo.TRef sig ⟨S50000x256, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v85 main_v87 (broadcastInDim S1x256 ![1] bcast_S256_S1x256_1 : (⟨S256, .f32⟩ : BufTy).Contents (Elt F) → (⟨S1x256, .f32⟩ : BufTy).Contents (Elt F)),
    StableHlo.unary main_v87 main_v88 (broadcastInDim S50000x256 ![0, 1] bcast_S1x256_S50000x256_0_1 : (⟨S1x256, .f32⟩ : BufTy).Contents (Elt F) → (⟨S50000x256, .f32⟩ : BufTy).Contents (Elt F)),
    StableHlo.binary main_v82 main_v88 main_v89 (subf : (⟨S50000x256, .f32⟩ : BufTy).Contents (Elt F) → (⟨S50000x256, .f32⟩ : BufTy).Contents (Elt F) → (⟨S50000x256, .f32⟩ : BufTy).Contents (Elt F)),
    StableHlo.nullary main_cst_18 (constant S_ .f32 0x3727C5AC#32),
    StableHlo.unary main_cst_18 main_v90 (broadcastInDim S256 ![] bcast_S_S256 : (⟨S_, .f32⟩ : BufTy).Contents (Elt F) → (⟨S256, .f32⟩ : BufTy).Contents (Elt F)),
    StableHlo.binary main_v86 main_v90 main_v91 (addf : (⟨S256, .f32⟩ : BufTy).Contents (Elt F) → (⟨S256, .f32⟩ : BufTy).Contents (Elt F) → (⟨S256, .f32⟩ : BufTy).Contents (Elt F)),
    StableHlo.unary main_v91 main_v92 (Host.rsqrt : (⟨S256, .f32⟩ : BufTy).Contents (Elt F) → (⟨S256, .f32⟩ : BufTy).Contents (Elt F)),
    StableHlo.unary main_v92 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S50000x256 ![0, 1] bcast_S1x256_S50000x256_0_1 : (⟨S1x256, .f32⟩ : BufTy).Contents (Elt F) → (⟨S50000x256, .f32⟩ : BufTy).Contents (Elt F)),
    StableHlo.binary main_v89 main_v94 main_v95 (mulf : (⟨S50000x256, .f32⟩ : BufTy).Contents (Elt F) → (⟨S50000x256, .f32⟩ : BufTy).Contents (Elt F) → (⟨S50000x256, .f32⟩ : BufTy).Contents (Elt F)),
    StableHlo.unary main_arg12 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S50000x256 ![0, 1] bcast_S1x256_S50000x256_0_1 : (⟨S1x256, .f32⟩ : BufTy).Contents (Elt F) → (⟨S50000x256, .f32⟩ : BufTy).Contents (Elt F)),
    StableHlo.binary main_v95 main_v97 main_v98 (mulf : (⟨S50000x256, .f32⟩ : BufTy).Contents (Elt F) → (⟨S50000x256, .f32⟩ : BufTy).Contents (Elt F) → (⟨S50000x256, .f32⟩ : BufTy).Contents (Elt F)) ]

theorem opsF1_sub : (opsF1 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub ..⟩

theorem opsF1_fresh : (opsF1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl⟩

/-- the third normalisation's shift and the clamp at zero (6 operations). -/
abbrev opsF2 : List (HloOp τ sig (Elt F)) :=
  [ StableHlo.unary main_arg13 main_v99 (broadcastInDim S1x256 ![1] bcast_S256_S1x256_1 : (⟨S256, .f32⟩ : BufTy).Contents (Elt F) → (⟨S1x256, .f32⟩ : BufTy).Contents (Elt F)),
    StableHlo.unary main_v99 main_v100 (broadcastInDim S50000x256 ![0, 1] bcast_S1x256_S50000x256_0_1 : (⟨S1x256, .f32⟩ : BufTy).Contents (Elt F) → (⟨S50000x256, .f32⟩ : BufTy).Contents (Elt F)),
    StableHlo.binary main_v98 main_v100 main_v101 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v101 : StableHlo.TRef sig ⟨S50000x256, .f32⟩) main_call5.v0 main_call5.v1 maximumf ]

theorem opsF2_sub : (opsF2 : List (HloOp τ sig (Elt F))).Forall fun op => op.bufs ⊆ tcRefs τ sig :=
  ⟨unary_bufs_sub .., unary_bufs_sub .., binary_bufs_sub .., nullary_bufs_sub .., unary_bufs_sub .., binary_bufs_sub ..⟩

theorem opsF2_fresh : (opsF2 : List (HloOp τ sig (Elt F))).Forall fun op => op.fresh = ∅ :=
  ⟨rfl, rfl, rfl, rfl, rfl, rfl⟩

/-- the third batch normalisation and clamp, as one line (47 operations). -/
abbrev opsF : List (HloOp τ sig (Elt F)) :=
  [ StableHlo.nullary main_cst_15 (constant S_ .f32 0x00000000#32),
    StableHlo.binary main_v82 main_cst_15 main_v83 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_16 (constant S_ .f32 0x47435000#32),
    StableHlo.unary main_cst_16 main_v84 (broadcastInDim S256 ![] bcast_S_S256 : (⟨S_, .f32⟩ : BufTy).Contents (Elt F) → (⟨S256, .f32⟩ : BufTy).Contents (Elt F)),
    StableHlo.binary main_v83 main_v84 main_v85 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32),
    StableHlo.TRef.nullary main_call4.cst (constant S_ .f32 0x00000000#32),
    StableHlo.TRef.binary (.of main_v82 : StableHlo.TRef sig ⟨S50000x256, .f32⟩) main_call4.cst main_call4.v0 (fun x v => Host.reduceAdd x v reducesTo_S50000x256_S256_d0 h_S_),
    StableHlo.TRef.unary main_call4.v0 main_call4.v1 (broadcastInDim S1x256 ![1] bcast_S256_S1x256_1),
    StableHlo.TRef.nullary main_call4.cst_0 (constant S_ .f32 0x47435000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S50000x256 ![0, 1] bcast_S1x256_S50000x256_0_1),
    StableHlo.TRef.binary (.of main_v82 : StableHlo.TRef sig ⟨S50000x256, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v85 main_v87 (broadcastInDim S1x256 ![1] bcast_S256_S1x256_1 : (⟨S256, .f32⟩ : BufTy).Contents (Elt F) → (⟨S1x256, .f32⟩ : BufTy).Contents (Elt F)),
    StableHlo.unary main_v87 main_v88 (broadcastInDim S50000x256 ![0, 1] bcast_S1x256_S50000x256_0_1 : (⟨S1x256, .f32⟩ : BufTy).Contents (Elt F) → (⟨S50000x256, .f32⟩ : BufTy).Contents (Elt F)),
    StableHlo.binary main_v82 main_v88 main_v89 (subf : (⟨S50000x256, .f32⟩ : BufTy).Contents (Elt F) → (⟨S50000x256, .f32⟩ : BufTy).Contents (Elt F) → (⟨S50000x256, .f32⟩ : BufTy).Contents (Elt F)),
    StableHlo.nullary main_cst_18 (constant S_ .f32 0x3727C5AC#32),
    StableHlo.unary main_cst_18 main_v90 (broadcastInDim S256 ![] bcast_S_S256 : (⟨S_, .f32⟩ : BufTy).Contents (Elt F) → (⟨S256, .f32⟩ : BufTy).Contents (Elt F)),
    StableHlo.binary main_v86 main_v90 main_v91 (addf : (⟨S256, .f32⟩ : BufTy).Contents (Elt F) → (⟨S256, .f32⟩ : BufTy).Contents (Elt F) → (⟨S256, .f32⟩ : BufTy).Contents (Elt F)),
    StableHlo.unary main_v91 main_v92 (Host.rsqrt : (⟨S256, .f32⟩ : BufTy).Contents (Elt F) → (⟨S256, .f32⟩ : BufTy).Contents (Elt F)),
    StableHlo.unary main_v92 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S50000x256 ![0, 1] bcast_S1x256_S50000x256_0_1 : (⟨S1x256, .f32⟩ : BufTy).Contents (Elt F) → (⟨S50000x256, .f32⟩ : BufTy).Contents (Elt F)),
    StableHlo.binary main_v89 main_v94 main_v95 (mulf : (⟨S50000x256, .f32⟩ : BufTy).Contents (Elt F) → (⟨S50000x256, .f32⟩ : BufTy).Contents (Elt F) → (⟨S50000x256, .f32⟩ : BufTy).Contents (Elt F)),
    StableHlo.unary main_arg12 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S50000x256 ![0, 1] bcast_S1x256_S50000x256_0_1 : (⟨S1x256, .f32⟩ : BufTy).Contents (Elt F) → (⟨S50000x256, .f32⟩ : BufTy).Contents (Elt F)),
    StableHlo.binary main_v95 main_v97 main_v98 (mulf : (⟨S50000x256, .f32⟩ : BufTy).Contents (Elt F) → (⟨S50000x256, .f32⟩ : BufTy).Contents (Elt F) → (⟨S50000x256, .f32⟩ : BufTy).Contents (Elt F)),
    StableHlo.unary main_arg13 main_v99 (broadcastInDim S1x256 ![1] bcast_S256_S1x256_1 : (⟨S256, .f32⟩ : BufTy).Contents (Elt F) → (⟨S1x256, .f32⟩ : BufTy).Contents (Elt F)),
    StableHlo.unary main_v99 main_v100 (broadcastInDim S50000x256 ![0, 1] bcast_S1x256_S50000x256_0_1 : (⟨S1x256, .f32⟩ : BufTy).Contents (Elt F) → (⟨S50000x256, .f32⟩ : BufTy).Contents (Elt F)),
    StableHlo.binary main_v98 main_v100 main_v101 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v101 : StableHlo.TRef sig ⟨S50000x256, .f32⟩) main_call5.v0 main_call5.v1 maximumf ]

/-- The last piece is its two halves joined. -/
theorem opsF_eq : (opsF : List (HloOp τ sig (Elt F))) = opsF1 ++ opsF2 := rfl

/-- @main's 193 operations: the pieces in order. -/
abbrev ops : List (HloOp τ sig (Elt F)) := opsA ++ (opsB ++ (opsC ++ (opsD ++ (opsE ++ (opsF1 ++ opsF2)))))

end Cert.ReferenceIdeal.RefRun

end
-- ==== Proof.RefMain.lean ====
/-
  @main is the line of its operations, and the line's run: from any memory with zero counters every weakly fair
  execution on the TensorCores terminates with each buffer at the fold of the operations over the launch contents.
-/
import proofs.«124758_j37177236914932_2_alg».proof.Proof.RefOps

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

-- each window is one chain of steps once the functions' definitions are unfolded at their calls and the sequencing
-- reassociated; the rewrite under the chain recurses once per statement
set_option maxRecDepth 4096 in
set_option maxHeartbeats 4000000 in
/-- statements 1 … 60: the first layer, its normalisation, the second layer's pre-activation. -/
theorem part0_eq (c : Dev nD) :
    main_part0 (F := F) c = (seq opsA >>= fun _ => seq opsB >>= fun _ => seq opsC) := by
  simp only [main_part0, fn_var.body, fn_where.body, fn_relu.body, seq, bind_assoc, pure_bind]
  rfl

set_option maxRecDepth 4096 in
set_option maxHeartbeats 4000000 in
/-- statements 61 … 120: the second normalisation, the third layer, its normalisation up to the scaled value. -/
theorem part1_eq (c : Dev nD) :
    main_part1 (F := F) c = (seq opsD >>= fun _ => seq opsE >>= fun _ => seq opsF1) := by
  simp only [main_part1, fn_var.body, fn_where.body, fn_relu.body, seq, bind_assoc, pure_bind]
  rfl

set_option maxRecDepth 4096 in
/-- statements 121 … 125: the shift and the last clamp. -/
theorem part2_eq (c : Dev nD) : main_part2 (F := F) c = seq opsF2 := by
  simp only [main_part2, fn_relu.body, seq, bind_assoc, pure_bind]

/-- @main is the whole line. -/
theorem main_eq (c : Dev nD) : main (F := F) c = seq ops := by
  show (main_part0 (F := F) c >>= fun _ => main_part1 (F := F) c >>= fun _ => main_part2 (F := F) c) = seq (opsA ++ (opsB ++ (opsC ++ (opsD ++ (opsE ++ (opsF1 ++ opsF2))))))
  rw [part0_eq, part1_eq, part2_eq]
  simp only [seq_append, bind_assoc]

theorem scopedRefs_eq : (Finset.univ.filter fun b : Ref sig .tc => b.isScoped) = ∅ := by decide
theorem scopedSems_eq : (Finset.univ.filter fun sm : SemLoc sig => sm.isScoped .tc) = ∅ := by decide

private theorem forall_append {α : Type} {p : α → Prop} {l₁ l₂ : List α} (h₁ : l₁.Forall p) (h₂ : l₂.Forall p) :
    (l₁ ++ l₂).Forall p :=
  List.forall_iff_forall_mem.2 fun x hx => (List.mem_append.1 hx).elim
    (List.forall_iff_forall_mem.1 h₁ x) (List.forall_iff_forall_mem.1 h₂ x)

theorem ops_sub : (ops : List (HloOp τ sig (Elt F))).Forall fun op => op.bufs ⊆ tcRefs τ sig :=
  forall_append opsA_sub (forall_append opsB_sub (forall_append opsC_sub (forall_append opsD_sub
    (forall_append opsE_sub (forall_append opsF1_sub opsF2_sub)))))

theorem ops_fresh : (ops : List (HloOp τ sig (Elt F))).Forall fun op => op.fresh = ∅ :=
  forall_append opsA_fresh (forall_append opsB_fresh (forall_append opsC_fresh (forall_append opsD_fresh
    (forall_append opsE_fresh (forall_append opsF1_fresh opsF2_fresh)))))

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

end Cert.ReferenceIdeal.RefRun

end
-- ==== Proof.LibAfterSplit.lean ====
/-
  A line of host operations run from given buffer contents is a fold over the line; the fold over a line is the fold
  over any tail of it started from the fold over the matching head.
-/
import Idealize.ShloMosaic.Lib.StableHlo.Run

noncomputable section

namespace Cert.AfterSplit

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

theorem after_take_drop (l : List (HloOp τ sig Val)) (k : ℕ) (V : Valuation τ sig Val) :
    after l V = after (l.drop k) (after (l.take k) V) := by
  rw [← after_append, List.take_append_drop]

end Cert.AfterSplit

end
-- ==== Proof.RefStages.lean ====
/-
  The fold of the plain program's operations, piece by piece. From any buffer contents V, each piece of the line leaves its
  result buffer at the network function of that stage (a layer's pre-activation, or a batch normalisation and clamp) applied
  to V at the buffers the piece reads, and leaves the arguments and the two edge rows as they were: the operations of
  the piece are exactly the host operations the network functions are written with.
-/
import proofs.«124758_j37177236914932_2_alg».proof.Proof.RefOps
import proofs.«124758_j37177236914932_2_alg».proof.Proof.Spec
import proofs.«124758_j37177236914932_2_alg».proof.Proof.LibAfterSplit

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts]

open Cert.Spec

/-- the destination node of every edge: row 0 of the edge list -/
def dstVec (ei : IMat S2x800000) : IMat S800000 :=
  shapeCast S800000 (extractStridedSlice S1x800000 ![0, 0] ei slices_S2x800000_S1x800000_0_0) shapeCasts_S1x800000_S800000

/-- a later layer's pre-activation over the two edge rows as given vectors -/
def conv1At (h : Mat S50000x256) (dst src : IMat S800000) (w1 w2 : Mat S256x256) : Mat S50000x256 :=
  addf (Host.dotGeneral (F := Ideal) dot_S50000x256_S256x256_S50000x256_1_0_0_1_n_n none h w1)
    (Host.scatterAdd (F := Ideal) scatter_S50000x256_S800000x1_S800000x256_1_0_0_1 zeros
      (broadcastInDim S800000x1 ![0] bcast_S800000_S800000x1_0 dst)
      (Host.dotGeneral (F := Ideal) dot_S800000x256_S256x256_S800000x256_1_0_0_1_n_n none
        (Host.gather gather_S50000x256_S800000x1_S800000x256_1_0_n_n_0_1_1256 h
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32)))
              src))) w2))

/-- at the edge list's own rows it is the layer function -/
theorem conv1At_rows (h : Mat S50000x256) (ei : IMat S2x800000) (w1 w2 : Mat S256x256) :
    conv1At h (dstVec ei) (srcVec ei) w1 w2 = conv1 h ei w1 w2 := rfl

section Stages

-- the sums, gathers and scatter-adds stay folded: the equations below never look inside them
attribute [local irreducible] Host.reduceAdd Host.gather Host.scatterAdd

variable (V : Valuation τ sig (Elt Ideal))

/-! ### The first layer's pre-activation -/

theorem stageA_v16 : after opsA V (Proc.devRef .tc main_v16 : DevRef τ sig)
    = conv0 (V (Proc.devRef .tc main_arg0 : DevRef τ sig)) (V (Proc.devRef .tc main_arg1 : DevRef τ sig)) (V (Proc.devRef .tc main_arg2 : DevRef τ sig)) (V (Proc.devRef .tc main_arg3 : DevRef τ sig)) := by
  after_results_simp
  rfl

theorem stageA_v1 : after opsA V (Proc.devRef .tc main_v1 : DevRef τ sig) = dstVec (V (Proc.devRef .tc main_arg1 : DevRef τ sig)) := by
  after_results_simp
  rfl

theorem stageA_v3 : after opsA V (Proc.devRef .tc main_v3 : DevRef τ sig) = srcVec (V (Proc.devRef .tc main_arg1 : DevRef τ sig)) := by
  after_results_simp
  rfl

/-! ### The normalisations and the later layers -/

set_option maxRecDepth 8192 in
set_option maxHeartbeats 1600000 in
theorem stageB_v36 : after opsB V (Proc.devRef .tc main_v36 : DevRef τ sig)
    = bnRelu (V (Proc.devRef .tc main_v16 : DevRef τ sig)) (V (Proc.devRef .tc main_arg4 : DevRef τ sig)) (V (Proc.devRef .tc main_arg5 : DevRef τ sig)) := by
  after_results_simp
  rfl

theorem stageC_v49 : after opsC V (Proc.devRef .tc main_v49 : DevRef τ sig)
    = conv1At (V (Proc.devRef .tc main_v36 : DevRef τ sig)) (V (Proc.devRef .tc main_v1 : DevRef τ sig)) (V (Proc.devRef .tc main_v3 : DevRef τ sig)) (V (Proc.devRef .tc main_arg6 : DevRef τ sig)) (V (Proc.devRef .tc main_arg7 : DevRef τ sig)) := by
  after_results_simp
  rfl

set_option maxRecDepth 8192 in
set_option maxHeartbeats 1600000 in
theorem stageD_v69 : after opsD V (Proc.devRef .tc main_v69 : DevRef τ sig)
    = bnRelu (V (Proc.devRef .tc main_v49 : DevRef τ sig)) (V (Proc.devRef .tc main_arg8 : DevRef τ sig)) (V (Proc.devRef .tc main_arg9 : DevRef τ sig)) := by
  after_results_simp
  rfl

theorem stageE_v82 : after opsE V (Proc.devRef .tc main_v82 : DevRef τ sig)
    = conv1At (V (Proc.devRef .tc main_v69 : DevRef τ sig)) (V (Proc.devRef .tc main_v1 : DevRef τ sig)) (V (Proc.devRef .tc main_v3 : DevRef τ sig)) (V (Proc.devRef .tc main_arg10 : DevRef τ sig)) (V (Proc.devRef .tc main_arg11 : DevRef τ sig)) := by
  after_results_simp
  rfl

set_option maxRecDepth 8192 in
set_option maxHeartbeats 1600000 in
theorem stageF_v102 : after opsF V (Proc.devRef .tc main_v102 : DevRef τ sig)
    = bnRelu (V (Proc.devRef .tc main_v82 : DevRef τ sig)) (V (Proc.devRef .tc main_arg12 : DevRef τ sig)) (V (Proc.devRef .tc main_arg13 : DevRef τ sig)) := by
  after_results_simp
  rfl

/-! ### What each piece leaves alone: the arguments, and the edge rows while a later layer still reads them -/

theorem keepA_arg0 : after opsA V (Proc.devRef .tc main_arg0 : DevRef τ sig) = V (Proc.devRef .tc main_arg0 : DevRef τ sig) := by after_results_simp
theorem keepA_arg1 : after opsA V (Proc.devRef .tc main_arg1 : DevRef τ sig) = V (Proc.devRef .tc main_arg1 : DevRef τ sig) := by after_results_simp
theorem keepA_arg2 : after opsA V (Proc.devRef .tc main_arg2 : DevRef τ sig) = V (Proc.devRef .tc main_arg2 : DevRef τ sig) := by after_results_simp
theorem keepA_arg3 : after opsA V (Proc.devRef .tc main_arg3 : DevRef τ sig) = V (Proc.devRef .tc main_arg3 : DevRef τ sig) := by after_results_simp
theorem keepA_arg4 : after opsA V (Proc.devRef .tc main_arg4 : DevRef τ sig) = V (Proc.devRef .tc main_arg4 : DevRef τ sig) := by after_results_simp
theorem keepA_arg5 : after opsA V (Proc.devRef .tc main_arg5 : DevRef τ sig) = V (Proc.devRef .tc main_arg5 : DevRef τ sig) := by after_results_simp
theorem keepA_arg6 : after opsA V (Proc.devRef .tc main_arg6 : DevRef τ sig) = V (Proc.devRef .tc main_arg6 : DevRef τ sig) := by after_results_simp
theorem keepA_arg7 : after opsA V (Proc.devRef .tc main_arg7 : DevRef τ sig) = V (Proc.devRef .tc main_arg7 : DevRef τ sig) := by after_results_simp
theorem keepA_arg8 : after opsA V (Proc.devRef .tc main_arg8 : DevRef τ sig) = V (Proc.devRef .tc main_arg8 : DevRef τ sig) := by after_results_simp
theorem keepA_arg9 : after opsA V (Proc.devRef .tc main_arg9 : DevRef τ sig) = V (Proc.devRef .tc main_arg9 : DevRef τ sig) := by after_results_simp
theorem keepA_arg10 : after opsA V (Proc.devRef .tc main_arg10 : DevRef τ sig) = V (Proc.devRef .tc main_arg10 : DevRef τ sig) := by after_results_simp
theorem keepA_arg11 : after opsA V (Proc.devRef .tc main_arg11 : DevRef τ sig) = V (Proc.devRef .tc main_arg11 : DevRef τ sig) := by after_results_simp
theorem keepA_arg12 : after opsA V (Proc.devRef .tc main_arg12 : DevRef τ sig) = V (Proc.devRef .tc main_arg12 : DevRef τ sig) := by after_results_simp
theorem keepA_arg13 : after opsA V (Proc.devRef .tc main_arg13 : DevRef τ sig) = V (Proc.devRef .tc main_arg13 : DevRef τ sig) := by after_results_simp
theorem keepB_arg0 : after opsB V (Proc.devRef .tc main_arg0 : DevRef τ sig) = V (Proc.devRef .tc main_arg0 : DevRef τ sig) := by after_results_simp
theorem keepB_arg1 : after opsB V (Proc.devRef .tc main_arg1 : DevRef τ sig) = V (Proc.devRef .tc main_arg1 : DevRef τ sig) := by after_results_simp
theorem keepB_arg2 : after opsB V (Proc.devRef .tc main_arg2 : DevRef τ sig) = V (Proc.devRef .tc main_arg2 : DevRef τ sig) := by after_results_simp
theorem keepB_arg3 : after opsB V (Proc.devRef .tc main_arg3 : DevRef τ sig) = V (Proc.devRef .tc main_arg3 : DevRef τ sig) := by after_results_simp
theorem keepB_arg4 : after opsB V (Proc.devRef .tc main_arg4 : DevRef τ sig) = V (Proc.devRef .tc main_arg4 : DevRef τ sig) := by after_results_simp
theorem keepB_arg5 : after opsB V (Proc.devRef .tc main_arg5 : DevRef τ sig) = V (Proc.devRef .tc main_arg5 : DevRef τ sig) := by after_results_simp
theorem keepB_arg6 : after opsB V (Proc.devRef .tc main_arg6 : DevRef τ sig) = V (Proc.devRef .tc main_arg6 : DevRef τ sig) := by after_results_simp
theorem keepB_arg7 : after opsB V (Proc.devRef .tc main_arg7 : DevRef τ sig) = V (Proc.devRef .tc main_arg7 : DevRef τ sig) := by after_results_simp
theorem keepB_arg8 : after opsB V (Proc.devRef .tc main_arg8 : DevRef τ sig) = V (Proc.devRef .tc main_arg8 : DevRef τ sig) := by after_results_simp
theorem keepB_arg9 : after opsB V (Proc.devRef .tc main_arg9 : DevRef τ sig) = V (Proc.devRef .tc main_arg9 : DevRef τ sig) := by after_results_simp
theorem keepB_arg10 : after opsB V (Proc.devRef .tc main_arg10 : DevRef τ sig) = V (Proc.devRef .tc main_arg10 : DevRef τ sig) := by after_results_simp
theorem keepB_arg11 : after opsB V (Proc.devRef .tc main_arg11 : DevRef τ sig) = V (Proc.devRef .tc main_arg11 : DevRef τ sig) := by after_results_simp
theorem keepB_arg12 : after opsB V (Proc.devRef .tc main_arg12 : DevRef τ sig) = V (Proc.devRef .tc main_arg12 : DevRef τ sig) := by after_results_simp
theorem keepB_arg13 : after opsB V (Proc.devRef .tc main_arg13 : DevRef τ sig) = V (Proc.devRef .tc main_arg13 : DevRef τ sig) := by after_results_simp
theorem keepB_v1 : after opsB V (Proc.devRef .tc main_v1 : DevRef τ sig) = V (Proc.devRef .tc main_v1 : DevRef τ sig) := by after_results_simp
theorem keepB_v3 : after opsB V (Proc.devRef .tc main_v3 : DevRef τ sig) = V (Proc.devRef .tc main_v3 : DevRef τ sig) := by after_results_simp
theorem keepC_arg0 : after opsC V (Proc.devRef .tc main_arg0 : DevRef τ sig) = V (Proc.devRef .tc main_arg0 : DevRef τ sig) := by after_results_simp
theorem keepC_arg1 : after opsC V (Proc.devRef .tc main_arg1 : DevRef τ sig) = V (Proc.devRef .tc main_arg1 : DevRef τ sig) := by after_results_simp
theorem keepC_arg2 : after opsC V (Proc.devRef .tc main_arg2 : DevRef τ sig) = V (Proc.devRef .tc main_arg2 : DevRef τ sig) := by after_results_simp
theorem keepC_arg3 : after opsC V (Proc.devRef .tc main_arg3 : DevRef τ sig) = V (Proc.devRef .tc main_arg3 : DevRef τ sig) := by after_results_simp
theorem keepC_arg4 : after opsC V (Proc.devRef .tc main_arg4 : DevRef τ sig) = V (Proc.devRef .tc main_arg4 : DevRef τ sig) := by after_results_simp
theorem keepC_arg5 : after opsC V (Proc.devRef .tc main_arg5 : DevRef τ sig) = V (Proc.devRef .tc main_arg5 : DevRef τ sig) := by after_results_simp
theorem keepC_arg6 : after opsC V (Proc.devRef .tc main_arg6 : DevRef τ sig) = V (Proc.devRef .tc main_arg6 : DevRef τ sig) := by after_results_simp
theorem keepC_arg7 : after opsC V (Proc.devRef .tc main_arg7 : DevRef τ sig) = V (Proc.devRef .tc main_arg7 : DevRef τ sig) := by after_results_simp
theorem keepC_arg8 : after opsC V (Proc.devRef .tc main_arg8 : DevRef τ sig) = V (Proc.devRef .tc main_arg8 : DevRef τ sig) := by after_results_simp
theorem keepC_arg9 : after opsC V (Proc.devRef .tc main_arg9 : DevRef τ sig) = V (Proc.devRef .tc main_arg9 : DevRef τ sig) := by after_results_simp
theorem keepC_arg10 : after opsC V (Proc.devRef .tc main_arg10 : DevRef τ sig) = V (Proc.devRef .tc main_arg10 : DevRef τ sig) := by after_results_simp
theorem keepC_arg11 : after opsC V (Proc.devRef .tc main_arg11 : DevRef τ sig) = V (Proc.devRef .tc main_arg11 : DevRef τ sig) := by after_results_simp
theorem keepC_arg12 : after opsC V (Proc.devRef .tc main_arg12 : DevRef τ sig) = V (Proc.devRef .tc main_arg12 : DevRef τ sig) := by after_results_simp
theorem keepC_arg13 : after opsC V (Proc.devRef .tc main_arg13 : DevRef τ sig) = V (Proc.devRef .tc main_arg13 : DevRef τ sig) := by after_results_simp
theorem keepC_v1 : after opsC V (Proc.devRef .tc main_v1 : DevRef τ sig) = V (Proc.devRef .tc main_v1 : DevRef τ sig) := by after_results_simp
theorem keepC_v3 : after opsC V (Proc.devRef .tc main_v3 : DevRef τ sig) = V (Proc.devRef .tc main_v3 : DevRef τ sig) := by after_results_simp
theorem keepD_arg0 : after opsD V (Proc.devRef .tc main_arg0 : DevRef τ sig) = V (Proc.devRef .tc main_arg0 : DevRef τ sig) := by after_results_simp
theorem keepD_arg1 : after opsD V (Proc.devRef .tc main_arg1 : DevRef τ sig) = V (Proc.devRef .tc main_arg1 : DevRef τ sig) := by after_results_simp
theorem keepD_arg2 : after opsD V (Proc.devRef .tc main_arg2 : DevRef τ sig) = V (Proc.devRef .tc main_arg2 : DevRef τ sig) := by after_results_simp
theorem keepD_arg3 : after opsD V (Proc.devRef .tc main_arg3 : DevRef τ sig) = V (Proc.devRef .tc main_arg3 : DevRef τ sig) := by after_results_simp
theorem keepD_arg4 : after opsD V (Proc.devRef .tc main_arg4 : DevRef τ sig) = V (Proc.devRef .tc main_arg4 : DevRef τ sig) := by after_results_simp
theorem keepD_arg5 : after opsD V (Proc.devRef .tc main_arg5 : DevRef τ sig) = V (Proc.devRef .tc main_arg5 : DevRef τ sig) := by after_results_simp
theorem keepD_arg6 : after opsD V (Proc.devRef .tc main_arg6 : DevRef τ sig) = V (Proc.devRef .tc main_arg6 : DevRef τ sig) := by after_results_simp
theorem keepD_arg7 : after opsD V (Proc.devRef .tc main_arg7 : DevRef τ sig) = V (Proc.devRef .tc main_arg7 : DevRef τ sig) := by after_results_simp
theorem keepD_arg8 : after opsD V (Proc.devRef .tc main_arg8 : DevRef τ sig) = V (Proc.devRef .tc main_arg8 : DevRef τ sig) := by after_results_simp
theorem keepD_arg9 : after opsD V (Proc.devRef .tc main_arg9 : DevRef τ sig) = V (Proc.devRef .tc main_arg9 : DevRef τ sig) := by after_results_simp
theorem keepD_arg10 : after opsD V (Proc.devRef .tc main_arg10 : DevRef τ sig) = V (Proc.devRef .tc main_arg10 : DevRef τ sig) := by after_results_simp
theorem keepD_arg11 : after opsD V (Proc.devRef .tc main_arg11 : DevRef τ sig) = V (Proc.devRef .tc main_arg11 : DevRef τ sig) := by after_results_simp
theorem keepD_arg12 : after opsD V (Proc.devRef .tc main_arg12 : DevRef τ sig) = V (Proc.devRef .tc main_arg12 : DevRef τ sig) := by after_results_simp
theorem keepD_arg13 : after opsD V (Proc.devRef .tc main_arg13 : DevRef τ sig) = V (Proc.devRef .tc main_arg13 : DevRef τ sig) := by after_results_simp
theorem keepD_v1 : after opsD V (Proc.devRef .tc main_v1 : DevRef τ sig) = V (Proc.devRef .tc main_v1 : DevRef τ sig) := by after_results_simp
theorem keepD_v3 : after opsD V (Proc.devRef .tc main_v3 : DevRef τ sig) = V (Proc.devRef .tc main_v3 : DevRef τ sig) := by after_results_simp
theorem keepE_arg0 : after opsE V (Proc.devRef .tc main_arg0 : DevRef τ sig) = V (Proc.devRef .tc main_arg0 : DevRef τ sig) := by after_results_simp
theorem keepE_arg1 : after opsE V (Proc.devRef .tc main_arg1 : DevRef τ sig) = V (Proc.devRef .tc main_arg1 : DevRef τ sig) := by after_results_simp
theorem keepE_arg2 : after opsE V (Proc.devRef .tc main_arg2 : DevRef τ sig) = V (Proc.devRef .tc main_arg2 : DevRef τ sig) := by after_results_simp
theorem keepE_arg3 : after opsE V (Proc.devRef .tc main_arg3 : DevRef τ sig) = V (Proc.devRef .tc main_arg3 : DevRef τ sig) := by after_results_simp
theorem keepE_arg4 : after opsE V (Proc.devRef .tc main_arg4 : DevRef τ sig) = V (Proc.devRef .tc main_arg4 : DevRef τ sig) := by after_results_simp
theorem keepE_arg5 : after opsE V (Proc.devRef .tc main_arg5 : DevRef τ sig) = V (Proc.devRef .tc main_arg5 : DevRef τ sig) := by after_results_simp
theorem keepE_arg6 : after opsE V (Proc.devRef .tc main_arg6 : DevRef τ sig) = V (Proc.devRef .tc main_arg6 : DevRef τ sig) := by after_results_simp
theorem keepE_arg7 : after opsE V (Proc.devRef .tc main_arg7 : DevRef τ sig) = V (Proc.devRef .tc main_arg7 : DevRef τ sig) := by after_results_simp
theorem keepE_arg8 : after opsE V (Proc.devRef .tc main_arg8 : DevRef τ sig) = V (Proc.devRef .tc main_arg8 : DevRef τ sig) := by after_results_simp
theorem keepE_arg9 : after opsE V (Proc.devRef .tc main_arg9 : DevRef τ sig) = V (Proc.devRef .tc main_arg9 : DevRef τ sig) := by after_results_simp
theorem keepE_arg10 : after opsE V (Proc.devRef .tc main_arg10 : DevRef τ sig) = V (Proc.devRef .tc main_arg10 : DevRef τ sig) := by after_results_simp
theorem keepE_arg11 : after opsE V (Proc.devRef .tc main_arg11 : DevRef τ sig) = V (Proc.devRef .tc main_arg11 : DevRef τ sig) := by after_results_simp
theorem keepE_arg12 : after opsE V (Proc.devRef .tc main_arg12 : DevRef τ sig) = V (Proc.devRef .tc main_arg12 : DevRef τ sig) := by after_results_simp
theorem keepE_arg13 : after opsE V (Proc.devRef .tc main_arg13 : DevRef τ sig) = V (Proc.devRef .tc main_arg13 : DevRef τ sig) := by after_results_simp
theorem keepF_arg0 : after opsF V (Proc.devRef .tc main_arg0 : DevRef τ sig) = V (Proc.devRef .tc main_arg0 : DevRef τ sig) := by after_results_simp
theorem keepF_arg1 : after opsF V (Proc.devRef .tc main_arg1 : DevRef τ sig) = V (Proc.devRef .tc main_arg1 : DevRef τ sig) := by after_results_simp
theorem keepF_arg2 : after opsF V (Proc.devRef .tc main_arg2 : DevRef τ sig) = V (Proc.devRef .tc main_arg2 : DevRef τ sig) := by after_results_simp
theorem keepF_arg3 : after opsF V (Proc.devRef .tc main_arg3 : DevRef τ sig) = V (Proc.devRef .tc main_arg3 : DevRef τ sig) := by after_results_simp
theorem keepF_arg4 : after opsF V (Proc.devRef .tc main_arg4 : DevRef τ sig) = V (Proc.devRef .tc main_arg4 : DevRef τ sig) := by after_results_simp
theorem keepF_arg5 : after opsF V (Proc.devRef .tc main_arg5 : DevRef τ sig) = V (Proc.devRef .tc main_arg5 : DevRef τ sig) := by after_results_simp
theorem keepF_arg6 : after opsF V (Proc.devRef .tc main_arg6 : DevRef τ sig) = V (Proc.devRef .tc main_arg6 : DevRef τ sig) := by after_results_simp
theorem keepF_arg7 : after opsF V (Proc.devRef .tc main_arg7 : DevRef τ sig) = V (Proc.devRef .tc main_arg7 : DevRef τ sig) := by after_results_simp
theorem keepF_arg8 : after opsF V (Proc.devRef .tc main_arg8 : DevRef τ sig) = V (Proc.devRef .tc main_arg8 : DevRef τ sig) := by after_results_simp
theorem keepF_arg9 : after opsF V (Proc.devRef .tc main_arg9 : DevRef τ sig) = V (Proc.devRef .tc main_arg9 : DevRef τ sig) := by after_results_simp
theorem keepF_arg10 : after opsF V (Proc.devRef .tc main_arg10 : DevRef τ sig) = V (Proc.devRef .tc main_arg10 : DevRef τ sig) := by after_results_simp
theorem keepF_arg11 : after opsF V (Proc.devRef .tc main_arg11 : DevRef τ sig) = V (Proc.devRef .tc main_arg11 : DevRef τ sig) := by after_results_simp
theorem keepF_arg12 : after opsF V (Proc.devRef .tc main_arg12 : DevRef τ sig) = V (Proc.devRef .tc main_arg12 : DevRef τ sig) := by after_results_simp
theorem keepF_arg13 : after opsF V (Proc.devRef .tc main_arg13 : DevRef τ sig) = V (Proc.devRef .tc main_arg13 : DevRef τ sig) := by after_results_simp

end Stages

end Cert.ReferenceIdeal.RefRun

end
-- ==== Proof.RefRun.lean ====
/-
  The plain program's run: from any memory with zero counters every weakly fair execution terminates with the result
  buffer at the three-layer network of the arguments and the arguments unchanged. The line's fold is the pieces' folds
  one after the other; each piece's result is the stage function of what the piece read, and what it read was left
  alone by the pieces in between.
-/
import proofs.«124758_j37177236914932_2_alg».proof.Proof.RefMain
import proofs.«124758_j37177236914932_2_alg».proof.Proof.RefStages

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts]

open Cert.Spec Cert.AfterSplit

variable (V : Valuation τ sig (Elt Ideal))

/-- the whole line's fold is the six pieces' folds, composed -/
theorem after_ops :
    after (ops (F := Ideal)) V = after opsF (after opsE (after opsD (after opsC (after opsB (after opsA V))))) := by
  show after (opsA ++ (opsB ++ (opsC ++ (opsD ++ (opsE ++ (opsF1 ++ opsF2)))))) V = _
  rw [after_append, after_append, after_append, after_append, after_append, ← opsF_eq]

/-- the result buffer ends at the network of the arguments -/
theorem fold_v102 : after (ops (F := Ideal)) V (Proc.devRef .tc main_v102 : DevRef τ sig)
    = net (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) (V (Proc.devRef .tc main_arg10 : DevRef τ sig)) (V (Proc.devRef .tc main_arg11 : DevRef τ sig)) (V (Proc.devRef .tc main_arg12 : DevRef τ sig)) (V (Proc.devRef .tc main_arg13 : DevRef τ sig)) := by
  rw [after_ops, stageF_v102, stageE_v82, stageD_v69, stageC_v49, stageB_v36, stageA_v16]
  rw [keepE_arg12, keepD_arg12, keepC_arg12, keepB_arg12, keepA_arg12,
    keepE_arg13, keepD_arg13, keepC_arg13, keepB_arg13, keepA_arg13,
    keepD_arg10, keepC_arg10, keepB_arg10, keepA_arg10,
    keepD_arg11, keepC_arg11, keepB_arg11, keepA_arg11,
    keepD_v1, keepC_v1, keepB_v1, stageA_v1, keepD_v3, keepC_v3, keepB_v3, stageA_v3,
    keepC_arg8, keepB_arg8, keepA_arg8, keepC_arg9, keepB_arg9, keepA_arg9,
    keepB_arg6, keepA_arg6, keepB_arg7, keepA_arg7,
    keepA_arg4, keepA_arg5, conv1At_rows, conv1At_rows]
  rfl

theorem fold_arg0 : after (ops (F := Ideal)) V (Proc.devRef .tc main_arg0 : DevRef τ sig) = V (Proc.devRef .tc main_arg0 : DevRef τ sig) := by
  rw [after_ops, keepF_arg0, keepE_arg0, keepD_arg0, keepC_arg0, keepB_arg0, keepA_arg0]

theorem fold_arg1 : after (ops (F := Ideal)) V (Proc.devRef .tc main_arg1 : DevRef τ sig) = V (Proc.devRef .tc main_arg1 : DevRef τ sig) := by
  rw [after_ops, keepF_arg1, keepE_arg1, keepD_arg1, keepC_arg1, keepB_arg1, keepA_arg1]

theorem fold_arg2 : after (ops (F := Ideal)) V (Proc.devRef .tc main_arg2 : DevRef τ sig) = V (Proc.devRef .tc main_arg2 : DevRef τ sig) := by
  rw [after_ops, keepF_arg2, keepE_arg2, keepD_arg2, keepC_arg2, keepB_arg2, keepA_arg2]

theorem fold_arg3 : after (ops (F := Ideal)) V (Proc.devRef .tc main_arg3 : DevRef τ sig) = V (Proc.devRef .tc main_arg3 : DevRef τ sig) := by
  rw [after_ops, keepF_arg3, keepE_arg3, keepD_arg3, keepC_arg3, keepB_arg3, keepA_arg3]

theorem fold_arg4 : after (ops (F := Ideal)) V (Proc.devRef .tc main_arg4 : DevRef τ sig) = V (Proc.devRef .tc main_arg4 : DevRef τ sig) := by
  rw [after_ops, keepF_arg4, keepE_arg4, keepD_arg4, keepC_arg4, keepB_arg4, keepA_arg4]

theorem fold_arg5 : after (ops (F := Ideal)) V (Proc.devRef .tc main_arg5 : DevRef τ sig) = V (Proc.devRef .tc main_arg5 : DevRef τ sig) := by
  rw [after_ops, keepF_arg5, keepE_arg5, keepD_arg5, keepC_arg5, keepB_arg5, keepA_arg5]

theorem fold_arg6 : after (ops (F := Ideal)) V (Proc.devRef .tc main_arg6 : DevRef τ sig) = V (Proc.devRef .tc main_arg6 : DevRef τ sig) := by
  rw [after_ops, keepF_arg6, keepE_arg6, keepD_arg6, keepC_arg6, keepB_arg6, keepA_arg6]

theorem fold_arg7 : after (ops (F := Ideal)) V (Proc.devRef .tc main_arg7 : DevRef τ sig) = V (Proc.devRef .tc main_arg7 : DevRef τ sig) := by
  rw [after_ops, keepF_arg7, keepE_arg7, keepD_arg7, keepC_arg7, keepB_arg7, keepA_arg7]

theorem fold_arg8 : after (ops (F := Ideal)) V (Proc.devRef .tc main_arg8 : DevRef τ sig) = V (Proc.devRef .tc main_arg8 : DevRef τ sig) := by
  rw [after_ops, keepF_arg8, keepE_arg8, keepD_arg8, keepC_arg8, keepB_arg8, keepA_arg8]

theorem fold_arg9 : after (ops (F := Ideal)) V (Proc.devRef .tc main_arg9 : DevRef τ sig) = V (Proc.devRef .tc main_arg9 : DevRef τ sig) := by
  rw [after_ops, keepF_arg9, keepE_arg9, keepD_arg9, keepC_arg9, keepB_arg9, keepA_arg9]

theorem fold_arg10 : after (ops (F := Ideal)) V (Proc.devRef .tc main_arg10 : DevRef τ sig) = V (Proc.devRef .tc main_arg10 : DevRef τ sig) := by
  rw [after_ops, keepF_arg10, keepE_arg10, keepD_arg10, keepC_arg10, keepB_arg10, keepA_arg10]

theorem fold_arg11 : after (ops (F := Ideal)) V (Proc.devRef .tc main_arg11 : DevRef τ sig) = V (Proc.devRef .tc main_arg11 : DevRef τ sig) := by
  rw [after_ops, keepF_arg11, keepE_arg11, keepD_arg11, keepC_arg11, keepB_arg11, keepA_arg11]

theorem fold_arg12 : after (ops (F := Ideal)) V (Proc.devRef .tc main_arg12 : DevRef τ sig) = V (Proc.devRef .tc main_arg12 : DevRef τ sig) := by
  rw [after_ops, keepF_arg12, keepE_arg12, keepD_arg12, keepC_arg12, keepB_arg12, keepA_arg12]

theorem fold_arg13 : after (ops (F := Ideal)) V (Proc.devRef .tc main_arg13 : DevRef τ sig) = V (Proc.devRef .tc main_arg13 : DevRef τ sig) := by
  rw [after_ops, keepF_arg13, keepE_arg13, keepD_arg13, keepC_arg13, keepB_arg13, keepA_arg13]

/-- At the compiled mesh, over the extended reals, from any memory with zero counters: every weakly fair execution of the
    plain program terminates, the result buffer holds the network of the arguments' launch contents, and the fourteen
    arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v102)
        = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v102).trans (fold_v102 _),
      (h c main_arg0).trans (fold_arg0 _),
      (h c main_arg1).trans (fold_arg1 _),
      (h c main_arg2).trans (fold_arg2 _),
      (h c main_arg3).trans (fold_arg3 _),
      (h c main_arg4).trans (fold_arg4 _),
      (h c main_arg5).trans (fold_arg5 _),
      (h c main_arg6).trans (fold_arg6 _),
      (h c main_arg7).trans (fold_arg7 _),
      (h c main_arg8).trans (fold_arg8 _),
      (h c main_arg9).trans (fold_arg9 _),
      (h c main_arg10).trans (fold_arg10 _),
      (h c main_arg11).trans (fold_arg11 _),
      (h c main_arg12).trans (fold_arg12 _),
      (h c main_arg13).trans (fold_arg13 _)⟩)
    (run_main m ρ)

end Cert.ReferenceIdeal.RefRun

end
-- ==== Proof.lean ====
/-
  The certificate of a three-layer graph network on 50000 nodes and 800000 edges: a tiled program (four kernels working on
  blocks of 5000 rows, with the gathers, scatter-adds and column statistics between them on the host) against the plain
  jnp program.

  Each layer is  pre = h·W₁ + Σ_{edges e into the node} (h·W₂)[src e],  then a batch normalisation over the node axis and a
  clamp at zero. The tiled program multiplies first and gathers rows of the product where the plain one gathers rows and
  multiplies them: the same sum over the feature axis, entry by entry. It keeps the column mean and variance as [1,256] rows
  and normalises inside the next kernel, block by block, where the plain program normalises the whole array: the same
  expression at every entry, since a block's row p is row 5000·t + p of the array and the four rows are whole. No law of the
  extended reals beyond these identifications is used, so the precondition (finite inputs) is never opened.

  Both programs' runs end with the result at `Cert.Spec.net` of the arguments (KValue.run, RefRun.run); the frames of the two
  kernel programs are the generated ones, the plain program's is its run with the result dropped.
-/
import proofs.«124758_j37177236914932_2_alg».proof.Defs
import proofs.«124758_j37177236914932_2_alg».proof.Proof.Gen.Kernel
import proofs.«124758_j37177236914932_2_alg».proof.Proof.Gen.Kernel.Frame
import proofs.«124758_j37177236914932_2_alg».proof.Proof.Gen.KernelIdeal
import proofs.«124758_j37177236914932_2_alg».proof.Proof.Gen.KernelIdeal.Frame
import proofs.«124758_j37177236914932_2_alg».proof.Proof.Gen.ReferenceIdeal
import proofs.«124758_j37177236914932_2_alg».proof.Proof.Gen.Pre_finite_inputs
import proofs.«124758_j37177236914932_2_alg».proof.Proof.KValue
import proofs.«124758_j37177236914932_2_alg».proof.Proof.RefRun
import Idealize.ShloMosaic.Adequacy
import Idealize.ShloMosaic.Init

noncomputable section

namespace Cert.Proof

open Idealize.ShloMosaic Idealize.ShloMosaic.TcCoe Idealize.SL.Sem

/-- the plain program runs and keeps its arguments: its run with the result dropped -/
theorem frame_ri : Cert.frame_ReferenceIdeal := fun m ρ _ =>
  (θ_run Cert.ReferenceIdeal.defs _ _).mono (fun _ h c => (h c).2) (Cert.ReferenceIdeal.RefRun.run m ρ)

/-- from memories agreeing on the arguments both programs end with the result array at the network of the arguments -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)),
    Cert.KValue.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9, e10, e11, e12, e13⟩ := hagree c
  rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
